-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel

variable [Facts]

def fn {F : FTy → Type} [FloatOps F] (main_arg0 : FVec F S4x4096x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  main_v3
-- ==== Kernel.lean ====
abbrev S4x4096x2048 : Shape := ⟨3, ![4, 4096, 2048]⟩
abbrev S4x3072x2048 : Shape := ⟨3, ![4, 3072, 2048]⟩
abbrev S4x4096 : Shape := ⟨2, ![4, 4096]⟩
abbrev S1x1536x2048 : Shape := ⟨3, ![1, 1536, 2048]⟩
abbrev S_ : Shape := ⟨0, ![]⟩
abbrev S4x1024x2048 : Shape := ⟨3, ![4, 1024, 2048]⟩
abbrev S16x2048 : Shape := ⟨2, ![16, 2048]⟩
abbrev S1x16x2048 : Shape := ⟨3, ![1, 16, 2048]⟩

abbrev nBuf : Table → Nat
  | .hbm => 8
  | .local .tc .vmem => 5
  | .local .scVector .vmem => 3
  | _ => 0

abbrev bufTy : (tb : Table) → Fin (nBuf tb) → BufTy
  | .hbm, ⟨0, _⟩ => ⟨S4x4096x2048, .f32⟩
  | .hbm, ⟨1, _⟩ => ⟨S4x3072x2048, .f32⟩
  | .hbm, ⟨2, _⟩ => ⟨S4x4096, .i32⟩
  | .hbm, ⟨3, _⟩ => ⟨S_, .i32⟩
  | .hbm, ⟨4, _⟩ => ⟨S4x4096, .i32⟩
  | .hbm, ⟨5, _⟩ => ⟨S4x4096, .i1⟩
  | .hbm, ⟨6, _⟩ => ⟨S4x4096, .i1⟩
  | .hbm, ⟨7, _⟩ => ⟨S4x1024x2048, .f32⟩
  | .local .tc .vmem, ⟨0, _⟩ => ⟨S1x1536x2048, .f32⟩
  | .local .tc .vmem, ⟨1, _⟩ => ⟨S1x1536x2048, .f32⟩
  | .local .tc .vmem, ⟨2, _⟩ => ⟨S1x1536x2048, .f32⟩
  | .local .tc .vmem, ⟨3, _⟩ => ⟨S1x1536x2048, .f32⟩
  | .local .tc .vmem, ⟨4, _⟩ => ⟨S4x4096, .i32⟩
  | .local .scVector .vmem, ⟨0, _⟩ => ⟨S16x2048, .f32⟩
  | .local .scVector .vmem, ⟨1, _⟩ => ⟨S16x2048, .f32⟩
  | .local .scVector .vmem, ⟨2, _⟩ => ⟨S16x2048, .f32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0_scv : Ref sig .scVector := ⟨.hbm, 0, rfl⟩
abbrev main_v4_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1536x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![2, 16], ![false, false]⟩

def k1_off1 (i : grid1.Coords) (c0_i32_11 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3072_i32 : BitVec 32 := 3072#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v30 : BitVec 32 := Scalar.addi c3072_i32 v29
  let v32 : BitVec 32 := Scalar.addi v30 c0_i32_11
  let c0_i32_12 : BitVec 32 := 0#32
  ![v18.toNat, v32.toNat, 0]
def k1_off2 (i : grid1.Coords) (c0_i32_18 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32_10 : BitVec 32 := 128#32
  let v31 : BitVec 32 := Scalar.muli v28 c128_i32_10
  let v46 : BitVec 32 := Scalar.addi v31 c0_i32_18
  let c0_i32_19 : BitVec 32 := 0#32
  ![v18.toNat, v46.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S4x4096_d1_w32 : S4x4096.Iotas .tc 32 [1]
  inb_S4x4096_S4x4096_0_0 : ∀ a, (![0, 0] : Fin 2 → Nat) a + S4x4096.size a ≤ S4x4096.size a
  h_S4x4096 : 0 < S4x4096.numel
  natLt_1_32 : 1 < 32
  inb_S1x1536x2048_S1x1536x2048_0_0_0 : ∀ a, (![0, 0, 0] : Fin 3 → Nat) a + S1x1536x2048.size a ≤ S1x1536x2048.size a
  h_S1x1536x2048 : 0 < S1x1536x2048.numel
  bcast_S_S4x4096 : S_.BroadcastsInDim S4x4096 (![] : Fin 0 → Fin S4x4096.rank)
  squeezes_S1x16x2048_S16x2048 : S1x16x2048.Squeezes S16x2048
  hcc1_scratch3 : 5 + S_.numel ≤ 11
  hcc1_scratch4 : 6 + S_.numel ≤ 11
  hcc1_scratch5 : 7 + S_.numel ≤ 11
  hcc1_scratch6 : 8 + S_.numel ≤ 11
  hcc1_scratch7 : 9 + S_.numel ≤ 11
  hcc1_scratch8 : 10 + S_.numel ≤ 11
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x1536x2048.size a < S4x4096x2048.size a
  hwx0_0 : ∀ i : grid0.Coords, EltTy.bits .f32 = 32 ∨ (Rect.unit (s := S4x4096x2048) (fun a => cc0_transform_0 i a * S1x1536x2048.size a) (fun a => (Pipeline.Clip.of (cc0_transform_0 i a) (S1x1536x2048.size a) (S4x4096x2048.size a)).extent (S1x1536x2048.size a)) fun a => Pipeline.Clip.inb (Pipeline.Clip.ok_of (hstart0_0 i a))).WholeWords (EltTy.packing .f32)
  hwxs0_0 : ∀ i : grid0.Coords, EltTy.bits .f32 = 32 ∨ (Rect.unit (s := S1x1536x2048) (fun _ => 0) (fun a => (Pipeline.Clip.of (cc0_transform_0 i a) (S1x1536x2048.size a) (S4x4096x2048.size a)).extent (S1x1536x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1536x2048.size a ≤ S4x3072x2048.size a
  hwx0_1 : ∀ i : grid0.Coords, EltTy.bits .f32 = 32 ∨ (Rect.block (s := S4x3072x2048) S1x1536x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .i32 = 32 ∨ (Rect.block (s := S4x4096) S4x4096.size (cc0_transform_2 i) (hinb0_2 i)).WholeWords (EltTy.packing .i32)
  hcore1 : grid1.bound 0 ≤ τ.nSC
  hsub1 : grid1.bound 1 ≤ τ.nSub
  k1_off1_inb : ∀ i : grid1.Coords, ∀ (r : Fin 8), ∀ a, (k1_off1 i (BitVec.ofNat 32 (16 * r.val))) a + S1x16x2048.size a ≤ S4x4096x2048.size a
  k1_off2_inb : ∀ i : grid1.Coords, ∀ (r : Fin 8), ∀ a, (k1_off2 i (BitVec.ofNat 32 (16 * r.val))) a + S1x16x2048.size a ≤ S4x1024x2048.size a

variable [Facts₀]

abbrev cc1_scratch3 : DmaSems sig S_ := SemArray.consecutive 5 S_ hcc1_scratch3
abbrev cc1_scratch4 : DmaSems sig S_ := SemArray.consecutive 6 S_ hcc1_scratch4
abbrev cc1_scratch5 : DmaSems sig S_ := SemArray.consecutive 7 S_ hcc1_scratch5
abbrev cc1_scratch6 : DmaSems sig S_ := SemArray.consecutive 8 S_ hcc1_scratch6
abbrev cc1_scratch7 : DmaSems sig S_ := SemArray.consecutive 9 S_ hcc1_scratch7
abbrev cc1_scratch8 : DmaSems sig S_ := SemArray.consecutive 10 S_ hcc1_scratch8

abbrev win0_0 : Pipeline.Window sig grid0 :=
  Pipeline.Window.ofSpecClip (Memref.whole main_arg0) S1x1536x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0_0) S1x1536x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) | ⟨_ + 3, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S1024 : Shape := ⟨1, ![1024]⟩
abbrev S_ : Shape := ⟨0, ![]⟩
abbrev S1x1024 : Shape := ⟨2, ![1, 1024]⟩
abbrev S1x1x1x1024 : Shape := ⟨4, ![1, 1, 1, 1024]⟩
abbrev S4x1x1x1024 : Shape := ⟨4, ![4, 1, 1, 1024]⟩
abbrev S4x1024 : Shape := ⟨2, ![4, 1024]⟩
abbrev S4x4096 : Shape := ⟨2, ![4, 4096]⟩
abbrev S4 : Shape := ⟨1, ![4]⟩
abbrev S4x1 : Shape := ⟨2, ![4, 1]⟩
abbrev S4x1024x1 : Shape := ⟨3, ![4, 1024, 1]⟩
abbrev S4x1024x2 : Shape := ⟨3, ![4, 1024, 2]⟩
abbrev S4x3072 : Shape := ⟨2, ![4, 3072]⟩
abbrev S4x3072x1 : Shape := ⟨3, ![4, 3072, 1]⟩
abbrev S1 : Shape := ⟨1, ![1]⟩
abbrev S1x1x1 : Shape := ⟨3, ![1, 1, 1]⟩
abbrev S4x3072x2048 : Shape := ⟨3, ![4, 3072, 2048]⟩
abbrev S4x1024x2048 : Shape := ⟨3, ![4, 1024, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i32⟩
  | .hbm, ⟨5, _⟩ => ⟨S1x1024, .i32⟩
  | .hbm, ⟨6, _⟩ => ⟨S1x1x1x1024, .i32⟩
  | .hbm, ⟨7, _⟩ => ⟨S4x1x1x1024, .i32⟩
  | .hbm, ⟨8, _⟩ => ⟨S4x1024, .i32⟩
  | .hbm, ⟨9, _⟩ => ⟨S_, .i1⟩
  | .hbm, ⟨10, _⟩ => ⟨S4x4096, .i1⟩
  | .hbm, ⟨11, _⟩ => ⟨S4, .i32⟩
  | .hbm, ⟨12, _⟩ => ⟨S4x1, .i32⟩
  | .hbm, ⟨13, _⟩ => ⟨S_, .i32⟩
  | .hbm, ⟨14, _⟩ => ⟨S4x1, .i32⟩
  | .hbm, ⟨15, _⟩ => ⟨S4x1, .i1⟩
  | .hbm, ⟨16, _⟩ => ⟨S_, .i32⟩
  | .hbm, ⟨17, _⟩ => ⟨S4x1, .i32⟩
  | .hbm, ⟨18, _⟩ => ⟨S4x1, .i32⟩
  | .hbm, ⟨19, _⟩ => ⟨S4x1, .i32⟩
  | .hbm, ⟨20, _⟩ => ⟨S_, .i32⟩
  | .hbm, ⟨21, _⟩ => ⟨S4x1024, .i32⟩
  | .hbm, ⟨22, _⟩ => ⟨S4x1024, .i1⟩
  | .hbm, ⟨23, _⟩ => ⟨S_, .i32⟩
  | .hbm, ⟨24, _⟩ => ⟨S4x1024, .i32⟩
  | .hbm, ⟨25, _⟩ => ⟨S4x1024, .i32⟩
  | .hbm, ⟨26, _⟩ => ⟨S4x1024, .i32⟩
  | .hbm, ⟨27, _⟩ => ⟨S4x1024, .i32⟩
  | .hbm, ⟨28, _⟩ => ⟨S4x1024x1, .i32⟩
  | .hbm, ⟨29, _⟩ => ⟨S4x1024x1, .i32⟩
  | .hbm, ⟨30, _⟩ => ⟨S4x1024x2, .i32⟩
  | .hbm, ⟨31, _⟩ => ⟨S_, .i1⟩
  | .hbm, ⟨32, _⟩ => ⟨S4x1024, .i1⟩
  | .hbm, ⟨33, _⟩ => ⟨S4x4096, .i1⟩
  | .hbm, ⟨34, _⟩ => ⟨S4x4096, .i32⟩
  | .hbm, ⟨35, _⟩ => ⟨S4x4096, .i32⟩
  | .hbm, ⟨36, _⟩ => ⟨S4x4096, .i32⟩
  | .hbm, ⟨37, _⟩ => ⟨S4x4096, .i32⟩
  | .hbm, ⟨38, _⟩ => ⟨S4x3072, .i32⟩
  | .hbm, ⟨39, _⟩ => ⟨S4x1024, .i32⟩
  | .hbm, ⟨40, _⟩ => ⟨S4x3072x1, .i32⟩
  | .hbm, ⟨41, _⟩ => ⟨S_, .i32⟩
  | .hbm, ⟨42, _⟩ => ⟨S4x3072x1, .i32⟩
  | .hbm, ⟨43, _⟩ => ⟨S4x3072x1, .i1⟩
  | .hbm, ⟨44, _⟩ => ⟨S_, .i32⟩
  | .hbm, ⟨45, _⟩ => ⟨S4x3072x1, .i32⟩
  | .hbm, ⟨46, _⟩ => ⟨S4x3072x1, .i32⟩
  | .hbm, ⟨47, _⟩ => ⟨S4x3072x1, .i32⟩
  | .hbm, ⟨48, _⟩ => ⟨S1, .i32⟩
  | .hbm, ⟨49, _⟩ => ⟨S_, .i32⟩
  | .hbm, ⟨50, _⟩ => ⟨S4x3072x1, .i32⟩
  | .hbm, ⟨51, _⟩ => ⟨S4x3072x1, .i1⟩
  | .hbm, ⟨52, _⟩ => ⟨S1x1x1, .i32⟩
  | .hbm, ⟨53, _⟩ => ⟨S4x3072x1, .i32⟩
  | .hbm, ⟨54, _⟩ => ⟨S4x3072x1, .i1⟩
  | .hbm, ⟨55, _⟩ => ⟨S4x3072x1, .i1⟩
  | .hbm, ⟨56, _⟩ => ⟨S_, .i1⟩
  | .hbm, ⟨57, _⟩ => ⟨S4x3072, .i1⟩
  | .hbm, ⟨58, _⟩ => ⟨S4x3072x2048, .f32⟩
  | .hbm, ⟨59, _⟩ => ⟨S4x3072x2048, .i1⟩
  | .hbm, ⟨60, _⟩ => ⟨S_, .f32⟩
  | .hbm, ⟨61, _⟩ => ⟨S4x3072x2048, .f32⟩
  | .hbm, ⟨62, _⟩ => ⟨S4x3072x2048, .f32⟩
  | .hbm, ⟨63, _⟩ => ⟨S4x1024x1, .i32⟩
  | .hbm, ⟨64, _⟩ => ⟨S_, .i32⟩
  | .hbm, ⟨65, _⟩ => ⟨S4x1024x1, .i32⟩
  | .hbm, ⟨66, _⟩ => ⟨S4x1024x1, .i1⟩
  | .hbm, ⟨67, _⟩ => ⟨S_, .i32⟩
  | .hbm, ⟨68, _⟩ => ⟨S4x1024x1, .i32⟩
  | .hbm, ⟨69, _⟩ => ⟨S4x1024x1, .i32⟩
  | .hbm, ⟨70, _⟩ => ⟨S4x1024x1, .i32⟩
  | .hbm, ⟨71, _⟩ => ⟨S1, .i32⟩
  | .hbm, ⟨72, _⟩ => ⟨S_, .i32⟩
  | .hbm, ⟨73, _⟩ => ⟨S4x1024x1, .i32⟩
  | .hbm, ⟨74, _⟩ => ⟨S4x1024x1, .i1⟩
  | .hbm, ⟨75, _⟩ => ⟨S1x1x1, .i32⟩
  | .hbm, ⟨76, _⟩ => ⟨S4x1024x1, .i32⟩
  | .hbm, ⟨77, _⟩ => ⟨S4x1024x1, .i1⟩
  | .hbm, ⟨78, _⟩ => ⟨S4x1024x1, .i1⟩
  | .hbm, ⟨79, _⟩ => ⟨S_, .i1⟩
  | .hbm, ⟨80, _⟩ => ⟨S4x1024, .i1⟩
  | .hbm, ⟨81, _⟩ => ⟨S4x1024x2048, .f32⟩
  | .hbm, ⟨82, _⟩ => ⟨S4x1024x2048, .i1⟩
  | .hbm, ⟨83, _⟩ => ⟨S_, .f32⟩
  | .hbm, ⟨84, _⟩ => ⟨S4x1024x2048, .f32⟩
  | .hbm, ⟨85, _⟩ => ⟨S4x1024x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_1 : Ref sig .tc := ⟨.hbm, 13, rfl⟩
abbrev main_v10 : Ref sig .tc := ⟨.hbm, 14, rfl⟩
abbrev main_v11 : Ref sig .tc := ⟨.hbm, 15, rfl⟩
abbrev main_c_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_c_2 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_c_3 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v31 : Ref sig .tc := ⟨.hbm, 62, rfl⟩
abbrev main_v32 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v33 : Ref sig .tc := ⟨.hbm, 85, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1x1024_1 : S1024.BroadcastsInDim S1x1024 (![1] : Fin 1 → Fin S1x1024.rank)
  shapeCasts_S1x1024_S1x1x1x1024 : S1x1024.ShapeCasts S1x1x1x1024
  bcast_S1x1x1x1024_S4x1x1x1024_0_1_2_3 : S1x1x1x1024.BroadcastsInDim S4x1x1x1024 (![0, 1, 2, 3] : Fin 4 → Fin S4x1x1x1024.rank)
  shapeCasts_S4x1x1x1024_S4x1024 : S4x1x1x1024.ShapeCasts S4x1024
  bcast_S_S4x4096 : S_.BroadcastsInDim S4x4096 (![] : Fin 0 → Fin S4x4096.rank)
  bcast_S4_S4x1_0 : S4.BroadcastsInDim S4x1 (![0] : Fin 1 → Fin S4x1.rank)
  bcast_S_S4x1 : S_.BroadcastsInDim S4x1 (![] : Fin 0 → Fin S4x1.rank)
  bcast_S_S4x1024 : S_.BroadcastsInDim S4x1024 (![] : Fin 0 → Fin S4x1024.rank)
  bcast_S4x1_S4x1024_0_1 : S4x1.BroadcastsInDim S4x1024 (![0, 1] : Fin 2 → Fin S4x1024.rank)
  bcast_S4x1024_S4x1024x1_0_1 : S4x1024.BroadcastsInDim S4x1024x1 (![0, 1] : Fin 2 → Fin S4x1024x1.rank)
  concatenates_S4x1024x1_S4x1024x1_S4x1024x2_d2 : Shape.Concatenates [S4x1024x1, S4x1024x1] S4x1024x2 2
  natLt_1_32 : 1 < 32
  slices_S4x4096_S4x3072_0_0 : S4x4096.Slices ![0, 0] S4x3072
  slices_S4x4096_S4x1024_0_3072 : S4x4096.Slices ![0, 3072] S4x1024
  bcast_S4x3072_S4x3072x1_0_1 : S4x3072.BroadcastsInDim S4x3072x1 (![0, 1] : Fin 2 → Fin S4x3072x1.rank)
  bcast_S_S4x3072x1 : S_.BroadcastsInDim S4x3072x1 (![] : Fin 0 → Fin S4x3072x1.rank)
  bcast_S1_S1x1x1_2 : S1.BroadcastsInDim S1x1x1 (![2] : Fin 1 → Fin S1x1x1.rank)
  bcast_S1x1x1_S4x3072x1_0_1_2 : S1x1x1.BroadcastsInDim S4x3072x1 (![0, 1, 2] : Fin 3 → Fin S4x3072x1.rank)
  reducesTo_S4x3072x1_S4x3072_d2 : S4x3072x1.ReducesTo [2] S4x3072
  h_S_ : 0 < S_.numel
  bcast_S4x3072_S4x3072x2048_0_1 : S4x3072.BroadcastsInDim S4x3072x2048 (![0, 1] : Fin 2 → Fin S4x3072x2048.rank)
  bcast_S_S4x3072x2048 : S_.BroadcastsInDim S4x3072x2048 (![] : Fin 0 → Fin S4x3072x2048.rank)
  bcast_S_S4x1024x1 : S_.BroadcastsInDim S4x1024x1 (![] : Fin 0 → Fin S4x1024x1.rank)
  bcast_S1x1x1_S4x1024x1_0_1_2 : S1x1x1.BroadcastsInDim S4x1024x1 (![0, 1, 2] : Fin 3 → Fin S4x1024x1.rank)
  reducesTo_S4x1024x1_S4x1024_d2 : S4x1024x1.ReducesTo [2] S4x1024
  bcast_S4x1024_S4x1024x2048_0_1 : S4x1024.BroadcastsInDim S4x1024x2048 (![0, 1] : Fin 2 → Fin S4x1024x2048.rank)
  bcast_S_S4x1024x2048 : S_.BroadcastsInDim S4x1024x2048 (![] : Fin 0 → Fin S4x1024x2048.rank)
  scatter_S4x4096_S4x1024x2_S4x1024_n_01_01_2_wf : ScatterDims.WF S4x4096 S4x1024x2 S4x1024 [] [0, 1] [0, 1] 2
  gather_S4x4096x2048_S4x3072x1_S4x3072x2048_2_1_0_0_1_2_112048_wf : GatherDims.WF S4x4096x2048 S4x3072x1 S4x3072x2048 [2] [1] [0] [1] [0] 2 ![1, 1, 2048]
  gather_S4x4096x2048_S4x1024x1_S4x1024x2048_2_1_0_0_1_2_112048_wf : GatherDims.WF S4x4096x2048 S4x1024x1 S4x1024x2048 [2] [1] [0] [1] [0] 2 ![1, 1, 2048]

variable [Facts₀]

def scatter_S4x4096_S4x1024x2_S4x1024_n_01_01_2 : ScatterDims S4x4096 S4x1024x2 S4x1024 where
  updateWindowDims := []
  insertedWindowDims := [0, 1]
  scatterDimsToOperandDims := [0, 1]
  indexVectorDim := 2
  wf := scatter_S4x4096_S4x1024x2_S4x1024_n_01_01_2_wf
def comparator_i32_i32_d1 : BitVec 32 × BitVec 32 → BitVec 32 × BitVec 32 → BitVec 1 :=
  fun l r =>
    let v2 := IntOp.cmpi .slt l.1 r.1
    v2
def gather_S4x4096x2048_S4x3072x1_S4x3072x2048_2_1_0_0_1_2_112048 : GatherDims S4x4096x2048 S4x3072x1 S4x3072x2048 where
  offsetDims := [2]
  collapsedSliceDims := [1]
  operandBatchingDims := [0]
  startIndicesBatchingDims := [0]
  startIndexMap := [1]
  indexVectorDim := 2
  sliceSizes := ![1, 1, 2048]
  wf := gather_S4x4096x2048_S4x3072x1_S4x3072x2048_2_1_0_0_1_2_112048_wf
def gather_S4x4096x2048_S4x1024x1_S4x1024x2048_2_1_0_0_1_2_112048 : GatherDims S4x4096x2048 S4x1024x1 S4x1024x2048 where
  offsetDims := [2]
  collapsedSliceDims := [1]
  operandBatchingDims := [0]
  startIndicesBatchingDims := [0]
  startIndexMap := [1]
  indexVectorDim := 2
  sliceSizes := ![1, 1, 2048]
  wf := gather_S4x4096x2048_S4x1024x1_S4x1024x2048_2_1_0_0_1_2_112048_wf

class Facts : Prop extends Facts₀ where

variable [Facts]
-- ==== Proof.Spec.lean ====
/-
  The specification shared by both sides. The input is an array x of shape [4, 4096, 2048] (batch, time, feature).
  The last quarter of the time axis (rows 3072..4095) is masked. The three results are
    visible[b, r, f] = x[b, r, f]            for r < 3072,
    masked [b, r, f] = x[b, 3072 + r, f]     for r < 1024,
    mask   [b, t]    = (3072 ≤ t).
  This module states the two index maps and the mask as plain functions over literal shapes.
-/
import Idealize.ShloMosaic.Lib.ValueIdx
import Idealize.ShloMosaic.PureOps

namespace Cert.Spec

open Idealize.ShloMosaic Idealize.ShloMosaic.ValueIdx

/-- The shape of the input, [4, 4096, 2048]. -/
abbrev SX : Shape := ⟨3, ![4, 4096, 2048]⟩
/-- The shape of the visible part, [4, 3072, 2048]. -/
abbrev SVis : Shape := ⟨3, ![4, 3072, 2048]⟩
/-- The shape of the masked part, [4, 1024, 2048]. -/
abbrev SMsk : Shape := ⟨3, ![4, 1024, 2048]⟩
/-- The shape of the mask, [4, 4096]. -/
abbrev SM : Shape := ⟨2, ![4, 4096]⟩

/-- Where an element of the visible part sits in the input: the same batch, row and feature. -/
def visIdx (i : SVis.Idx) : SX.Idx :=
  ix3 (n0 := 4) (n1 := 4096) (n2 := 2048) (i 0)
    ⟨(i 1).val, by have h : (i 1).val < 3072 := (i 1).isLt; omega⟩ (i 2)

/-- Where an element of the masked part sits in the input: the same batch and feature, the row moved up by 3072. -/
def mskIdx (i : SMsk.Idx) : SX.Idx :=
  ix3 (n0 := 4) (n1 := 4096) (n2 := 2048) (i 0)
    ⟨3072 + (i 1).val, by have h : (i 1).val < 1024 := (i 1).isLt; omega⟩ (i 2)

/-- The mask as one bit per (batch, time): set exactly on the last 1024 time steps. -/
def maskBit (i : SM.Idx) : BitVec 1 := if 3072 ≤ (i 1).val then 1#1 else 0#1

theorem visIdx_0 (i : SVis.Idx) : (visIdx i 0).val = (i 0).val := rfl
theorem visIdx_1 (i : SVis.Idx) : (visIdx i 1).val = (i 1).val := rfl
theorem visIdx_2 (i : SVis.Idx) : (visIdx i 2).val = (i 2).val := rfl
theorem mskIdx_0 (i : SMsk.Idx) : (mskIdx i 0).val = (i 0).val := rfl
theorem mskIdx_1 (i : SMsk.Idx) : (mskIdx i 1).val = 3072 + (i 1).val := rfl
theorem mskIdx_2 (i : SMsk.Idx) : (mskIdx i 2).val = (i 2).val := rfl

end Cert.Spec
-- ==== Proof.KSetup.lean ====
/-
  The idealized kernel's program as the launch theorem of a SparseCore program sees it, and the vocabulary the rest
  of the kernel-side proof is stated in: the resource algebra (handshake rounds, the TensorCore pipeline's rounds, the
  transfer counters), the arrays as locations, the vector-subcore kernel's memrefs, and — per vector subcore and per
  chunk r < 8 — the 16-row slice of the input it reads and the 16-row slice of the masked output it writes.

  Mathematics. Vector subcore (c, s) has number w = 2·s + c (0 ≤ w < 32). It copies rows
  3072 + 128·(w mod 8) + 16·r … + 15 of batch w / 8 of the input to rows 128·(w mod 8) + 16·r … + 15 of batch
  w / 8 of the masked output, for r = 0 … 7, through three staging buffers. So the masked output ends at
  out[b, t, f] = x[b, 3072 + t, f] (`outOf`): one function of the input for every subcore and chunk.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«216793_g32547262169289_cont_8to1_b_717_18_alg».proof.Proof.Gen.KernelIdeal
import proofs.«216793_g32547262169289_cont_8to1_b_717_18_alg».proof.Proof.Gen.KernelIdeal.Skeleton
import proofs.«216793_g32547262169289_cont_8to1_b_717_18_alg».proof.Proof.Gen.KernelIdeal.Launch
import proofs.«216793_g32547262169289_cont_8to1_b_717_18_alg».proof.Proof.Spec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The handshakes' rounds library: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The TensorCore pipeline's rounds library: the middle factor. The counters are found by instance in the right. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays and the vector-subcore kernel's memrefs -/

/-- The input x, the visible part, the mask as 32-bit words (the pipeline's second result), the masked part, and the
    mask as bits (the last host operation's result), as locations of device `d`. -/
abbrev xLoc (d : Dev nD) : Loc nD τ sig := (SparseCore.T d).loc main_arg0
abbrev visLoc (d : Dev nD) : Loc nD τ sig := (SparseCore.T d).loc main_v0_0
abbrev mwLoc (d : Dev nD) : Loc nD τ sig := (SparseCore.T d).loc main_v0_1
abbrev outLoc (d : Dev nD) : Loc nD τ sig := (SparseCore.T d).loc main_v4
abbrev mbLoc (d : Dev nD) : Loc nD τ sig := (SparseCore.T d).loc main_v3

abbrev xV : Memref sig .scVector .hbm S4x4096x2048 .f32 := Memref.whole main_arg0_scv
abbrev oV : Memref sig .scVector .hbm S4x1024x2048 .f32 := Memref.whole main_v4_scv
/-- A vector subcore's three staging buffers. -/
abbrev b0 : Memref sig .scVector .vmem S16x2048 .f32 := Memref.whole cc1_scratch0
abbrev b1 : Memref sig .scVector .vmem S16x2048 .f32 := Memref.whole cc1_scratch1
abbrev b2 : Memref sig .scVector .vmem S16x2048 .f32 := Memref.whole cc1_scratch2

/-- The vector subcore a grid point of the SparseCore call names. -/
abbrev cV (L : grid1.Coords) : Fin τ.nSC := (L 0).castLE hcore1
abbrev jV (L : grid1.Coords) : Fin τ.nSub := (L 1).castLE hsub1

/-- Chunk `r` of subcore `L`: the 16 rows of the input it reads, -/
abbrev srcRect (L : grid1.Coords) (r : Fin 8) : Rect S4x4096x2048 :=
  Rect.unit (s := S4x4096x2048) (k1_off1 L (BitVec.ofNat 32 (16 * r.val))) S1x16x2048.size (k1_off1_inb L r)
/-- and the 16 rows of the masked output it writes. -/
abbrev dstRect (L : grid1.Coords) (r : Fin 8) : Rect S4x1024x2048 :=
  Rect.unit (s := S4x1024x2048) (k1_off2 L (BitVec.ofNat 32 (16 * r.val))) S1x16x2048.size (k1_off2_inb L r)
/-- The two as the kernel slices and squeezes them (the memrefs its copies name). -/
abbrev srcK (L : grid1.Coords) (r : Fin 8) : Memref sig .scVector .hbm S16x2048 .f32 :=
  ((xV : Memref sig .scVector .hbm S4x4096x2048 .f32).slice (srcRect L r) (fun _ => rfl)).squeeze S16x2048 squeezes_S1x16x2048_S16x2048
abbrev dstK (L : grid1.Coords) (r : Fin 8) : Memref sig .scVector .hbm S16x2048 .f32 :=
  ((oV : Memref sig .scVector .hbm S4x1024x2048 .f32).slice (dstRect L r) (fun _ => rfl)).squeeze S16x2048 squeezes_S1x16x2048_S16x2048
/-- The elements of the input chunk `r` of subcore `L` covers, and of the masked output. -/
abbrev srcSet (L : grid1.Coords) (r : Fin 8) : Finset S4x4096x2048.Idx := (srcK L r).view.set
abbrev dstSet (L : grid1.Coords) (r : Fin 8) : Finset S4x1024x2048.Idx := (dstK L r).view.set

/-- The subcore's number w = 2·s + c. -/
def wid (L : grid1.Coords) : ℕ := 2 * (L 1).val + (L 0).val

/-- What the masked output holds in the end, as ONE function of the input's contents: out[b, t, f] = x[b, 3072 + t, f]. -/
def outOf (x : S4x4096x2048.Idx → Elt F .f32) : S4x1024x2048.Idx → Elt F .f32 := fun j => x (Cert.Spec.mskIdx j)
/-- What the visible part holds in the end: vis[b, t, f] = x[b, t, f]. -/
def visOf (x : S4x4096x2048.Idx → Elt F .f32) : S4x3072x2048.Idx → Elt F .f32 := fun j => x (Cert.Spec.visIdx j)
/-- The mask as the pipeline writes it, a 32-bit word per (batch, time): 1 on the last 1024 time steps, else 0. -/
def maskWord : S4x4096.Idx → BitVec 32 := fun j => (Cert.Spec.maskBit j).setWidth 32

end Cert.KernelIdeal.Hand

end
-- ==== Proof.KTileOff.lean ====
/-
  Closed forms of the two offset functions of the vector-subcore kernel's copies.

  Mathematics. Vector subcore (c, s) has number w = 2·s + c, 0 ≤ w < 32. The kernel computes its batch as the
  floor division w / 8 and its block as the floor remainder w mod 8 (both through signed division with the usual
  correction terms, which vanish because w ≥ 0 and 8 > 0). Chunk r < 8 then reads the input at row
  3072 + 128·(w mod 8) + 16·r and writes the masked output at row 128·(w mod 8) + 16·r, both in batch w / 8, from
  feature 0. Every intermediate word is followed as an integer, with the 32-bit range checked at each step; the
  sign test on w splits the chain in two (w = 0 and w ≥ 1).
-/
import proofs.«216793_g32547262169289_cont_8to1_b_717_18_alg».proof.Proof.KSetup

noncomputable section

namespace Cert.KernelIdeal.Hand

open Cert.KernelIdeal Cert.KernelIdeal.Gen

open Idealize.ShloMosaic

/-- The offsets of chunk `r`'s read of the input: batch w / 8, row 3072 + 128·(w mod 8) + 16·r, feature 0. -/
theorem k1_off1_eq (L : grid1.Coords) (r : Fin 8) :
    k1_off1 L (BitVec.ofNat 32 (16 * r.val)) = ![wid L / 8, 3072 + 128 * (wid L % 8) + 16 * r.val, 0] := by
  have r_r : r.val < 8 := r.isLt
  have h_c0_i32_11 : Affine.IsInt (BitVec.ofNat 32 (16 * r.val)) (16 * (r.val : Int)) := Affine.ofNat _ (by omega)
  have r_i1 : (L 1).val < 16 := (L 1).isLt
  have h_arg1 : Affine.IsInt (BitVec.ofNat 32 (L 1).val) (((L 1).val : Int)) := Affine.ofNat _ (by omega)
  have h_c2_i32 : Affine.IsInt 2#32 (2) := Affine.ofNat _ (by omega)
  have h_v0 : Affine.IsInt _ (2 * ((L 1).val : Int)) := Affine.muli h_arg1 h_c2_i32 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c0_i32 : Affine.IsInt 0#32 (0) := Affine.ofNat _ (by omega)
  rcases (show 2 * ((L 1).val : Int) + ((L 0).val : Int) ≤ 0 ∨ 1 ≤ 2 * ((L 1).val : Int) + ((L 0).val : Int) by omega) with hs | hs
  · have h_v3 : Affine.Fails _ := Affine.sgt_fails h_v1 h_c0_i32 (by omega)
    have h_v4 : Affine.IsInt _ (0) := Affine.extui_fails h_v3 (by omega)
    have h_c0_i32_0 : Affine.IsInt 0#32 (0) := Affine.ofNat _ (by omega)
    have h_v5 : Affine.Fails _ := Affine.slt_fails h_v1 h_c0_i32_0 (by omega)
    have h_v6 : Affine.IsInt _ (0) := Affine.extui_fails h_v5 (by omega)
    have h_v7 : Affine.IsInt _ (0) := Affine.subi h_v4 h_v6 (by omega)
    have h_c8_i32 : Affine.IsInt 8#32 (8) := Affine.ofNat _ (by omega)
    have h_c0_i32_1 : Affine.IsInt 0#32 (0) := Affine.ofNat _ (by omega)
    have h_v8 : Affine.Holds _ := Affine.sgt_holds h_c8_i32 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_c8_i32 h_c0_i32_2 (by omega)
    have h_v11 : Affine.IsInt _ (0) := Affine.extui_fails h_v10 (by omega)
    have h_v12 : Affine.IsInt _ (1) := Affine.subi h_v9 h_v11 (by omega)
    have h_v13 : Affine.Holds _ := Affine.ne_holds h_v7 h_v12 (by omega)
    have h_v14 : Affine.IsInt _ (2 * ((L 1).val : Int) + ((L 0).val : Int)) := Affine.remsi h_v1 h_c8_i32 (by omega)
    have h_c0_i32_3 : Affine.IsInt 0#32 (0) := Affine.ofNat _ (by omega)
    have h_v15 : Affine.Fails _ := Affine.ne_fails h_v14 h_c0_i32_3 (by omega)
    have h_v16 : Affine.Fails _ := Affine.andi_fails_right (Affine.tH h_v13) h_v15
    have h_v2 : Affine.IsInt _ (((2 * ((L 1).val : Int) + ((L 0).val : Int)) / 8)) := Affine.divsi h_v1 h_c8_i32 (by omega)
    have h_c1_i32 : Affine.IsInt 1#32 (1) := Affine.ofNat _ (by omega)
    have h_v17 : Affine.IsInt _ (((2 * ((L 1).val : Int) + ((L 0).val : Int)) / 8) - 1) := Affine.subi h_v2 h_c1_i32 (by omega)
    have h_v18 : Affine.IsInt _ (((2 * ((L 1).val : Int) + ((L 0).val : Int)) / 8)) := Affine.select_fails h_v16 h_v17 h_v2 (by omega)
    have h_c3072_i32 : Affine.IsInt 3072#32 (3072) := Affine.ofNat _ (by omega)
    have h_c8_i32_4 : Affine.IsInt 8#32 (8) := Affine.ofNat _ (by omega)
    have h_c0_i32_5 : Affine.IsInt 0#32 (0) := Affine.ofNat _ (by omega)
    have h_v19 : Affine.Fails _ := Affine.eq_fails h_c8_i32_4 h_c0_i32_5 (by omega)
    have h_c1_i32_6 : Affine.IsInt 1#32 (1) := Affine.ofNat _ (by omega)
    have h_v20 : Affine.IsInt _ (8) := Affine.select_fails h_v19 h_c1_i32_6 h_c8_i32_4 (by omega)
    have h_v21 : Affine.IsInt _ (2 * ((L 1).val : Int) + ((L 0).val : Int)) := Affine.remsi h_v1 h_v20 (by omega)
    have h_c0_i32_8 : Affine.IsInt 0#32 (0) := Affine.ofNat _ (by omega)
    have h_v23 : Affine.Fails _ := Affine.slt_fails h_v21 h_c0_i32_8 (by omega)
    have h_c0_i32_9 : Affine.IsInt 0#32 (0) := Affine.ofNat _ (by omega)
    have h_v24 : Affine.Fails _ := Affine.slt_fails h_v20 h_c0_i32_9 (by omega)
    have h_v25 : Affine.Fails _ := Affine.xori_ff h_v23 h_v24
    have h_c0_i32_7 : Affine.IsInt 0#32 (0) := Affine.ofNat _ (by omega)
    have h_v22 : Affine.Fails _ := Affine.ne_fails h_v21 h_c0_i32_7 (by omega)
    have h_v26 : Affine.Fails _ := Affine.andi_fails_left h_v25 (Affine.tF h_v22)
    have h_v27 : Affine.IsInt _ (2 * ((L 1).val : Int) + ((L 0).val : Int) + 8) := Affine.addi h_v21 h_v20 (by omega)
    have h_v28 : Affine.IsInt _ (2 * ((L 1).val : Int) + ((L 0).val : Int)) := Affine.select_fails h_v26 h_v27 h_v21 (by omega)
    have h_c128_i32 : Affine.IsInt 128#32 (128) := Affine.ofNat _ (by omega)
    have h_v29 : Affine.IsInt _ (256 * ((L 1).val : Int) + 128 * ((L 0).val : Int)) := Affine.muli h_v28 h_c128_i32 (by omega)
    have h_v30 : Affine.IsInt _ (256 * ((L 1).val : Int) + 128 * ((L 0).val : Int) + 3072) := Affine.addi h_c3072_i32 h_v29 (by omega)
    have h_v32 : Affine.IsInt _ (256 * ((L 1).val : Int) + 128 * ((L 0).val : Int) + 16 * (r.val : Int) + 3072) := Affine.addi h_v30 h_c0_i32_11 (by omega)
    have h_c0_i32_12 : Affine.IsInt 0#32 (0) := Affine.ofNat _ (by omega)
    exact Affine.vec_cons h_v18 (by unfold wid; omega) <| Affine.vec_cons h_v32 (by unfold wid; omega) <| Affine.vec_cons (Affine.ofNat 0 (by omega) : Affine.IsInt 0#32 0) (by omega) <| Affine.vec_nil
  · have h_v3 : Affine.Holds _ := Affine.sgt_holds h_v1 h_c0_i32 (by omega)
    have h_v4 : Affine.IsInt _ (1) := Affine.extui_holds h_v3 (by omega)
    have h_c0_i32_0 : Affine.IsInt 0#32 (0) := Affine.ofNat _ (by omega)
    have h_v5 : Affine.Fails _ := Affine.slt_fails h_v1 h_c0_i32_0 (by omega)
    have h_v6 : Affine.IsInt _ (0) := Affine.extui_fails h_v5 (by omega)
    have h_v7 : Affine.IsInt _ (1) := Affine.subi h_v4 h_v6 (by omega)
    have h_c8_i32 : Affine.IsInt 8#32 (8) := Affine.ofNat _ (by omega)
    have h_c0_i32_1 : Affine.IsInt 0#32 (0) := Affine.ofNat _ (by omega)
    have h_v8 : Affine.Holds _ := Affine.sgt_holds h_c8_i32 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_c8_i32 h_c0_i32_2 (by omega)
    have h_v11 : Affine.IsInt _ (0) := Affine.extui_fails h_v10 (by omega)
    have h_v12 : Affine.IsInt _ (1) := Affine.subi h_v9 h_v11 (by omega)
    have h_v13 : Affine.Fails _ := Affine.ne_fails h_v7 h_v12 (by omega)
    have h_v14 : Affine.IsInt _ (((2 * ((L 1).val : Int) + ((L 0).val : Int)) % 8)) := Affine.remsi h_v1 h_c8_i32 (by omega)
    have h_c0_i32_3 : Affine.IsInt 0#32 (0) := Affine.ofNat _ (by omega)
    have h_v15 : Affine.Term _ := Affine.cmpi_term .ne h_v14 h_c0_i32_3
    have h_v16 : Affine.Fails _ := Affine.andi_fails_left h_v13 h_v15
    have h_v2 : Affine.IsInt _ (((2 * ((L 1).val : Int) + ((L 0).val : Int)) / 8)) := Affine.divsi h_v1 h_c8_i32 (by omega)
    have h_c1_i32 : Affine.IsInt 1#32 (1) := Affine.ofNat _ (by omega)
    have h_v17 : Affine.IsInt _ (((2 * ((L 1).val : Int) + ((L 0).val : Int)) / 8) - 1) := Affine.subi h_v2 h_c1_i32 (by omega)
    have h_v18 : Affine.IsInt _ (((2 * ((L 1).val : Int) + ((L 0).val : Int)) / 8)) := Affine.select_fails h_v16 h_v17 h_v2 (by omega)
    have h_c3072_i32 : Affine.IsInt 3072#32 (3072) := Affine.ofNat _ (by omega)
    have h_c8_i32_4 : Affine.IsInt 8#32 (8) := Affine.ofNat _ (by omega)
    have h_c0_i32_5 : Affine.IsInt 0#32 (0) := Affine.ofNat _ (by omega)
    have h_v19 : Affine.Fails _ := Affine.eq_fails h_c8_i32_4 h_c0_i32_5 (by omega)
    have h_c1_i32_6 : Affine.IsInt 1#32 (1) := Affine.ofNat _ (by omega)
    have h_v20 : Affine.IsInt _ (8) := Affine.select_fails h_v19 h_c1_i32_6 h_c8_i32_4 (by omega)
    have h_v21 : Affine.IsInt _ (((2 * ((L 1).val : Int) + ((L 0).val : Int)) % 8)) := Affine.remsi h_v1 h_v20 (by omega)
    have h_c0_i32_8 : Affine.IsInt 0#32 (0) := Affine.ofNat _ (by omega)
    have h_v23 : Affine.Fails _ := Affine.slt_fails h_v21 h_c0_i32_8 (by omega)
    have h_c0_i32_9 : Affine.IsInt 0#32 (0) := Affine.ofNat _ (by omega)
    have h_v24 : Affine.Fails _ := Affine.slt_fails h_v20 h_c0_i32_9 (by omega)
    have h_v25 : Affine.Fails _ := Affine.xori_ff h_v23 h_v24
    have h_c0_i32_7 : Affine.IsInt 0#32 (0) := Affine.ofNat _ (by omega)
    have h_v22 : Affine.Term _ := Affine.cmpi_term .ne h_v21 h_c0_i32_7
    have h_v26 : Affine.Fails _ := Affine.andi_fails_left h_v25 h_v22
    have h_v27 : Affine.IsInt _ (((2 * ((L 1).val : Int) + ((L 0).val : Int)) % 8) + 8) := Affine.addi h_v21 h_v20 (by omega)
    have h_v28 : Affine.IsInt _ (((2 * ((L 1).val : Int) + ((L 0).val : Int)) % 8)) := Affine.select_fails h_v26 h_v27 h_v21 (by omega)
    have h_c128_i32 : Affine.IsInt 128#32 (128) := Affine.ofNat _ (by omega)
    have h_v29 : Affine.IsInt _ (128 * ((2 * ((L 1).val : Int) + ((L 0).val : Int)) % 8)) := Affine.muli h_v28 h_c128_i32 (by omega)
    have h_v30 : Affine.IsInt _ (128 * ((2 * ((L 1).val : Int) + ((L 0).val : Int)) % 8) + 3072) := Affine.addi h_c3072_i32 h_v29 (by omega)
    have h_v32 : Affine.IsInt _ (128 * ((2 * ((L 1).val : Int) + ((L 0).val : Int)) % 8) + 16 * (r.val : Int) + 3072) := Affine.addi h_v30 h_c0_i32_11 (by omega)
    have h_c0_i32_12 : Affine.IsInt 0#32 (0) := Affine.ofNat _ (by omega)
    exact Affine.vec_cons h_v18 (by unfold wid; omega) <| Affine.vec_cons h_v32 (by unfold wid; omega) <| Affine.vec_cons (Affine.ofNat 0 (by omega) : Affine.IsInt 0#32 0) (by omega) <| Affine.vec_nil

/-- The offsets of chunk `r`'s write of the masked output: batch w / 8, row 128·(w mod 8) + 16·r, feature 0. -/
theorem k1_off2_eq (L : grid1.Coords) (r : Fin 8) :
    k1_off2 L (BitVec.ofNat 32 (16 * r.val)) = ![wid L / 8, 128 * (wid L % 8) + 16 * r.val, 0] := by
  have r_r : r.val < 8 := r.isLt
  have h_c0_i32_18 : Affine.IsInt (BitVec.ofNat 32 (16 * r.val)) (16 * (r.val : Int)) := Affine.ofNat _ (by omega)
  have r_i1 : (L 1).val < 16 := (L 1).isLt
  have h_arg1 : Affine.IsInt (BitVec.ofNat 32 (L 1).val) (((L 1).val : Int)) := Affine.ofNat _ (by omega)
  have h_c2_i32 : Affine.IsInt 2#32 (2) := Affine.ofNat _ (by omega)
  have h_v0 : Affine.IsInt _ (2 * ((L 1).val : Int)) := Affine.muli h_arg1 h_c2_i32 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c0_i32 : Affine.IsInt 0#32 (0) := Affine.ofNat _ (by omega)
  rcases (show 2 * ((L 1).val : Int) + ((L 0).val : Int) ≤ 0 ∨ 1 ≤ 2 * ((L 1).val : Int) + ((L 0).val : Int) by omega) with hs | hs
  · have h_v3 : Affine.Fails _ := Affine.sgt_fails h_v1 h_c0_i32 (by omega)
    have h_v4 : Affine.IsInt _ (0) := Affine.extui_fails h_v3 (by omega)
    have h_c0_i32_0 : Affine.IsInt 0#32 (0) := Affine.ofNat _ (by omega)
    have h_v5 : Affine.Fails _ := Affine.slt_fails h_v1 h_c0_i32_0 (by omega)
    have h_v6 : Affine.IsInt _ (0) := Affine.extui_fails h_v5 (by omega)
    have h_v7 : Affine.IsInt _ (0) := Affine.subi h_v4 h_v6 (by omega)
    have h_c8_i32 : Affine.IsInt 8#32 (8) := Affine.ofNat _ (by omega)
    have h_c0_i32_1 : Affine.IsInt 0#32 (0) := Affine.ofNat _ (by omega)
    have h_v8 : Affine.Holds _ := Affine.sgt_holds h_c8_i32 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_c8_i32 h_c0_i32_2 (by omega)
    have h_v11 : Affine.IsInt _ (0) := Affine.extui_fails h_v10 (by omega)
    have h_v12 : Affine.IsInt _ (1) := Affine.subi h_v9 h_v11 (by omega)
    have h_v13 : Affine.Holds _ := Affine.ne_holds h_v7 h_v12 (by omega)
    have h_v14 : Affine.IsInt _ (2 * ((L 1).val : Int) + ((L 0).val : Int)) := Affine.remsi h_v1 h_c8_i32 (by omega)
    have h_c0_i32_3 : Affine.IsInt 0#32 (0) := Affine.ofNat _ (by omega)
    have h_v15 : Affine.Fails _ := Affine.ne_fails h_v14 h_c0_i32_3 (by omega)
    have h_v16 : Affine.Fails _ := Affine.andi_fails_right (Affine.tH h_v13) h_v15
    have h_v2 : Affine.IsInt _ (((2 * ((L 1).val : Int) + ((L 0).val : Int)) / 8)) := Affine.divsi h_v1 h_c8_i32 (by omega)
    have h_c1_i32 : Affine.IsInt 1#32 (1) := Affine.ofNat _ (by omega)
    have h_v17 : Affine.IsInt _ (((2 * ((L 1).val : Int) + ((L 0).val : Int)) / 8) - 1) := Affine.subi h_v2 h_c1_i32 (by omega)
    have h_v18 : Affine.IsInt _ (((2 * ((L 1).val : Int) + ((L 0).val : Int)) / 8)) := Affine.select_fails h_v16 h_v17 h_v2 (by omega)
    have h_c8_i32_4 : Affine.IsInt 8#32 (8) := Affine.ofNat _ (by omega)
    have h_c0_i32_5 : Affine.IsInt 0#32 (0) := Affine.ofNat _ (by omega)
    have h_v19 : Affine.Fails _ := Affine.eq_fails h_c8_i32_4 h_c0_i32_5 (by omega)
    have h_c1_i32_6 : Affine.IsInt 1#32 (1) := Affine.ofNat _ (by omega)
    have h_v20 : Affine.IsInt _ (8) := Affine.select_fails h_v19 h_c1_i32_6 h_c8_i32_4 (by omega)
    have h_v21 : Affine.IsInt _ (2 * ((L 1).val : Int) + ((L 0).val : Int)) := Affine.remsi h_v1 h_v20 (by omega)
    have h_c0_i32_8 : Affine.IsInt 0#32 (0) := Affine.ofNat _ (by omega)
    have h_v23 : Affine.Fails _ := Affine.slt_fails h_v21 h_c0_i32_8 (by omega)
    have h_c0_i32_9 : Affine.IsInt 0#32 (0) := Affine.ofNat _ (by omega)
    have h_v24 : Affine.Fails _ := Affine.slt_fails h_v20 h_c0_i32_9 (by omega)
    have h_v25 : Affine.Fails _ := Affine.xori_ff h_v23 h_v24
    have h_c0_i32_7 : Affine.IsInt 0#32 (0) := Affine.ofNat _ (by omega)
    have h_v22 : Affine.Fails _ := Affine.ne_fails h_v21 h_c0_i32_7 (by omega)
    have h_v26 : Affine.Fails _ := Affine.andi_fails_left h_v25 (Affine.tF h_v22)
    have h_v27 : Affine.IsInt _ (2 * ((L 1).val : Int) + ((L 0).val : Int) + 8) := Affine.addi h_v21 h_v20 (by omega)
    have h_v28 : Affine.IsInt _ (2 * ((L 1).val : Int) + ((L 0).val : Int)) := Affine.select_fails h_v26 h_v27 h_v21 (by omega)
    have h_c128_i32_10 : Affine.IsInt 128#32 (128) := Affine.ofNat _ (by omega)
    have h_v31 : Affine.IsInt _ (256 * ((L 1).val : Int) + 128 * ((L 0).val : Int)) := Affine.muli h_v28 h_c128_i32_10 (by omega)
    have h_v46 : Affine.IsInt _ (256 * ((L 1).val : Int) + 128 * ((L 0).val : Int) + 16 * (r.val : Int)) := Affine.addi h_v31 h_c0_i32_18 (by omega)
    have h_c0_i32_19 : Affine.IsInt 0#32 (0) := Affine.ofNat _ (by omega)
    exact Affine.vec_cons h_v18 (by unfold wid; omega) <| Affine.vec_cons h_v46 (by unfold wid; omega) <| Affine.vec_cons (Affine.ofNat 0 (by omega) : Affine.IsInt 0#32 0) (by omega) <| Affine.vec_nil
  · have h_v3 : Affine.Holds _ := Affine.sgt_holds h_v1 h_c0_i32 (by omega)
    have h_v4 : Affine.IsInt _ (1) := Affine.extui_holds h_v3 (by omega)
    have h_c0_i32_0 : Affine.IsInt 0#32 (0) := Affine.ofNat _ (by omega)
    have h_v5 : Affine.Fails _ := Affine.slt_fails h_v1 h_c0_i32_0 (by omega)
    have h_v6 : Affine.IsInt _ (0) := Affine.extui_fails h_v5 (by omega)
    have h_v7 : Affine.IsInt _ (1) := Affine.subi h_v4 h_v6 (by omega)
    have h_c8_i32 : Affine.IsInt 8#32 (8) := Affine.ofNat _ (by omega)
    have h_c0_i32_1 : Affine.IsInt 0#32 (0) := Affine.ofNat _ (by omega)
    have h_v8 : Affine.Holds _ := Affine.sgt_holds h_c8_i32 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_c8_i32 h_c0_i32_2 (by omega)
    have h_v11 : Affine.IsInt _ (0) := Affine.extui_fails h_v10 (by omega)
    have h_v12 : Affine.IsInt _ (1) := Affine.subi h_v9 h_v11 (by omega)
    have h_v13 : Affine.Fails _ := Affine.ne_fails h_v7 h_v12 (by omega)
    have h_v14 : Affine.IsInt _ (((2 * ((L 1).val : Int) + ((L 0).val : Int)) % 8)) := Affine.remsi h_v1 h_c8_i32 (by omega)
    have h_c0_i32_3 : Affine.IsInt 0#32 (0) := Affine.ofNat _ (by omega)
    have h_v15 : Affine.Term _ := Affine.cmpi_term .ne h_v14 h_c0_i32_3
    have h_v16 : Affine.Fails _ := Affine.andi_fails_left h_v13 h_v15
    have h_v2 : Affine.IsInt _ (((2 * ((L 1).val : Int) + ((L 0).val : Int)) / 8)) := Affine.divsi h_v1 h_c8_i32 (by omega)
    have h_c1_i32 : Affine.IsInt 1#32 (1) := Affine.ofNat _ (by omega)
    have h_v17 : Affine.IsInt _ (((2 * ((L 1).val : Int) + ((L 0).val : Int)) / 8) - 1) := Affine.subi h_v2 h_c1_i32 (by omega)
    have h_v18 : Affine.IsInt _ (((2 * ((L 1).val : Int) + ((L 0).val : Int)) / 8)) := Affine.select_fails h_v16 h_v17 h_v2 (by omega)
    have h_c8_i32_4 : Affine.IsInt 8#32 (8) := Affine.ofNat _ (by omega)
    have h_c0_i32_5 : Affine.IsInt 0#32 (0) := Affine.ofNat _ (by omega)
    have h_v19 : Affine.Fails _ := Affine.eq_fails h_c8_i32_4 h_c0_i32_5 (by omega)
    have h_c1_i32_6 : Affine.IsInt 1#32 (1) := Affine.ofNat _ (by omega)
    have h_v20 : Affine.IsInt _ (8) := Affine.select_fails h_v19 h_c1_i32_6 h_c8_i32_4 (by omega)
    have h_v21 : Affine.IsInt _ (((2 * ((L 1).val : Int) + ((L 0).val : Int)) % 8)) := Affine.remsi h_v1 h_v20 (by omega)
    have h_c0_i32_8 : Affine.IsInt 0#32 (0) := Affine.ofNat _ (by omega)
    have h_v23 : Affine.Fails _ := Affine.slt_fails h_v21 h_c0_i32_8 (by omega)
    have h_c0_i32_9 : Affine.IsInt 0#32 (0) := Affine.ofNat _ (by omega)
    have h_v24 : Affine.Fails _ := Affine.slt_fails h_v20 h_c0_i32_9 (by omega)
    have h_v25 : Affine.Fails _ := Affine.xori_ff h_v23 h_v24
    have h_c0_i32_7 : Affine.IsInt 0#32 (0) := Affine.ofNat _ (by omega)
    have h_v22 : Affine.Term _ := Affine.cmpi_term .ne h_v21 h_c0_i32_7
    have h_v26 : Affine.Fails _ := Affine.andi_fails_left h_v25 h_v22
    have h_v27 : Affine.IsInt _ (((2 * ((L 1).val : Int) + ((L 0).val : Int)) % 8) + 8) := Affine.addi h_v21 h_v20 (by omega)
    have h_v28 : Affine.IsInt _ (((2 * ((L 1).val : Int) + ((L 0).val : Int)) % 8)) := Affine.select_fails h_v26 h_v27 h_v21 (by omega)
    have h_c128_i32_10 : Affine.IsInt 128#32 (128) := Affine.ofNat _ (by omega)
    have h_v31 : Affine.IsInt _ (128 * ((2 * ((L 1).val : Int) + ((L 0).val : Int)) % 8)) := Affine.muli h_v28 h_c128_i32_10 (by omega)
    have h_v46 : Affine.IsInt _ (128 * ((2 * ((L 1).val : Int) + ((L 0).val : Int)) % 8) + 16 * (r.val : Int)) := Affine.addi h_v31 h_c0_i32_18 (by omega)
    have h_c0_i32_19 : Affine.IsInt 0#32 (0) := Affine.ofNat _ (by omega)
    exact Affine.vec_cons h_v18 (by unfold wid; omega) <| Affine.vec_cons h_v46 (by unfold wid; omega) <| Affine.vec_cons (Affine.ofNat 0 (by omega) : Affine.IsInt 0#32 0) (by omega) <| Affine.vec_nil

end Cert.KernelIdeal.Hand

end
-- ==== Proof.KCover.lean ====
/-
  The 256 chunks (2 SparseCores × 16 vector subcores × 8 chunks) tile the masked output, and their sources tile the
  masked rows of the input.

  Subcore L has number w = 2·s + c. Its chunk r writes batch w / 8, rows 128·(w mod 8) + 16·r … + 15 of the
  masked output (every feature), and reads batch w / 8, rows 3072 + 128·(w mod 8) + 16·r … + 15 of the input.
  An element (b, t, f) of the masked output lies in exactly one chunk: w = 8·b + t / 128, r = (t mod 128) / 16.
  So the destination chunks are pairwise disjoint and cover the output; the source chunks are pairwise disjoint and
  cover exactly the input's rows t ≥ 3072; the rows t < 3072 are the rest.
-/
import proofs.«216793_g32547262169289_cont_8to1_b_717_18_alg».proof.Proof.KTileOff

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem wid_coordsV (c : Fin (grid1.bound 0)) (s : Fin (grid1.bound 1)) : wid (coordsV c s) = 2 * s.val + c.val := rfl

theorem srcSet_eq (L : grid1.Coords) (r : Fin 8) : srcSet L r = (srcRect L r).set := by
  show (((View.whole (main_arg0_scv : Ref sig .scVector)).slice (srcRect L r)).reshape S16x2048 squeezes_S1x16x2048_S16x2048.numel_eq).set = _
  rw [View.set_reshape, View.set_slice]; exact Finset.map_refl
theorem dstSet_eq (L : grid1.Coords) (r : Fin 8) : dstSet L r = (dstRect L r).set := by
  show (((View.whole (main_v4_scv : Ref sig .scVector)).slice (dstRect L r)).reshape S16x2048 squeezes_S1x16x2048_S16x2048.numel_eq).set = _
  rw [View.set_reshape, View.set_slice]; exact Finset.map_refl

/-- An element of the input lies in chunk `r` of subcore `L`'s source iff its batch is w / 8 and its row is one of the
    sixteen from 3072 + 128·(w mod 8) + 16·r. -/
theorem mem_srcSet (L : grid1.Coords) (r : Fin 8) (j : S4x4096x2048.Idx) :
    j ∈ srcSet L r ↔ (j 0).val = wid L / 8 ∧ 3072 + 128 * (wid L % 8) + 16 * r.val ≤ (j 1).val ∧ (j 1).val < 3072 + 128 * (wid L % 8) + 16 * r.val + 16 := by
  rw [srcSet_eq, Rect.mem_set_unit, k1_off1_eq]
  have h2 : (j 2).val < 2048 := (j 2).isLt
  constructor
  · intro h
    have h0 := h 0; have h1 := h 1
    simp only [Matrix.cons_val_zero, Matrix.cons_val_one] at h0 h1
    omega
  · rintro ⟨h0, h1, h1'⟩ a
    match a with
    | ⟨0, _⟩ => show wid L / 8 ≤ (j 0).val ∧ (j 0).val < wid L / 8 + 1; omega
    | ⟨1, _⟩ => show 3072 + 128 * (wid L % 8) + 16 * r.val ≤ (j 1).val ∧ (j 1).val < 3072 + 128 * (wid L % 8) + 16 * r.val + 16; omega
    | ⟨2, _⟩ => show 0 ≤ (j 2).val ∧ (j 2).val < 0 + 2048; omega

/-- The same for the masked output, the rows from 128·(w mod 8) + 16·r. -/
theorem mem_dstSet (L : grid1.Coords) (r : Fin 8) (j : S4x1024x2048.Idx) :
    j ∈ dstSet L r ↔ (j 0).val = wid L / 8 ∧ 128 * (wid L % 8) + 16 * r.val ≤ (j 1).val ∧ (j 1).val < 128 * (wid L % 8) + 16 * r.val + 16 := by
  rw [dstSet_eq, Rect.mem_set_unit, k1_off2_eq]
  have h2 : (j 2).val < 2048 := (j 2).isLt
  constructor
  · intro h
    have h0 := h 0; have h1 := h 1
    simp only [Matrix.cons_val_zero, Matrix.cons_val_one] at h0 h1
    omega
  · rintro ⟨h0, h1, h1'⟩ a
    match a with
    | ⟨0, _⟩ => show wid L / 8 ≤ (j 0).val ∧ (j 0).val < wid L / 8 + 1; omega
    | ⟨1, _⟩ => show 128 * (wid L % 8) + 16 * r.val ≤ (j 1).val ∧ (j 1).val < 128 * (wid L % 8) + 16 * r.val + 16; omega
    | ⟨2, _⟩ => show 0 ≤ (j 2).val ∧ (j 2).val < 0 + 2048; omega

/-- A chunk's name: SparseCore, vector subcore, chunk. -/
abbrev Key : Type := Fin (grid1.bound 0) × Fin (grid1.bound 1) × Fin 8
abbrev Key.L (k : Key) : grid1.Coords := coordsV k.1 k.2.1
abbrev Key.r (k : Key) : Fin 8 := k.2.2

theorem key_ext {k k' : Key} (hw : wid k.L = wid k'.L) (hr : k.r.val = k'.r.val) : k = k' := by
  obtain ⟨c, s, r⟩ := k; obtain ⟨c', s', r'⟩ := k'
  have hc : c.val < 2 := c.isLt
  have hc' : c'.val < 2 := c'.isLt
  simp only [Key.L, Key.r, wid_coordsV] at hw hr
  have e1 : c = c' := Fin.ext (by omega)
  have e2 : s = s' := Fin.ext (by omega)
  have e3 : r = r' := Fin.ext hr
  rw [e1, e2, e3]

theorem wid_lt (k : Key) : wid k.L < 32 := by
  have hc : k.1.val < 2 := k.1.isLt
  have hs : k.2.1.val < 16 := k.2.1.isLt
  rw [Key.L, wid_coordsV]; omega

theorem dst_disjoint : ∀ k ∈ (Finset.univ : Finset Key), ∀ k' ∈ (Finset.univ : Finset Key), k ≠ k' → Disjoint (dstSet k.L k.r) (dstSet k'.L k'.r) := by
  intro k _ k' _ hne
  rw [Finset.disjoint_left]
  intro j hj hj'
  rw [mem_dstSet] at hj hj'
  have hr : k.r.val < 8 := k.r.isLt
  have hr' : k'.r.val < 8 := k'.r.isLt
  exact hne (key_ext (by omega) (by omega))

theorem src_disjoint : ∀ k ∈ (Finset.univ : Finset Key), ∀ k' ∈ (Finset.univ : Finset Key), k ≠ k' → Disjoint (srcSet k.L k.r) (srcSet k'.L k'.r) := by
  intro k _ k' _ hne
  rw [Finset.disjoint_left]
  intro j hj hj'
  rw [mem_srcSet] at hj hj'
  have hr : k.r.val < 8 := k.r.isLt
  have hr' : k'.r.val < 8 := k'.r.isLt
  exact hne (key_ext (by omega) (by omega))

/-- The chunk that holds element (b, t, ·) of the masked output: w = 8·b + t / 128, r = (t mod 128) / 16. -/
def keyOf (b t : ℕ) (hb : b < 4) (ht : t < 1024) : Key :=
  (⟨(8 * b + t / 128) % 2, Nat.mod_lt _ (by decide)⟩, ⟨(8 * b + t / 128) / 2, by show _ < 16; omega⟩, ⟨(t % 128) / 16, by omega⟩)

theorem wid_keyOf (b t : ℕ) (hb : b < 4) (ht : t < 1024) : wid (keyOf b t hb ht).L = 8 * b + t / 128 := by
  show 2 * ((8 * b + t / 128) / 2) + (8 * b + t / 128) % 2 = _; omega

theorem dst_cover : (Finset.univ : Finset Key).biUnion (fun k => dstSet k.L k.r) = Finset.univ := by
  ext j
  simp only [Finset.mem_biUnion, Finset.mem_univ, true_and, iff_true]
  have hb : (j 0).val < 4 := (j 0).isLt
  have ht : (j 1).val < 1024 := (j 1).isLt
  refine ⟨keyOf (j 0).val (j 1).val hb ht, ?_⟩
  rw [mem_dstSet, wid_keyOf]
  show _ ∧ 128 * _ + 16 * (((j 1).val % 128) / 16) ≤ _ ∧ _ < 128 * _ + 16 * (((j 1).val % 128) / 16) + 16
  omega

/-- The input's rows the SparseCore kernel reads: t ≥ 3072; -/
def hiSet : Finset S4x4096x2048.Idx := Finset.univ.filter fun j => 3072 ≤ (j 1).val
/-- and the rest, which the TensorCore region reads. -/
def loSet : Finset S4x4096x2048.Idx := Finset.univ.filter fun j => (j 1).val < 3072

theorem src_cover : (Finset.univ : Finset Key).biUnion (fun k => srcSet k.L k.r) = hiSet := by
  ext j
  simp only [Finset.mem_biUnion, Finset.mem_univ, true_and, hiSet, Finset.mem_filter]
  have hb : (j 0).val < 4 := (j 0).isLt
  have ht : (j 1).val < 4096 := (j 1).isLt
  constructor
  · rintro ⟨k, hk⟩
    rw [mem_srcSet] at hk; omega
  · intro h
    refine ⟨keyOf (j 0).val ((j 1).val - 3072) hb (by omega), ?_⟩
    rw [mem_srcSet, wid_keyOf]
    show _ ∧ 3072 + 128 * _ + 16 * ((((j 1).val - 3072) % 128) / 16) ≤ _ ∧ _ < 3072 + 128 * _ + 16 * ((((j 1).val - 3072) % 128) / 16) + 16
    omega

theorem lo_hi_disjoint : Disjoint loSet hiSet := by
  rw [Finset.disjoint_left]; intro j h h'
  simp only [loSet, hiSet, Finset.mem_filter] at h h'; omega
theorem lo_hi_cover : loSet ∪ hiSet = Finset.univ := by
  ext j; simp only [loSet, hiSet, Finset.mem_union, Finset.mem_filter, Finset.mem_univ, true_and, iff_true]; omega

end Cert.KernelIdeal.Hand

end
-- ==== Proof.KTile.lean ====
/-
  The body of the vector-subcore copy kernel, once, at a symbolic subcore.

  Mathematics. Subcore w = 2·s + c moves eight chunks of 16 rows, chunk r from rows 3072 + 128·(w mod 8) + 16·r … of
  batch w / 8 of the input to rows 128·(w mod 8) + 16·r … of the same batch of the masked output, through three
  staging buffers used in rotation (chunk r through buffer r mod 3). Each buffer has one semaphore for the copy into
  it and one for the copy out of it, so on every semaphore at most one copy is outstanding, and the copy out of a
  buffer is waited for before the next copy into it is started: no copy's source or destination is touched while
  the copy is pending. After chunk r's copy in, the buffer holds the input's rows of that chunk; after its copy out
  the destination rows hold the same values, which is out[b, t, f] = x[b, 3072 + t, f] on those rows.
-/
import proofs.«216793_g32547262169289_cont_8to1_b_717_18_alg».proof.Proof.KSetup
import proofs.«216793_g32547262169289_cont_8to1_b_717_18_alg».proof.Proof.KTileOff

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The Fin 8 products, one factor per chunk -/

theorem bigSep_chunks {M : Type} [URA M] (Φ : Fin 8 → sProp M) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

variable (d : Dev nD) (L : grid1.Coords)

/-! ## The subcore's six semaphores and three staging buffers among its own -/

/-- The cell of one of the subcore's DMA semaphores. -/
abbrev cell (s : DmaSems sig S_) : GSem nD τ sig := (V d (cV L) (jV L), .dma s.sem)

theorem cell_ne {s t : DmaSems sig S_} (h : (SemLoc.dma s.sem : SemLoc sig) ≠ SemLoc.dma t.sem) : cell d L s ≠ cell d L t :=
  fun e => h (Prod.mk.inj e).2
theorem cell_mem (s : DmaSems sig S_) (h : (SemLoc.dma s.sem : SemLoc sig).isScoped .scVector = true) :
    cell d L s ∈ ownCells (V d (cV L) (jV L)) :=
  (mem_ownCells (g := cell d L s)).mpr ⟨rfl, h⟩

/-- The six semaphores are among the subcore's own cells: they at zero, and the rest at zero. -/
theorem ownSems0_V :
    (ownSems0 (V d (cV L) (jV L)) : sProp 𝕄)
      = iprop(semVal (cell d L cc1_scratch3) 0 ∗ semVal (cell d L cc1_scratch4) 0 ∗ semVal (cell d L cc1_scratch5) 0 ∗ semVal (cell d L cc1_scratch6) 0 ∗ semVal (cell d L cc1_scratch7) 0 ∗ semVal (cell d L cc1_scratch8) 0
          ∗ bigSep (((((((ownCells (V d (cV L) (jV L))).erase (cell d L cc1_scratch3)).erase (cell d L cc1_scratch4)).erase (cell d L cc1_scratch5)).erase (cell d L cc1_scratch6)).erase (cell d L cc1_scratch7)).erase (cell d L cc1_scratch8)) fun g => semVal g 0) := by
  unfold SparseCore.Cfg.ownSems0
  rw [SparseCore.bigSep_erase' (cell_mem d L cc1_scratch3 (by decide)),
    SparseCore.bigSep_erase' (Finset.mem_erase.mpr ⟨cell_ne d L (by decide), (cell_mem d L cc1_scratch4 (by decide))⟩),
    SparseCore.bigSep_erase' (Finset.mem_erase.mpr ⟨cell_ne d L (by decide), (Finset.mem_erase.mpr ⟨cell_ne d L (by decide), (cell_mem d L cc1_scratch5 (by decide))⟩)⟩),
    SparseCore.bigSep_erase' (Finset.mem_erase.mpr ⟨cell_ne d L (by decide), (Finset.mem_erase.mpr ⟨cell_ne d L (by decide), (Finset.mem_erase.mpr ⟨cell_ne d L (by decide), (cell_mem d L cc1_scratch6 (by decide))⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (cell_mem d L cc1_scratch7 (by decide))⟩)⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (cell_mem d L cc1_scratch8 (by decide))⟩)⟩)⟩)⟩)⟩)]

/-- The three staging buffers are among the subcore's own: they, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The arrays' chunks and the staging buffers as the kernel's memrefs address them -/

theorem pts_srcK (r : Fin 8) (f : Buf (Elt F) (xLoc d)) :
    ((srcK L r).view.loc (V d (cV L) (jV L)) ↦[(srcK L r).view.set]{fullShare} f : sProp 𝕄) = xLoc d ↦[srcSet L r]{fullShare} f := rfl
theorem pts_dstK (r : Fin 8) (f : Buf (Elt F) (outLoc d)) :
    ((dstK L r).view.loc (V d (cV L) (jV L)) ↦[(dstK L r).view.set]{fullShare} f : sProp 𝕄) = outLoc d ↦[dstSet L r]{fullShare} f := rfl
theorem pts_b0 (f : Buf (Elt F) ((V d (cV L) (jV L)).loc cc1_scratch0)) :
    ((b0 : Memref sig .scVector .vmem S16x2048 .f32).view.loc (V d (cV L) (jV L)) ↦{fullShare} f : sProp 𝕄) = (V d (cV L) (jV L)).loc cc1_scratch0 ↦{fullShare} f := rfl
theorem pts_b1 (f : Buf (Elt F) ((V d (cV L) (jV L)).loc cc1_scratch1)) :
    ((b1 : Memref sig .scVector .vmem S16x2048 .f32).view.loc (V d (cV L) (jV L)) ↦{fullShare} f : sProp 𝕄) = (V d (cV L) (jV L)).loc cc1_scratch1 ↦{fullShare} f := rfl
theorem pts_b2 (f : Buf (Elt F) ((V d (cV L) (jV L)).loc cc1_scratch2)) :
    ((b2 : Memref sig .scVector .vmem S16x2048 .f32).view.loc (V d (cV L) (jV L)) ↦{fullShare} f : sProp 𝕄) = (V d (cV L) (jV L)).loc cc1_scratch2 ↦{fullShare} f := rfl

/-- Recording one more wait at the kernel's own index keeps the record within "the waits before, or at that index". -/
theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

/-! ## The value: a chunk's source rows are its destination rows moved up by 3072 -/

/-- Chunk `r`'s source element under an index of the 16-row block is the masked-output element under the same index,
    read at the same batch and feature and 3072 rows further: both offsets are batch w / 8 and feature 0, and the
    rows are 3072 + 128·(w mod 8) + 16·r and 128·(w mod 8) + 16·r. -/
theorem src_eq_msk (r : Fin 8) (y : S1x16x2048.Idx) :
    (srcRect L r).emb y = Cert.Spec.mskIdx ((dstRect L r).emb y) := by
  have h1 := congrFun (k1_off1_eq L r)
  have h2 := congrFun (k1_off2_eq L r)
  funext a
  apply Fin.ext
  match a with
  | 0 =>
    rw [Cert.Spec.mskIdx_0]
    simp only [Rect.emb_apply, Rect.off_unit, Rect.stride_unit]
    rw [h1 0, h2 0]; rfl
  | 1 =>
    rw [Cert.Spec.mskIdx_1]
    simp only [Rect.emb_apply, Rect.off_unit, Rect.stride_unit]
    rw [h1 1, h2 1]; simp only [Matrix.cons_val_one, Matrix.cons_val_zero]; omega
  | 2 =>
    rw [Cert.Spec.mskIdx_2]
    simp only [Rect.emb_apply, Rect.off_unit, Rect.stride_unit]
    rw [h1 2, h2 2]; rfl

/-- What chunk `r`'s copy out leaves on its destination rows, when its payload is the input's rows of that chunk: the
    masked output's values there. An element of the destination rows is the image of an index of the 16-row block; the
    write puts the payload's value at that index there, which is the input at the image of the same index among the
    source rows — the destination element moved up by 3072 rows. -/
theorem dst_value (m : (ℓ : Loc nD τ sig) → Buf (Elt F) ℓ) (r : Fin 8) (f : Buf (Elt F) (outLoc d)) (w : S16x2048.Idx → Elt F .f32)
    (hw : w = (srcK L r).view.read (Elt F) (m (xLoc d))) :
    ∀ i ∈ dstSet L r, (dstK L r).view.writes (Elt F) f [⟨Rect.whole S16x2048, w⟩] i = (outOf (m (xLoc d)) : Buf (Elt F) (outLoc d)) i := by
  intro i hi
  obtain ⟨x, -, rfl⟩ := Finset.mem_map.mp hi
  subst hw
  rw [View.writes_singleton]
  have e : (dstK L r).view.emb x = ((dstK L r).view.slice (Rect.whole S16x2048)).emb x := by
    simp
  rw [e, View.write_emb_of_mem _ _ (Finset.mem_univ x), View.read_apply]
  simp only [cast_cast, cast_eq]
  rw [← e]
  show m (xLoc d) ((srcRect L r).emb (Shape.reshapeEquiv squeezes_S1x16x2048_S16x2048.numel_eq x))
    = m (xLoc d) (Cert.Spec.mskIdx ((dstRect L r).emb (Shape.reshapeEquiv squeezes_S1x16x2048_S16x2048.numel_eq x)))
  rw [src_eq_msk]

set_option maxHeartbeats 4000000 in
/-- The body at a symbolic subcore: the input's chunks come back unchanged; each destination chunk comes back holding
    out[b, t, f] = x[b, 3072 + t, f] on its rows; the staging buffers and the six semaphores come back as they were dealt
    (the semaphores at zero); every wait recorded is at the kernel's own index. Chunk r's copy in puts the input's rows
    of the chunk in buffer r mod 3; its copy out writes exactly those values on the destination rows; the rows' offsets
    differ by 3072 in one batch. -/
theorem tile_body [FloatOps F] (m : (ℓ : Loc nD τ sig) → Buf (Elt F) ℓ) (hF : (K (F := F)).Facts) (d : Dev nD) (L : grid1.Coords) (O : CellTallies nD τ sig (HIx 1)) (W : Waits sig (HIx 1)) (hO : ∀ g, O g none = 0) :
    (iprop(levAts (K (F := F)).L (K (F := F)).lev ∗ emp
        ∗ ((bigSep Finset.univ fun r : Fin 8 => xLoc d ↦[srcSet L r]{fullShare} m (xLoc d))
           ∗ (bigSep Finset.univ fun r : Fin 8 => iprop(∃ f, outLoc d ↦[dstSet L r]{fullShare} f)))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_sc_copy L xV (Memref.isWhole_whole _) oV (Memref.isWhole_whole _) b0 (Memref.isWhole_whole _) b1 (Memref.isWhole_whole _) b2 (Memref.isWhole_whole _) cc1_scratch3 cc1_scratch4 cc1_scratch5 cc1_scratch6 cc1_scratch7 cc1_scratch8)
          fun _ => iprop(((bigSep Finset.univ fun r : Fin 8 => xLoc d ↦[srcSet L r]{fullShare} m (xLoc d))
              ∗ (bigSep Finset.univ fun r : Fin 8 => outLoc d ↦[dstSet L r]{fullShare} (outOf (m (xLoc d)) : Buf (Elt F) (outLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_sc_copy_eq_skeleton]; unfold cc1_sc_copy_skel
  simp only [bigSep_chunks]
  rw [(K (F := F)).scopedBufs_V hF d (cV L) (jV L), SparseCore.Cfg.scopedSems0_V (Val := Elt F) d (cV L) (jV L), ownSems0_V, ownBufs_V]
  iintro ⟨#Hlv, -, ⟨⟨Hx0, Hx1, Hx2, Hx3, Hx4, Hx5, Hx6, Hx7⟩, ⟨⟨%f0, Ho0⟩, ⟨%f1, Ho1⟩, ⟨%f2, Ho2⟩, ⟨%f3, Ho3⟩, ⟨%f4, Ho4⟩, ⟨%f5, Ho5⟩, ⟨%f6, Ho6⟩, ⟨%f7, Ho7⟩⟩⟩,
    ⟨⟨%g0, Hb0⟩, ⟨%g1, Hb1⟩, ⟨%g2, Hb2⟩, Hbufs⟩, ⟨Hs3, Hs4, Hs5, Hs6, Hs7, Hs8, Hsems⟩, HO⟩
  ihave Hmw := ((K (F := F)).mayWaits_none (thr := V d (cV L) (jV L)) hO) $$ Hlv
  ihave Hx0' := (Entails.of_eq (pts_srcK (F := F) d L 0 _).symm) $$ Hx0
  ihave Hx1' := (Entails.of_eq (pts_srcK (F := F) d L 1 _).symm) $$ Hx1
  ihave Hx2' := (Entails.of_eq (pts_srcK (F := F) d L 2 _).symm) $$ Hx2
  ihave Hx3' := (Entails.of_eq (pts_srcK (F := F) d L 3 _).symm) $$ Hx3
  ihave Hx4' := (Entails.of_eq (pts_srcK (F := F) d L 4 _).symm) $$ Hx4
  ihave Hx5' := (Entails.of_eq (pts_srcK (F := F) d L 5 _).symm) $$ Hx5
  ihave Hx6' := (Entails.of_eq (pts_srcK (F := F) d L 6 _).symm) $$ Hx6
  ihave Hx7' := (Entails.of_eq (pts_srcK (F := F) d L 7 _).symm) $$ Hx7
  ihave Ho0' := (Entails.of_eq (pts_dstK (F := F) d L 0 _).symm) $$ Ho0
  ihave Ho1' := (Entails.of_eq (pts_dstK (F := F) d L 1 _).symm) $$ Ho1
  ihave Ho2' := (Entails.of_eq (pts_dstK (F := F) d L 2 _).symm) $$ Ho2
  ihave Ho3' := (Entails.of_eq (pts_dstK (F := F) d L 3 _).symm) $$ Ho3
  ihave Ho4' := (Entails.of_eq (pts_dstK (F := F) d L 4 _).symm) $$ Ho4
  ihave Ho5' := (Entails.of_eq (pts_dstK (F := F) d L 5 _).symm) $$ Ho5
  ihave Ho6' := (Entails.of_eq (pts_dstK (F := F) d L 6 _).symm) $$ Ho6
  ihave Ho7' := (Entails.of_eq (pts_dstK (F := F) d L 7 _).symm) $$ Ho7
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  sl_exec
  sl_step
  isplitl [Hx0' Hx1' Hx2' Hx3' Hx4' Hx5' Hx6' Hx7' Ho0' Ho1' Ho2' Ho3' Ho4' Ho5' Ho6' Ho7']
  · isplitl [Hx0' Hx1' Hx2' Hx3' Hx4' Hx5' Hx6' Hx7']
    · isplitl [Hx0']; · iapply (Entails.of_eq (pts_srcK (F := F) d L 0 _)); iexact Hx0'
      isplitl [Hx1']; · iapply (Entails.of_eq (pts_srcK (F := F) d L 1 _)); iexact Hx1'
      isplitl [Hx2']; · iapply (Entails.of_eq (pts_srcK (F := F) d L 2 _)); iexact Hx2'
      isplitl [Hx3']; · iapply (Entails.of_eq (pts_srcK (F := F) d L 3 _)); iexact Hx3'
      isplitl [Hx4']; · iapply (Entails.of_eq (pts_srcK (F := F) d L 4 _)); iexact Hx4'
      isplitl [Hx5']; · iapply (Entails.of_eq (pts_srcK (F := F) d L 5 _)); iexact Hx5'
      isplitl [Hx6']; · iapply (Entails.of_eq (pts_srcK (F := F) d L 6 _)); iexact Hx6'
      iapply (Entails.of_eq (pts_srcK (F := F) d L 7 _)); iexact Hx7'
    isplitl [Ho0']; · iapply (Entails.of_eq (pts_dstK (F := F) d L 0 _)); iapply (Entails.of_eq (pointsTo_congr (dst_value (F := F) d L m 0 f0 (tile_body.sl.dma0_2 m d L g0) (by delta tile_body.sl.dma0_2 tile_body.sl.dma0; simp only [ReadAs.apply_same, View.read_write_univ] <;> rfl)))); iexact Ho0'
    isplitl [Ho1']; · iapply (Entails.of_eq (pts_dstK (F := F) d L 1 _)); iapply (Entails.of_eq (pointsTo_congr (dst_value (F := F) d L m 1 f1 (tile_body.sl.dma0_4 m d L g1) (by delta tile_body.sl.dma0_4 tile_body.sl.dma0_1; simp only [ReadAs.apply_same, View.read_write_univ] <;> rfl)))); iexact Ho1'
    isplitl [Ho2']; · iapply (Entails.of_eq (pts_dstK (F := F) d L 2 _)); iapply (Entails.of_eq (pointsTo_congr (dst_value (F := F) d L m 2 f2 (tile_body.sl.dma0_6 m d L g2) (by delta tile_body.sl.dma0_6 tile_body.sl.dma0_3; simp only [ReadAs.apply_same, View.read_write_univ] <;> rfl)))); iexact Ho2'
    isplitl [Ho3']; · iapply (Entails.of_eq (pts_dstK (F := F) d L 3 _)); iapply (Entails.of_eq (pointsTo_congr (dst_value (F := F) d L m 3 f3 (tile_body.sl.dma0_8 m d L g0) (by delta tile_body.sl.dma0_8 tile_body.sl.dma0_5; simp only [ReadAs.apply_same, View.read_write_univ] <;> rfl)))); iexact Ho3'
    isplitl [Ho4']; · iapply (Entails.of_eq (pts_dstK (F := F) d L 4 _)); iapply (Entails.of_eq (pointsTo_congr (dst_value (F := F) d L m 4 f4 (tile_body.sl.dma0_10 m d L g1) (by delta tile_body.sl.dma0_10 tile_body.sl.dma0_7; simp only [ReadAs.apply_same, View.read_write_univ] <;> rfl)))); iexact Ho4'
    isplitl [Ho5']; · iapply (Entails.of_eq (pts_dstK (F := F) d L 5 _)); iapply (Entails.of_eq (pointsTo_congr (dst_value (F := F) d L m 5 f5 (tile_body.sl.dma0_12 m d L g2) (by delta tile_body.sl.dma0_12 tile_body.sl.dma0_9; simp only [ReadAs.apply_same, View.read_write_univ] <;> rfl)))); iexact Ho5'
    isplitl [Ho6']; · iapply (Entails.of_eq (pts_dstK (F := F) d L 6 _)); iapply (Entails.of_eq (pointsTo_congr (dst_value (F := F) d L m 6 f6 (tile_body.sl.dma0_14 m d L g0) (by delta tile_body.sl.dma0_14 tile_body.sl.dma0_11; simp only [ReadAs.apply_same, View.read_write_univ] <;> rfl)))); iexact Ho6'
    iapply (Entails.of_eq (pts_dstK (F := F) d L 7 _)); iapply (Entails.of_eq (pointsTo_congr (dst_value (F := F) d L m 7 f7 (tile_body.sl.dma0_15 m d L g1) (by delta tile_body.sl.dma0_15 tile_body.sl.dma0_13; simp only [ReadAs.apply_same, View.read_write_univ] <;> rfl)))); iexact Ho7'
  isplitl [Hb0' Hb1' Hb2' Hbufs]
  · isplitl [Hb0']; · iexists _; iapply (Entails.of_eq (pts_b0 (F := F) d L _)); iexact Hb0'
    isplitl [Hb1']; · iexists _; iapply (Entails.of_eq (pts_b1 (F := F) d L _)); iexact Hb1'
    isplitl [Hb2']; · iexists _; iapply (Entails.of_eq (pts_b2 (F := F) d L _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  ipureintro
  repeat (first | apply waits_insert)
  exact fun p hp => Or.inl hp

end Cert.KernelIdeal.Hand

end
-- ==== Proof.KRegionBody.lean ====
/-
  The TensorCore region of the idealized kernel: the body of the visible part's copy, and the pipeline's proof data.

  Mathematics. The grid is [4, 2]; at point t = (i, j) window 0 brings rows 1536·j … 1536·j + 1535 of batch i of the input
  x (no block overhangs: j < 2), window 1 is the same block of the visible part, window 2 is the whole mask as 32-bit
  words. The body copies window 0's buffer into window 1's; at point (0, 0) it first stores the mask's words
  (1 where the time step is ≥ 3072, else 0) over window 2's buffer, which no later point touches.
-/
import proofs.«216793_g32547262169289_cont_8to1_b_717_18_alg».proof.Proof.KSetup
import Idealize.ShloMosaic.Lib.Pipeline.Regions
import Idealize.ShloMosaic.Lib.Pipeline.FrameBody
import Idealize.ShloMosaic.Lib.Pipeline.Value
import Idealize.ShloMosaic.Lib.Ring
import proofs.«216793_g32547262169289_cont_8to1_b_717_18_alg».proof.Proof.Gen.KernelIdeal.Points

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (SparseCore.Cfg.HIx 1) (Elt F) ℕ UU ℕ

/-! ## The body on whole staging buffers, in its two control cases -/

theorem hz3 : (![0, 0, 0] : Fin 3 → Nat) = fun _ => 0 := funext fun a => by fin_cases a <;> rfl
theorem hz2 : (![0, 0] : Fin 2 → Nat) = fun _ => 0 := funext fun a => by fin_cases a <;> rfl

/-- One store through the whole-shape rectangle covers the shape, whatever it stores. -/
theorem cover_one {S : Shape} {e : EltTy} {off : Fin S.rank → Nat} (h : off = fun _ => 0) (inb : ∀ a, off a + S.size a ≤ S.size a)
    (w : S.Idx → Elt F e) : ∀ y : S.Idx, ∃ p ∈ [(⟨Rect.unit off S.size inb, w⟩ : View.Piece (Elt F) S e)], y ∈ p.1.set :=
  fun y => ⟨_, List.mem_singleton_self _, View.mem_set_unit_zero h inb y⟩

-- the mask's words are read at an index only in the value lemmas: here they stay folded
attribute [local irreducible] k0_pay1

/-- At grid point (0, 0): the mask's words are stored over the whole third buffer (after a load whose value is not
    used), then the input's block is loaded and stored over the whole second buffer. -/
theorem body_mask (d : Dev nD) (i : grid0.Coords) (arg2 : Memref sig .tc .vmem S1x1536x2048 .f32) (harg2 : arg2.IsWhole)
    (arg3 : Memref sig .tc .vmem S1x1536x2048 .f32) (harg3 : arg3.IsWhole) (arg4 : Memref sig .tc .vmem S4x4096 .i32) (harg4 : arg4.IsWhole)
    (hc : k0_cond1 i = 1#1) (x0 : Vec F S1x1536x2048 .f32) (E : Set ℕ) (K : PUnit → sProp 𝕄) :
    iprop(owns (SparseCore.T d) arg2 fullShare x0 ∗ (∃ d1, owns (SparseCore.T d) arg3 fullShare d1) ∗ (∃ d2, owns (SparseCore.T d) arg4 fullShare d2)
        ∗ (iprop(owns (SparseCore.T d) arg2 fullShare x0 ∗ owns (SparseCore.T d) arg3 fullShare x0
              ∗ owns (SparseCore.T d) arg4 fullShare (k0_pay1 : Vec F S4x4096 .i32)) -∗ K ⟨⟩))
      ⊢ wp frame (wpE (defs₀ (F := F)) Variants.none (SparseCore.T d) none) E (cc0__vis_body i arg2 harg2 arg3 harg3 arg4 harg4) K := by
  simp only [cc0__vis_body_eq_skeleton]; unfold cc0__vis_body_skel
  unfold owns
  iintro ⟨⟨%f0, %hf0, H0⟩, ⟨%d1, %f1, -, H1⟩, ⟨%d2, %f2, -, H2⟩, Hk⟩
  obtain rfl := harg2.eq_unread hf0
  sl_exec (disch := first | exact hc)
  sl_step
  iapply Hk
  isplitl [H0]
  · iexists _; isplitr; · ipureintro; exact harg2.read_unread _
    iexact H0
  isplitl [H1]
  · iexists _; isplitr
    swap; · iexact H1
    ipureintro
    refine (View.read_writes_eq_canon _ _ _ (cover_one hz3 _ _)).trans ?_
    rw [View.canon_unit_zero hz3]
    simp only [View.readAt_eq_ld, harg2.read_unread, View.ld_unit_zero (S := S1x1536x2048) hz3]
  · iexists _; isplitr
    swap; · iexact H2
    ipureintro
    refine (View.read_writes_eq_canon _ _ _ (cover_one hz2 _ _)).trans ?_
    exact View.canon_unit_zero hz2 _ _

/-- At every other grid point: the input's block is loaded and stored over the whole second buffer; the third
    buffer is not touched. -/
theorem body_copy (d : Dev nD) (i : grid0.Coords) (arg2 : Memref sig .tc .vmem S1x1536x2048 .f32) (harg2 : arg2.IsWhole)
    (arg3 : Memref sig .tc .vmem S1x1536x2048 .f32) (harg3 : arg3.IsWhole) (arg4 : Memref sig .tc .vmem S4x4096 .i32) (harg4 : arg4.IsWhole)
    (hc : ¬k0_cond1 i = 1#1) (x0 : Vec F S1x1536x2048 .f32) (E : Set ℕ) (K : PUnit → sProp 𝕄) :
    iprop(owns (SparseCore.T d) arg2 fullShare x0 ∗ (∃ d1, owns (SparseCore.T d) arg3 fullShare d1)
        ∗ (iprop(owns (SparseCore.T d) arg2 fullShare x0 ∗ owns (SparseCore.T d) arg3 fullShare x0) -∗ K ⟨⟩))
      ⊢ wp frame (wpE (defs₀ (F := F)) Variants.none (SparseCore.T d) none) E (cc0__vis_body i arg2 harg2 arg3 harg3 arg4 harg4) K := by
  simp only [cc0__vis_body_eq_skeleton]; unfold cc0__vis_body_skel
  unfold owns
  iintro ⟨⟨%f0, %hf0, H0⟩, ⟨%d1, %f1, -, H1⟩, Hk⟩
  obtain rfl := harg2.eq_unread hf0
  sl_exec (disch := first | exact hc)
  sl_step
  iapply Hk
  isplitl [H0]
  · iexists _; isplitr; · ipureintro; exact harg2.read_unread _
    iexact H0
  · iexists _; isplitr
    swap; · iexact H1
    ipureintro
    refine (View.read_writes_eq_canon _ _ _ (cover_one hz3 _ _)).trans ?_
    rw [View.canon_unit_zero hz3]
    simp only [View.readAt_eq_ld, harg2.read_unread, View.ld_unit_zero (S := S1x1536x2048) hz3]

/-! ## The grid's points -/

/-- The mask is written at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

/-- No block of the input overhangs the array at a point of the grid: rows 1536·j … 1536·j + 1535 with j < 2. -/
theorem hclip0 : ∀ (t : Fin cfg0.N) (a : Fin 3), (cfg0.win 0).clip (cfg0.grid.coords t) a = none :=
  (by decide +kernel : ∀ (t : Fin grid0.N) (a : Fin 3), win0_0.clip (grid0.coords t) a = none)

/-- So a fetch fills the whole staging buffer: nothing of what it held is left. -/
theorem fill_indep (t : Fin cfg0.N) {α : Type} (d' d'' : (cfg0.win 0).block.Idx → α) (g : ((cfg0.win 0).xblock (cfg0.grid.coords t)).Idx → α) :
    (cfg0.win 0).fill (cfg0.grid.coords t) d' g = (cfg0.win 0).fill (cfg0.grid.coords t) d'' g := by
  funext j
  have hm : (cfg0.win 0).moved (cfg0.grid.coords t) j = true := ((cfg0.win 0).moved_iff _ j).mpr fun a => by
    have := (j a).isLt; unfold Window.xsize; rw [hclip0 t a]; exact this
  unfold Window.fill; rw [dif_pos hm, dif_pos hm]

/-! ## The pipeline's proof data -/

variable (m : (ℓ : Loc nD τ sig) → Buf (Elt F) ℓ)

/-- The block of the input the fetch at point `t` brings into the first window's buffer. -/
def xblk (d : Dev nD) (t : Fin cfg0.N) : Vec F S1x1536x2048 .f32 :=
  (cfg0.win 0).fill (cfg0.grid.coords t) (fun _ => (Elt.inhabited F (cfg0.win 0).elt).default)
    (((cfg0.win 0).blk t).view.read (Elt F) (m ((cfg0.win 0).arr.view.loc (SparseCore.T d))))

/-- The proof data on the TensorCore of `d`: the arrays as launched; the body leaves the input's buffer as it found it,
    the visible part's buffer at the input's block, the mask's buffer at the mask's words at the first point and as it
    found it afterwards; no invariant of its own; it owes, throughout, what the TensorCore owes before its first
    SparseCore call, its recorded waits all at the kernels' own index. -/
def rd (d : Dev nD) : RDat τ (Elt F) (SparseCore.Cfg.HIx 1) ℕ UU ℕ cfg0 d where
  A w := m ((cfg0.win w).arr.view.loc (SparseCore.T d))
  after w t := match w with
    | ⟨0, _⟩ => fun Y X => X = Y
    | ⟨1, _⟩ => fun _ X => X = xblk m d t
    | ⟨2, _⟩ => fun Y X => if t.val = 0 then X = (k0_pay1 : Vec F S4x4096 .i32) else X = Y
  Φ _ := iprop(emp)
  q _ := fullShare
  owed _ := (K (F := F)).Otc d 0
  recorded _ := {p | p.2 = none}

theorem after_0 (d : Dev nD) (t : Fin cfg0.N) (Y X) : (rd m d).after 0 t Y X = (X = Y) := by dsimp only [rd]
theorem after_1 (d : Dev nD) (t : Fin cfg0.N) (Y X) : (rd m d).after 1 t Y X = (X = xblk m d t) := by dsimp only [rd]
theorem after_2 (d : Dev nD) (t : Fin cfg0.N) (Y X) :
    (rd m d).after 2 t Y X = (if t.val = 0 then X = (k0_pay1 : Vec F S4x4096 .i32) else X = Y) := by dsimp only [rd]

/-- What the body finds in the first window's buffer: the input's block, whatever the buffer held before the fetch. -/
theorem finds_0 (d : Dev nD) (t : Fin cfg0.N) (Y : (cfg0.win 0).block.Idx → Elt F (cfg0.win 0).elt) (h : (rd m d).Finds 0 t Y) :
    Y = xblk m d t := by
  rw [(rd m d).finds_of_fetch (fetch0_0 t)] at h
  obtain ⟨d', rfl⟩ := h
  exact fill_indep t _ _ _

/-- The body obligation, at every point. -/
theorem body_obl (d : Dev nD) : (rd m d).BodyObligation (defs₀ (F := F)) Variants.none none Set.univ := by
  intro t Y hY
  rw [bigSep_W0, bigSep_W0]
  have h0 : Y 0 = xblk m d t := finds_0 m d t (Y 0) (hY 0)
  show _ ⊢ wp frame _ Set.univ (bodyAt0 t) _
  unfold bodyAt0
  rw [show (rd m d).Φ t.succ = (rd m d).Φ t.castSucc from rfl,
    show (rd m d).owesAt none t.succ = (rd m d).owesAt none t.castSucc from rfl]
  by_cases hc : k0_cond1 (grid0.coords t) = 1#1
  · have ht : t.val = 0 := (hcond t).mp hc
    iintro ⟨HΦ, Ho, H0, H1, H2⟩
    iapply (body_mask d (grid0.coords t) _ _ _ _ _ _ hc (Y 0) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]
    · iexists (Y 0); isplitr; · ipureintro; rw [after_0]
      iexact H0
    isplitl [H1]
    · iexists (Y 0); isplitr; · ipureintro; rw [after_1]; exact h0
      iexact H1
    · iexists (k0_pay1 : Vec F S4x4096 .i32); isplitr; · ipureintro; rw [after_2, if_pos ht]
      iexact H2
  · have ht : ¬t.val = 0 := fun h => hc ((hcond t).mpr h)
    iintro ⟨HΦ, Ho, H0, H1, H2⟩
    iapply (body_copy d (grid0.coords t) _ _ _ _ _ _ hc (Y 0) Set.univ _)
    isplitl [H0]; · iexact H0
    isplitl [H1]; · iexists _; iexact H1
    iintro ⟨H0, H1⟩
    isplitl [HΦ]; · iexact HΦ
    isplitl [Ho]; · iexact Ho
    isplitl [H0]
    · iexists (Y 0); isplitr; · ipureintro; rw [after_0]
      iexact H0
    isplitl [H1]
    · iexists (Y 0); isplitr; · ipureintro; rw [after_1]; exact h0
      iexact H1
    · iexists (Y 2); isplitr; · ipureintro; rw [after_2, if_neg ht]
      iexact H2

end Cert.KernelIdeal.Hand
end
-- ==== Proof.KRegion.lean ====
/-
  The TensorCore region of the idealized kernel, entered from @main of the SparseCore program.

  The region's call is run by the regions kit's rule for one kernel region: the staging cells' invariants are allocated
  from the TensorCore's region-boundary counters and the pipeline's share of the launch, the pipeline runs under the body
  obligation, and the boundary is handed back. What the TensorCore owes the SparseCores (its start signals, all at a
  call's index) passes through unchanged; the pipeline's waits are at the kernels' own index, below every such debt.
-/
import proofs.«216793_g32547262169289_cont_8to1_b_717_18_alg».proof.Proof.KRegionBody

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (SparseCore.Cfg.HIx 1) (Elt F) ℕ UU ℕ

variable (m : (ℓ : Loc nD τ sig) → Buf (Elt F) ℓ)

/-! ## The launch's share for the pipeline -/

/-- The pipeline has no prefetched table: the one admissible valuation. -/
abbrev adm : (p : Fin 1) → (pcfgs (F := F) p).Adm := fun p => (cfgs p).toPCfg_adm

/-- The pipeline's share of what the launch deals the TensorCore of `d`: its staging cells' ghost state and the duty
    tokens of the transfers its loop issues. -/
def pipeG (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem phinj : Function.Injective (Pipeline.cellOf (nD := nD) (τ := τ) (Pipeline.pin (pcfgs (F := F)) adm)) := cellOf_inj

/-- The element of the pipeline's rounds library the launch starts from: its cells at no schedule, every transfer's duty token. -/
def uP : UP := initOf (Pipeline.cells (Pipeline.pin (pcfgs (F := F)) adm) phinj) (Pipeline.launchToks (Pipeline.pin (pcfgs (F := F)) adm) phinj)

/-- From that element, every TensorCore's share. -/
theorem fund_pipe : BI.own ((EP (F := F)) (uP (F := F))) ⊢ iprop(|==> bigSep Finset.univ fun d : Dev nD => (pipeG d : sProp 𝕄)) := by
  refine (Pipeline.fund_ghost (Pipeline.pin (pcfgs (F := F)) adm) (EP (F := F)) phinj).trans (bupd_mono ?_)
  rw [← bigSep_sep']
  refine bigSep_mono fun d _ => ?_
  rw [show (Finset.univ : Finset (Fin 1)) = {0} from rfl, bigSep_singleton, bigSep_singleton]
  unfold pipeG; exact BI.Entails.refl _

/-! ## The region -/

/-- The proof data as the family over the program's one pipeline. -/
abbrev rdats : (p : Fin 1) → (c : Dev nD) → RDat τ (Elt F) (SparseCore.Cfg.HIx 1) ℕ UU ℕ (Pipeline.pin (pcfgs (F := F)) adm p) c :=
  fun _ c => rd m c

/-- Before its first SparseCore call the TensorCore owes nothing at the kernels' own index: its debts are start signals. -/
theorem hOtc (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

/-- What the TensorCore of `d` owes the SparseCores, its recorded waits all at level 0: carried through the region. -/
def owesTC (d : Dev nD) : sProp 𝕄 :=
  iprop(∃ W, ⌜(K (F := F)).WBelow (SparseCore.T d) W (8 * 0)⌝ ∗ owes (SparseCore.T d) ((K (F := F)).Otc d 0) W)

/-- A recorded pair at level 0 is at the kernels' own index. -/
theorem snd_none_of_lev {thr : Thread nD τ} {p : SemLoc sig × SparseCore.Cfg.HIx 1} (h : (K (F := F)).lev (thr, p.1) p.2 ≤ 8 * 0) : p.2 = none := by
  obtain ⟨sm, ι⟩ := p
  cases ι with
  | none => rfl
  | some q => exact absurd ((K (F := F)).lev_some_pos (thr, sm) q) (by dsimp only at h; omega)

/-- The loop's own waits are at the kernels' own index. -/
theorem bound_none (d : Dev nD) (t : Fin (cfg0.N + 1)) {p : SemLoc sig × SparseCore.Cfg.HIx 1} (h : p ∈ (rd m d).bound none t) : p.2 = none := by
  rcases h with h | ⟨w, s, rfl⟩
  · exact h
  · rfl

/-- A window's array, whole at the full share. -/
theorem array_pt (d : Dev nD) (w : Fin cfg0.W) (Fw : Buf (Elt F) ((cfg0.win w).arr.view.loc (SparseCore.T d))) :
    ((cfg0.win w).arr.view.loc (SparseCore.T d) ↦[(cfg0.win w).arr.view.set]{(rd m d).share w} Fw : sProp 𝕄)
      = ((SparseCore.T d).loc (Pipeline.arrRef spec0 w) ↦{fullShare} Fw) := by
  rw [(launch0.arr_whole w).set_eq_univ, (rd m d).share_full (fun _ => rfl) w]

theorem prefHeld_none (d : Dev nD) (q : Fin (pcfgs (F := F) 0).pre.K → PosShare TreeShare) (V) :
    (Pipeline.prefHeld (pcfgs (F := F) 0).pre d q V : sProp 𝕄) = BI.emp := by
  unfold Pipeline.prefHeld; rw [Finset.univ_eq_empty, BI.bigSep_empty]

/-- The thread state the region is entered from: what the TensorCore owes, and the pipeline's three arrays at the launch contents. -/
def segPre (c : Dev nD) : sProp 𝕄 :=
  iprop(owesTC c ∗ (xLoc c ↦{fullShare} m (xLoc c)) ∗ (visLoc c ↦{fullShare} m (visLoc c)) ∗ (mwLoc c ↦{fullShare} m (mwLoc c)))

/-- The thread state it leaves: the same debts, the input as it was, each output at some contents the write-backs may leave. -/
def segPost (c : Dev nD) : sProp 𝕄 :=
  iprop(owesTC c ∗ (xLoc c ↦{fullShare} m (xLoc c))
    ∗ (∃ F1, ⌜(rd m c).ArrAt 1 cfg0.N F1⌝ ∗ (visLoc c ↦{fullShare} F1)) ∗ (∃ F2, ⌜(rd m c).ArrAt 2 cfg0.N F2⌝ ∗ (mwLoc c ↦{fullShare} F2)))

/-- Each window's array, whole at the full share, in the arrays' own names. -/
theorem array_pt0 (d : Dev nD) (Fw : Buf (Elt F) ((cfg0.win 0).arr.view.loc (SparseCore.T d))) :
    ((cfg0.win 0).arr.view.loc (SparseCore.T d) ↦[(cfg0.win 0).arr.view.set]{(rd m d).share 0} Fw : sProp 𝕄) = (xLoc d ↦{fullShare} Fw) :=
  array_pt m d 0 Fw
theorem array_pt1 (d : Dev nD) (Fw : Buf (Elt F) ((cfg0.win 1).arr.view.loc (SparseCore.T d))) :
    ((cfg0.win 1).arr.view.loc (SparseCore.T d) ↦[(cfg0.win 1).arr.view.set]{(rd m d).share 1} Fw : sProp 𝕄) = (visLoc d ↦{fullShare} Fw) :=
  array_pt m d 1 Fw
theorem array_pt2 (d : Dev nD) (Fw : Buf (Elt F) ((cfg0.win 2).arr.view.loc (SparseCore.T d))) :
    ((cfg0.win 2).arr.view.loc (SparseCore.T d) ↦[(cfg0.win 2).arr.view.set]{(rd m d).share 2} Fw : sProp 𝕄) = (mwLoc d ↦{fullShare} Fw) :=
  array_pt m d 2 Fw
theorem A_0 (d : Dev nD) : (rd m d).A 0 = m (xLoc d) := rfl
theorem A_1 (d : Dev nD) : (rd m d).A 1 = m (visLoc d) := rfl
theorem A_2 (d : Dev nD) : (rd m d).A 2 = m (mwLoc d) := rfl

/-- The windowed arrays at contents `Fs`, one by one. -/
theorem arrays3 (d : Dev nD) (Fs : (w : Fin cfg0.W) → Buf (Elt F) ((cfg0.win w).arr.view.loc (SparseCore.T d))) :
    ((rd m d).arrays Fs : sProp 𝕄) = iprop((xLoc d ↦{fullShare} Fs 0) ∗ (visLoc d ↦{fullShare} Fs 1) ∗ (mwLoc d ↦{fullShare} Fs 2)) := by
  unfold RDat.arrays
  rw [bigSep_W0, array_pt0, array_pt1, array_pt2]

/-- The arrays after the write-backs, one by one. -/
theorem arraysAt3 (d : Dev nD) (n : Nat) :
    ((rd m d).arraysAt n : sProp 𝕄) ⊢ iprop((∃ F0, ⌜(rd m d).ArrAt 0 n F0⌝ ∗ (xLoc d ↦{fullShare} F0))
      ∗ (∃ F1, ⌜(rd m d).ArrAt 1 n F1⌝ ∗ (visLoc d ↦{fullShare} F1)) ∗ (∃ F2, ⌜(rd m d).ArrAt 2 n F2⌝ ∗ (mwLoc d ↦{fullShare} F2))) := by
  show (bigSep Finset.univ fun w : Fin 3 => (iprop(∃ Fw, ⌜(rd m d).ArrAt w n Fw⌝
      ∗ ((cfg0.win w).arr.view.loc (SparseCore.T d) ↦[(cfg0.win w).arr.view.set]{(rd m d).share w} Fw)) : sProp 𝕄)) ⊢ _
  rw [bigSep_W0]
  iintro ⟨⟨%F0, %h0, H0⟩, ⟨%F1, %h1, H1⟩, ⟨%F2, %h2, H2⟩⟩
  isplitl [H0]
  · iexists F0; isplitr; · ipureintro; exact h0
    iapply (Entails.of_eq (array_pt0 m d F0)); iexact H0
  isplitl [H1]
  · iexists F1; isplitr; · ipureintro; exact h1
    iapply (Entails.of_eq (array_pt1 m d F1)); iexact H1
  · iexists F2; isplitr; · ipureintro; exact h2
    iapply (Entails.of_eq (array_pt2 m d F2)); iexact H2

theorem seg_hwaits (lv : GSem nD τ sig → SparseCore.Cfg.HIx 1 → ℕ) (hlv : (K (F := F)).Refines lv) (c : Dev nD) :
    (levAts (K (F := F)).L lv : sProp 𝕄) ⊢ Pipeline.RDat.cellsWaits (Pipeline.pin (pcfgs (F := F)) adm) (rdats m) none 0 c :=
  Pipeline.RDat.cellsWaits_intro (Pipeline.pin (pcfgs (F := F)) adm) (rdats m) none 0 c fun w s t =>
    (K (F := F)).mayWait_none _ (hOtc c) lv hlv

theorem seg_hentry (lv : GSem nD τ sig → SparseCore.Cfg.HIx 1 → ℕ) (c : Dev nD) :
    iprop(segPre m c ∗ Pipeline.ownSems0 (fun k : PEmpty => k.elim) c ∗ levAts (K (F := F)).L lv)
      ⊢ |={Set.univ}=> iprop((rdats m 0 c).arrays (rdats m 0 c).A ∗ Pipeline.prefHeld (pcfgs (F := F) 0).pre c (fun _ => fullShare) (adm (F := F) 0).1
          ∗ (rdats m 0 c).owesAt none 0 ∗ (iprop(emp) : sProp 𝕄) ∗ (iprop(emp) : sProp 𝕄)) := by
  rw [show (rdats m 0 c) = rd m c from rfl, arrays3, prefHeld_none, A_0, A_1, A_2]
  unfold segPre owesTC
  iintro ⟨⟨⟨%W, %hW, HO⟩, Hx, Hv, Hm⟩, -, -⟩
  imodintro
  isplitl [Hx Hv Hm]
  · isplitl [Hx]; · iexact Hx
    isplitl [Hv]; · iexact Hv
    iexact Hm
  isplitr; · iempintro
  isplitl [HO]
  · iexists W; isplitr
    · ipureintro; exact fun p hp => Or.inl (snd_none_of_lev (hW p hp))
    iexact HO
  isplitr <;> iempintro

theorem seg_hexit (c : Dev nD) :
    iprop((rdats m 0 c).arraysAt (Pipeline.pin (pcfgs (F := F)) adm 0).N ∗ (rdats m 0 c).owesAt none (Fin.last (Pipeline.pin (pcfgs (F := F)) adm 0).N)
        ∗ (iprop(emp) : sProp 𝕄) ∗ (iprop(emp) : sProp 𝕄))
      ⊢ |={Set.univ}=> segPost m c := by
  show iprop((rd m c).arraysAt cfg0.N ∗ (rd m c).owesAt none (Fin.last cfg0.N) ∗ (iprop(emp) : sProp 𝕄) ∗ (iprop(emp) : sProp 𝕄)) ⊢ _
  unfold segPost owesTC
  iintro ⟨Ha, ⟨%W, %hW, HO⟩, -, -⟩
  ihave Hb := (arraysAt3 m c cfg0.N) $$ Ha
  icases Hb with ⟨⟨%F0, %hF0, H0⟩, ⟨%F1, %hF1, H1⟩, ⟨%F2, %hF2, H2⟩⟩
  rw [(rd m c).ArrAt_in 0 rfl] at hF0
  subst hF0
  imodintro
  isplitl [HO]
  · iexists W; isplitr
    · ipureintro; intro p hp; rw [bound_none m c _ (hW hp), SparseCore.Cfg.lev_none]
    iexact HO
  isplitl [H0]; · iexact H0
  isplitl [H1]
  · iexists F1; isplitr; · ipureintro; exact hF1
    iexact H1
  · iexists F2; isplitr; · ipureintro; exact hF2
    iexact H2

/-- The region as the regions kit takes it. -/
def seg (lv : GSem nD τ sig → SparseCore.Cfg.HIx 1 → ℕ) (hlv : (K (F := F)).Refines lv) :
    Pipeline.RDat.RegionSeg (pcfgs (F := F)) adm (rdats m) none (defs₀ (F := F)) 𝒱₀ (K (F := F)).L lv (0 : Fin 1) where
  win := launch0.win.to₀
  block_pos := launch0.block_pos
  stage_whole := launch0.stage_whole
  K := PEmpty
  osem := fun k => k.elim
  ho := Pipeline.OwnSemFacts.none _
  hbody := fun c => body_obl m c
  hwaits := seg_hwaits m lv hlv
  pre := segPre m
  post := segPost m
  X := fun _ => iprop(emp)
  Y := fun _ => iprop(emp)
  Z := fun _ => iprop(emp)
  hentry := seg_hentry m lv
  hin := fun c => by iintro -; iempintro
  hout := fun c => by
    rw [Pipeline.ownSems0_none, scopedRest0_eq]
    iintro -; isplitr; · iempintro
    isplitr <;> iempintro
  hexit := seg_hexit m

/-- The TensorCore's handshake state before its first SparseCore call is what it owes beside the rest, which the region
    does not touch. -/
theorem tcSt_eq (d : Dev nD) : ∃ R : sProp 𝕄, (K (F := F)).tcSt EH d 0 = iprop(owesTC d ∗ R) :=
  ⟨_, by unfold SparseCore.Cfg.tcSt owesTC; rfl⟩

/-- The region's call under the certificate's own body table: from the boundary, the entry state, the level facts and the
    pipeline's share of the launch, to the boundary and the exit state. -/
theorem region_wp_D (d : Dev nD) (lv : GSem nD τ sig → SparseCore.Cfg.HIx 1 → ℕ) (hlv : (K (F := F)).Refines lv) :
    iprop(boundary (SparseCore.T d) ∗ segPre m d ∗ levAts (K (F := F)).L lv ∗ pipeG d)
      ⊢ wp frame (wpE (D (F := F)) 𝒱 (SparseCore.T d) none) Set.univ
          (.op (.customCall (Pipeline.entry 0) ()) fun _ => .ret PUnit.unit)
          fun _ => (iprop(boundary (SparseCore.T d) ∗ segPost m d) : sProp 𝕄) := by
  have h := Pipeline.RDat.RegionSeg.wp (pcfgs (F := F)) adm (rdats m) none phinj (EP (F := F)) (defs₀ (F := F)) 𝒱₀ (K (F := F)).L lv
    (seg m lv hlv) d none (fun _ h => nomatch h) (fun _ => .ret PUnit.unit) (fun _ => (iprop(boundary (SparseCore.T d) ∗ segPost m d) : sProp 𝕄))
  rw [show (seg m lv hlv).pre d = segPre m d from rfl, show (seg m lv hlv).post d = segPost m d from rfl] at h
  refine BIBase.Entails.trans ?_ h
  unfold pipeG
  iintro ⟨Hbd, Hpre, #Hlev, Hcg, Htk⟩
  isplitr
  · iintro H; rw [wp_ret]; imodintro; iexact H
  isplitl [Hbd]; · iexact Hbd
  isplitl [Hpre]; · iexact Hpre
  isplitr; · iexact Hlev
  isplitl [Hcg]; · iexact Hcg
  iexact Htk

/-- THE REGION, relationally: from the level facts, the TensorCore's handshake state before its first SparseCore call, its
    region-boundary holdings, the pipeline's three arrays at the launch contents and the pipeline's share of the launch,
    the region's call runs to the same with the input as it was and each output at contents the write-backs may leave. -/
theorem region_wp_rel (d : Dev nD) (lv : GSem nD τ sig → SparseCore.Cfg.HIx 1 → ℕ) (hlv : (K (F := F)).Refines lv) :
    iprop(levAts (K (F := F)).L lv ∗ (K (F := F)).tcSt EH d 0 ∗ boundary (SparseCore.T d)
        ∗ (xLoc d ↦{fullShare} m (xLoc d)) ∗ (visLoc d ↦{fullShare} m (visLoc d)) ∗ (mwLoc d ↦{fullShare} m (mwLoc d))
        ∗ pipeG d)
      ⊢ wp frame (wpE ((K (F := F)).defs (D (F := F))) 𝒱 (SparseCore.T d) none) Set.univ
          (Prog.lift (.customCall (SparseCore.inner (Pipeline.entry 0)) ()))
          fun _ => (iprop((K (F := F)).tcSt EH d 0 ∗ boundary (SparseCore.T d)
            ∗ (xLoc d ↦{fullShare} m (xLoc d))
            ∗ (∃ F1, ⌜(rd m d).ArrAt 1 cfg0.N F1⌝ ∗ (visLoc d ↦{fullShare} F1))
            ∗ (∃ F2, ⌜(rd m d).ArrAt 2 cfg0.N F2⌝ ∗ (mwLoc d ↦{fullShare} F2))) : sProp 𝕄) := by
  obtain ⟨R, hR⟩ := tcSt_eq (F := F) d
  rw [hR]
  have hl := (K (F := F)).wp_liftProg (D (F := F)) 𝒱 (SparseCore.T d) Set.univ none
    (.op (.customCall (Pipeline.entry 0) ()) fun _ => .ret PUnit.unit) (fun _ => (iprop(boundary (SparseCore.T d) ∗ segPost m d) : sProp 𝕄))
  have hD := region_wp_D m d lv hlv
  iintro ⟨#Hlev, ⟨HO, Hrest⟩, Hbd, Hx, Hv, Hm, Hg⟩
  iapply (wp_wand_r frame _ Set.univ)
  isplitl [HO Hbd Hx Hv Hm Hg]
  · iapply hl
    iapply hD
    isplitl [Hbd]; · iexact Hbd
    isplitl [HO Hx Hv Hm]
    · unfold segPre
      isplitl [HO]; · iexact HO
      isplitl [Hx]; · iexact Hx
      isplitl [Hv]; · iexact Hv
      iexact Hm
    isplitr; · iexact Hlev
    iexact Hg
  · iintro %_ ⟨Hbd, Hpost⟩
    unfold segPost
    icases Hpost with ⟨HO, Hx, H1, H2⟩
    isplitl [HO Hrest]
    · isplitl [HO]; · iexact HO
      iexact Hrest
    isplitl [Hbd]; · iexact Hbd
    isplitl [Hx]; · iexact Hx
    isplitl [H1]; · iexact H1
    iexact H2

/-- THE REGION, as a frame: the outputs at some contents. -/
theorem region_wp_frame (d : Dev nD) (lv : GSem nD τ sig → SparseCore.Cfg.HIx 1 → ℕ) (hlv : (K (F := F)).Refines lv) :
    iprop(levAts (K (F := F)).L lv ∗ (K (F := F)).tcSt EH d 0 ∗ boundary (SparseCore.T d)
        ∗ (xLoc d ↦{fullShare} m (xLoc d)) ∗ (visLoc d ↦{fullShare} m (visLoc d)) ∗ (mwLoc d ↦{fullShare} m (mwLoc d))
        ∗ pipeG d)
      ⊢ wp frame (wpE ((K (F := F)).defs (D (F := F))) 𝒱 (SparseCore.T d) none) Set.univ
          (Prog.lift (.customCall (SparseCore.inner (Pipeline.entry 0)) ()))
          fun _ => (iprop((K (F := F)).tcSt EH d 0 ∗ boundary (SparseCore.T d)
            ∗ (xLoc d ↦{fullShare} m (xLoc d))
            ∗ (∃ f, visLoc d ↦{fullShare} f) ∗ (∃ g, mwLoc d ↦{fullShare} g)) : sProp 𝕄) :=
  (region_wp_rel m d lv hlv).trans (wp_mono _ _ _ fun _ => by
    iintro ⟨Hst, Hbd, Hx, ⟨%F1, -, H1⟩, ⟨%F2, -, H2⟩⟩
    isplitl [Hst]; · iexact Hst
    isplitl [Hbd]; · iexact Hbd
    isplitl [Hx]; · iexact Hx
    isplitl [H1]; · iexists F1; iexact H1
    iexists F2; iexact H2)

end Cert.KernelIdeal.Hand
end
-- ==== Proof.KRegionValue.lean ====
/-
  What the TensorCore region leaves in its two results, and the region's rule with those values.

  Mathematics. The visible part: every point (i, j) writes back the block of rows 1536·j … 1536·j + 1535 of batch i, holding
  the same block of the input (the two windows have one index map, and no block overhangs); the eight blocks cover
  [4, 3072, 2048], so vis[b, t, f] = x[b, t, f]. The mask: its buffer is stored at the first point with
  extui(iota along the time axis ≥ 3072) and is neither stored into nor written back before the last point, whose
  write-back is of the whole array: mask[b, t] = 1 if t ≥ 3072 else 0, as 32-bit words.
-/
import Idealize.ShloMosaic.Lib.ValueIdx
import proofs.«216793_g32547262169289_cont_8to1_b_717_18_alg».proof.Proof.KRegion

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (SparseCore.Cfg.HIx 1) (Elt F) ℕ UU ℕ

variable (m : (ℓ : Loc nD τ sig) → Buf (Elt F) ℓ)

/-! ## What the arrays hold in the end -/

/-- If at every point that writes window `w`'s block back, what the body may leave there has, on the part the write-back
    moves, the block of `G`, then after the write-backs below `n` the array holds `G` on every block written back
    below `n`: a later write-back either covers the index with `G` again or leaves it alone. -/
theorem arrAt_apply_of_mem (d : Dev nD) (w : Fin cfg0.W) (G : Buf (Elt F) ((cfg0.win w).arr.view.loc (SparseCore.T d)))
    (hG : ∀ (t : Fin cfg0.N) (X : (cfg0.win w).block.Idx → Elt F (cfg0.win w).elt), (cfg0.win w).flush t = true → (rd m d).Leaves w t X →
      (cfg0.win w).cut (cfg0.grid.coords t) X = ((cfg0.win w).blk t).view.read (Elt F) G) :
    ∀ (n : Nat) (Fw : Buf (Elt F) ((cfg0.win w).arr.view.loc (SparseCore.T d))), (rd m d).ArrAt w n Fw →
      ∀ (t : Fin cfg0.N) (i : ((cfg0.win w).arr.view.loc (SparseCore.T d)).2.ty.Idx), t.val < n → (cfg0.win w).flush t = true →
        i ∈ ((cfg0.win w).blk t).view.set → Fw i = G i
  | 0, _, _, _, _, ht, _, _ => absurd ht (Nat.not_lt_zero _)
  | n + 1, Fw, hF, t, i, ht, hf, hi => by
    by_cases hn : n < cfg0.N
    swap
    · rw [(rd m d).ArrAt_stable w (n + 1) (by omega), ← (rd m d).ArrAt_stable w n (by omega)] at hF
      exact arrAt_apply_of_mem d w G hG n Fw hF t i (by have := t.isLt; omega) hf hi
    have hF' : (rd m d).ArrAt w ((⟨n, hn⟩ : Fin cfg0.N).val + 1) Fw := hF
    rw [(rd m d).ArrAt_succ w ⟨n, hn⟩] at hF'
    by_cases hfn : (cfg0.win w).flush ⟨n, hn⟩ = true
    · rw [if_pos hfn] at hF'
      obtain ⟨G₀, X, hG₀, hX, rfl⟩ := hF'
      rw [hG _ X hfn hX, View.write_read_eq_piecewise]
      by_cases hin : i ∈ ((cfg0.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt_apply_of_mem d w G hG n G₀ hG₀ t i (by omega) hf hi
    · rw [if_neg hfn] at hF'
      have htn : t.val ≠ n := fun e => hfn (by have : t = ⟨n, hn⟩ := Fin.ext e; exact this ▸ hf)
      exact arrAt_apply_of_mem d w G hG n Fw hF' t i (by omega) hf hi

/-- So when the blocks written back cover the array, it ends holding `G`. -/
theorem arrAt_eq_of_cover (d : Dev nD) (w : Fin cfg0.W) (G : Buf (Elt F) ((cfg0.win w).arr.view.loc (SparseCore.T d)))
    (hG : ∀ (t : Fin cfg0.N) (X : (cfg0.win w).block.Idx → Elt F (cfg0.win w).elt), (cfg0.win w).flush t = true → (rd m d).Leaves w t X →
      (cfg0.win w).cut (cfg0.grid.coords t) X = ((cfg0.win w).blk t).view.read (Elt F) G)
    (hcover : ∀ i : ((cfg0.win w).arr.view.loc (SparseCore.T (τ := τ) d)).2.ty.Idx,
      ∃ t : Fin cfg0.N, (cfg0.win w).flush t = true ∧ i ∈ ((cfg0.win w).blk t).view.set)
    (Fw : Buf (Elt F) ((cfg0.win w).arr.view.loc (SparseCore.T d))) (hF : (rd m d).ArrAt w cfg0.N Fw) : Fw = G :=
  funext fun i => by
    obtain ⟨t, hf, hi⟩ := hcover i
    exact arrAt_apply_of_mem m d w G hG cfg0.N Fw hF t i t.isLt hf hi

/-! ### The mask -/

theorem toInt_ofNat_small (n : Nat) (hn : n < 4096) : (BitVec.ofNat 32 n).toInt = (n : Int) := by
  rw [BitVec.toInt_eq_toNat_cond]
  simp only [BitVec.toNat_ofNat]
  rw [Nat.mod_eq_of_lt (by omega), if_pos (by omega)]

/-- The signed comparison of a time step below 4096 against 3072. -/
theorem cmpi_sge_3072 (n : Nat) (hn : n < 4096) :
    IntOp.cmpi .sge (BitVec.ofNat 32 n) 3072#32 = if 3072 ≤ n then 1#1 else 0#1 := by
  have h : (3072#32 : BitVec 32).sle (BitVec.ofNat 32 n) = decide (3072 ≤ n) := by
    rw [BitVec.sle_eq_decide, toInt_ofNat_small n hn, show (3072#32 : BitVec 32).toInt = 3072 from by decide]
    simp
  show BitVec.ofBool ((3072#32 : BitVec 32).sle (BitVec.ofNat 32 n)) = _
  rw [h]
  by_cases h' : 3072 ≤ n <;> simp [h']

/-- The words the body stores at the first point are the mask's: 1 where the time step is at least 3072, else 0. -/
theorem pay_apply (j : S4x4096.Idx) : (k0_pay1 : IVec S4x4096 32) j = maskWord j := by
  unfold k0_pay1 maskWord Cert.Spec.maskBit
  dsimp only
  rw [ValueIdx.extui_apply]
  show (IntOp.cmpi .sge (iota .tc S4x4096 32 [1] iota_S4x4096_d1_w32 j) (broadcast S4x4096 (3072#32 : BitVec 32) j)).setWidth 32 = _
  rw [iota_single_apply, ValueIdx.broadcast_apply, cmpi_sge_3072 _ (j 1).isLt]

/-- The mask's window is never fetched (it is an output). -/
theorem fetch_2 : ∀ t : Fin cfg0.N, (cfg0.win 2).fetch t = false :=
  (by decide +kernel : ∀ t : Fin grid0.N, win0_2.fetch t = false)

/-- Its block index is (0, 0) at every point: the whole array. -/
theorem idx_2 : ∀ t : Fin cfg0.N, (cfg0.win 2).index t 0 = 0 ∧ (cfg0.win 2).index t 1 = 0 :=
  (by decide +kernel : ∀ t : Fin grid0.N, win0_2.index t 0 = 0 ∧ win0_2.index t 1 = 0)

/-- Whatever the body may leave in the mask's buffer, at any point, is the mask's words: stored at the first point, and
    the buffer is neither written back nor stored into between that point and the last. -/
theorem leaves_2 (d : Dev nD) : ∀ (n : Nat) (t : Fin cfg0.N), t.val = n →
    ∀ X : (cfg0.win 2).block.Idx → Elt F (cfg0.win 2).elt, (rd m d).Leaves 2 t X → X = (k0_pay1 : Vec F S4x4096 .i32)
  | 0, t, ht, X, ⟨Y, _, hYX⟩ => by rw [after_2, if_pos ht] at hYX; exact hYX
  | n + 1, t, ht, X, ⟨Y, hY, hYX⟩ => by
    rw [after_2, if_neg (by omega)] at hYX
    rw [hYX]
    rw [(rd m d).finds_of_pos (fetch_2 t) (by omega)] at hY
    have hN : cfg0.N = 8 := N_0
    rcases hY with hfl | hL
    · exfalso; have h7 := (flush0_2 _).mp hfl; dsimp only at h7; have := t.isLt; omega
    · exact leaves_2 d n ⟨t.val - 1, Nat.lt_of_le_of_lt (Nat.sub_le _ _) t.isLt⟩ (by dsimp only; omega) Y hL

/-- What a write-back of the mask's buffer writes is the mask's words, read through the block (the whole array). -/
theorem flushed_2 (d : Dev nD) (t : Fin cfg0.N) (X : (cfg0.win 2).block.Idx → Elt F (cfg0.win 2).elt)
    (hf : (cfg0.win 2).flush t = true) (hX : (rd m d).Leaves 2 t X) :
    (cfg0.win 2).cut (cfg0.grid.coords t) X = ((cfg0.win 2).blk t).view.read (Elt F) (maskWord : Buf (Elt F) (mwLoc d)) := by
  rw [leaves_2 m d t.val t rfl X hX]
  funext y
  rw [View.read_apply]
  show (k0_pay1 : IVec S4x4096 32) ((cfg0.win 2).xinj (cfg0.grid.coords t) y) = maskWord (((cfg0.win 2).blk t).view.emb y)
  rw [pay_apply]
  congr 1
  funext a
  apply Fin.ext
  match a with
  | ⟨0, _⟩ => show (y 0).val = win0_2.index t 0 * 4 + 1 * (y 0).val; rw [(idx_2 t).1]; omega
  | ⟨1, _⟩ => show (y 1).val = win0_2.index t 1 * 4096 + 1 * (y 1).val; rw [(idx_2 t).2]; omega

/-- The mask's block at the last point is the whole array. -/
theorem cover_2 (d : Dev nD) (i : ((cfg0.win 2).arr.view.loc (SparseCore.T (τ := τ) d)).2.ty.Idx) :
    ∃ t : Fin cfg0.N, (cfg0.win 2).flush t = true ∧ i ∈ ((cfg0.win 2).blk t).view.set := by
  refine ⟨t0_7, (flush0_2 t0_7).mpr rfl, ?_⟩
  show i ∈ ((View.whole main_v0_1).slice (win0_2.rect t0_7)).set
  rw [View.set_slice_whole, Rect.mem_set_unit]
  intro a
  have h0 : (i 0 : Nat) < 4 := (i 0).isLt
  have h1 : (i 1 : Nat) < 4096 := (i 1).isLt
  match a with
  | ⟨0, _⟩ => show win0_2.index t0_7 0 * win0_2.size 0 ≤ (i 0 : Nat) ∧ (i 0 : Nat) < win0_2.index t0_7 0 * win0_2.size 0 + win0_2.xsize (grid0.coords t0_7) 0
              rw [(idx_2 t0_7).1, show win0_2.xsize (grid0.coords t0_7) 0 = 4 from rfl]; omega
  | ⟨1, _⟩ => show win0_2.index t0_7 1 * win0_2.size 1 ≤ (i 1 : Nat) ∧ (i 1 : Nat) < win0_2.index t0_7 1 * win0_2.size 1 + win0_2.xsize (grid0.coords t0_7) 1
              rw [(idx_2 t0_7).2, show win0_2.xsize (grid0.coords t0_7) 1 = 4096 from rfl]; omega

/-- THE MASK: after every write-back the mask's array holds 1 on the time steps from 3072 on, else 0. -/
theorem final_mask (d : Dev nD) (F2 : Buf (Elt F) ((cfg0.win 2).arr.view.loc (SparseCore.T d))) (h : (rd m d).ArrAt 2 cfg0.N F2) :
    F2 = (maskWord : Buf (Elt F) (mwLoc d)) :=
  arrAt_eq_of_cover m d 2 (maskWord : Buf (Elt F) (mwLoc d)) (flushed_2 m d) (cover_2 d) F2 h

/-! ### The visible part -/

/-- The visible part's window and the input's have one index map: the block at point (i, j) is (i, j, 0) of each. -/
theorem idx_01 : ∀ t : Fin cfg0.N, win0_0.index t 0 = win0_1.index t 0 ∧ win0_0.index t 1 = win0_1.index t 1 ∧ win0_0.index t 2 = win0_1.index t 2 :=
  (by decide +kernel : ∀ t : Fin grid0.N, win0_0.index t 0 = win0_1.index t 0 ∧ win0_0.index t 1 = win0_1.index t 1 ∧ win0_0.index t 2 = win0_1.index t 2)

/-- In closed form: point t = 2·i + j has block index (i, j, 0). -/
theorem idx_1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)

theorem flushed_1 (d : Dev nD) (t : Fin cfg0.N) (X : (cfg0.win 1).block.Idx → Elt F (cfg0.win 1).elt)
    (hf : (cfg0.win 1).flush t = true) (hX : (rd m d).Leaves 1 t X) :
    (cfg0.win 1).cut (cfg0.grid.coords t) X = ((cfg0.win 1).blk t).view.read (Elt F) (visOf (m (xLoc d)) : Buf (Elt F) (visLoc d)) := by
  obtain ⟨Y, _, hYX⟩ := hX
  rw [after_1] at hYX
  rw [hYX]
  funext y
  rw [View.read_apply]
  unfold xblk visOf
  have hm : (cfg0.win 0).moved (cfg0.grid.coords t) ((cfg0.win 1).xinj (cfg0.grid.coords t) y) = true :=
    ((cfg0.win 0).moved_iff _ _).mpr fun a => by
      have := ((cfg0.win 1).xinj (cfg0.grid.coords t) y a).isLt; unfold Window.xsize; rw [hclip0 t a]; exact this
  show (cfg0.win 0).fill (cfg0.grid.coords t) (fun _ => (Elt.inhabited F (cfg0.win 0).elt).default) _ ((cfg0.win 1).xinj (cfg0.grid.coords t) y)
    = m (xLoc d) (Cert.Spec.visIdx (((cfg0.win 1).blk t).view.emb y))
  unfold Window.fill
  rw [dif_pos hm, View.read_apply]
  show m (xLoc d) (((cfg0.win 0).blk t).view.emb _) = m (xLoc d) (Cert.Spec.visIdx (((cfg0.win 1).blk t).view.emb y))
  congr 1
  funext a
  apply Fin.ext
  match a with
  | ⟨0, _⟩ => show win0_0.index t 0 * 1 + 1 * (y 0).val = win0_1.index t 0 * 1 + 1 * (y 0).val; rw [(idx_01 t).1]
  | ⟨1, _⟩ => show win0_0.index t 1 * 1536 + 1 * (y 1).val = win0_1.index t 1 * 1536 + 1 * (y 1).val; rw [(idx_01 t).2.1]
  | ⟨2, _⟩ => show win0_0.index t 2 * 2048 + 1 * (y 2).val = win0_1.index t 2 * 2048 + 1 * (y 2).val; rw [(idx_01 t).2.2]

/-- The visible part's blocks cover it: element (b, r, f) is in the block of point 2·b + r / 1536. -/
theorem cover_1 (d : Dev nD) (i : ((cfg0.win 1).arr.view.loc (SparseCore.T (τ := τ) d)).2.ty.Idx) :
    ∃ t : Fin cfg0.N, (cfg0.win 1).flush t = true ∧ i ∈ ((cfg0.win 1).blk t).view.set := by
  have h0 : (i 0 : Nat) < 4 := (i 0).isLt
  have h1 : (i 1 : Nat) < 3072 := (i 1).isLt
  have h2 : (i 2 : Nat) < 2048 := (i 2).isLt
  have hN : cfg0.N = 8 := N_0
  let t : Fin cfg0.N := ⟨2 * (i 0 : Nat) + (i 1 : Nat) / 1536, by rw [hN]; omega⟩
  refine ⟨t, flush0_1 t, ?_⟩
  show i ∈ ((View.whole main_v0_0).slice (win0_1.rect t)).set
  rw [View.set_slice_whole, Rect.mem_set_unit]
  intro a
  have ht : t.val = 2 * (i 0 : Nat) + (i 1 : Nat) / 1536 := rfl
  match a with
  | ⟨0, _⟩ => show win0_1.index t 0 * win0_1.size 0 ≤ (i 0 : Nat) ∧ (i 0 : Nat) < win0_1.index t 0 * win0_1.size 0 + win0_1.xsize (grid0.coords t) 0
              rw [(idx_1 t).1, show win0_1.size 0 = 1 from rfl, show win0_1.xsize (grid0.coords t) 0 = 1 from rfl, ht]; omega
  | ⟨1, _⟩ => show win0_1.index t 1 * win0_1.size 1 ≤ (i 1 : Nat) ∧ (i 1 : Nat) < win0_1.index t 1 * win0_1.size 1 + win0_1.xsize (grid0.coords t) 1
              rw [(idx_1 t).2.1, show win0_1.size 1 = 1536 from rfl, show win0_1.xsize (grid0.coords t) 1 = 1536 from rfl, ht]; omega
  | ⟨2, _⟩ => show win0_1.index t 2 * win0_1.size 2 ≤ (i 2 : Nat) ∧ (i 2 : Nat) < win0_1.index t 2 * win0_1.size 2 + win0_1.xsize (grid0.coords t) 2
              rw [(idx_1 t).2.2, show win0_1.size 2 = 2048 from rfl, show win0_1.xsize (grid0.coords t) 2 = 2048 from rfl]; omega

/-- THE VISIBLE PART: after every write-back it holds the input's first 3072 time steps. -/
theorem final_vis (d : Dev nD) (F1 : Buf (Elt F) ((cfg0.win 1).arr.view.loc (SparseCore.T d))) (h : (rd m d).ArrAt 1 cfg0.N F1) :
    F1 = (visOf (m (xLoc d)) : Buf (Elt F) (visLoc d)) :=
  arrAt_eq_of_cover m d 1 (visOf (m (xLoc d)) : Buf (Elt F) (visLoc d)) (flushed_1 m d) (cover_1 d) F1 h

/-! ## The region, with its values -/

/-- THE REGION: from the level facts, the TensorCore's handshake state before its first SparseCore call, its region-boundary
    holdings, the pipeline's three arrays at the launch contents and the pipeline's share of the launch, the region's call
    runs to the same handshake state and boundary, the input as it was, the visible part at the input's first 3072 time
    steps and the mask's words at 1 from time step 3072 on, else 0. -/
theorem region_wp (d : Dev nD) (lv : GSem nD τ sig → SparseCore.Cfg.HIx 1 → ℕ) (hlv : (K (F := F)).Refines lv) :
    iprop(levAts (K (F := F)).L lv ∗ (K (F := F)).tcSt EH d 0 ∗ boundary (SparseCore.T d)
        ∗ (xLoc d ↦{fullShare} m (xLoc d)) ∗ (visLoc d ↦{fullShare} m (visLoc d)) ∗ (mwLoc d ↦{fullShare} m (mwLoc d))
        ∗ pipeG d)
      ⊢ wp frame (wpE ((K (F := F)).defs (D (F := F))) 𝒱 (SparseCore.T d) none) Set.univ
          (Prog.lift (.customCall (SparseCore.inner (Pipeline.entry 0)) ()))
          fun _ => (iprop((K (F := F)).tcSt EH d 0 ∗ boundary (SparseCore.T d)
            ∗ (xLoc d ↦{fullShare} m (xLoc d))
            ∗ (visLoc d ↦{fullShare} (visOf (m (xLoc d)) : Buf (Elt F) (visLoc d)))
            ∗ (mwLoc d ↦{fullShare} (maskWord : Buf (Elt F) (mwLoc d)))) : sProp 𝕄) :=
  (region_wp_rel m d lv hlv).trans (wp_mono _ _ _ fun _ => by
    iintro ⟨Hst, Hbd, Hx, ⟨%F1, %h1, H1⟩, ⟨%F2, %h2, H2⟩⟩
    have e1 := final_vis m d F1 h1
    have e2 := final_mask m d F2 h2
    subst e1 e2
    isplitl [Hst]; · iexact Hst
    isplitl [Hbd]; · iexact Hbd
    isplitl [Hx]; · iexact Hx
    isplitl [H1]; · iexact H1
    iexact H2)

end Cert.KernelIdeal.Hand
end
-- ==== Proof.KLaunch.lean ====
/-
  What the SparseCore call hands over, and the launch theorem's obligations for the vector-subcore kernel.

  The call hands vector subcore L its eight source chunks of the input (at the launch contents) and its eight
  destination chunks of the masked output (at anything); the subcore hands the sources back unchanged and the
  destinations at out[b, t, f] = x[b, 3072 + t, f]. A SparseCore is handed what its sixteen subcores are, so the
  split among them is the identity. On the TensorCore side the input splits into the rows t < 3072 and the 256 source
  chunks, the masked output into the 256 destination chunks; since every destination comes back at the SAME function
  of the input, they join to the whole output at that function.
-/
import proofs.«216793_g32547262169289_cont_8to1_b_717_18_alg».proof.Proof.KCover
import proofs.«216793_g32547262169289_cont_8to1_b_717_18_alg».proof.Proof.KTile
import proofs.«216793_g32547262169289_cont_8to1_b_717_18_alg».proof.Proof.KRegionValue
import Idealize.ShloMosaic.Lib.Pipeline.Value
import Idealize.ShloMosaic.Lib.Pipeline.Regions

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- Subcore `L`'s share when its task starts: its source chunks of the input, its destination chunks of the output. -/
def goRes (d : Dev nD) (L : grid1.Coords) : sProp 𝕄 :=
  iprop((bigSep Finset.univ fun r : Fin 8 => xLoc d ↦[srcSet L r]{fullShare} m (xLoc d))
    ∗ (bigSep Finset.univ fun r : Fin 8 => iprop(∃ f, outLoc d ↦[dstSet L r]{fullShare} f)))
/-- and when it ends: the destinations at the input's rows moved down by 3072. -/
def tdRes (d : Dev nD) (L : grid1.Coords) : sProp 𝕄 :=
  iprop((bigSep Finset.univ fun r : Fin 8 => xLoc d ↦[srcSet L r]{fullShare} m (xLoc d))
    ∗ (bigSep Finset.univ fun r : Fin 8 => outLoc d ↦[dstSet L r]{fullShare} (outOf (m (xLoc d)) : Buf (Elt F) (outLoc d))))

instance goRes_storable (d : Dev nD) (L : grid1.Coords) : BI.Storable (upEmb : UEmb _ 𝕄) (goRes m d L) := by
  unfold goRes; infer_instance
instance tdRes_storable (d : Dev nD) (L : grid1.Coords) : BI.Storable (upEmb : UEmb _ 𝕄) (tdRes m d L) := by
  unfold tdRes; infer_instance

def P : (K (F := F)).Pay (nD := nD) (Val := Elt F) (Name := ℕ) (U := UU) where
  st := fun q d c => match q with | 0 => bigSep Finset.univ fun i : Fin ((K (F := F)).nSub 0) => goRes m d (coordsV c i)
  dn := fun q d c => match q with | 0 => bigSep Finset.univ fun i : Fin ((K (F := F)).nSub 0) => tdRes m d (coordsV c i)
  go := fun q d c i => match q with | 0 => goRes m d (coordsV c i)
  td := fun q d c i => match q with | 0 => tdRes m d (coordsV c i)
  x := fun _ _ => iprop(emp)

instance P_storable : (P (F := F) m).IsStorable where
  st q d c := match q with
    | 0 => by
      show BI.Storable (upEmb : UEmb _ 𝕄) (bigSep Finset.univ fun i : Fin ((K (F := F)).nSub 0) => goRes m d (coordsV c i))
      haveI : ∀ i : Fin ((K (F := F)).nSub 0), BI.Storable (upEmb : UEmb _ 𝕄) (goRes m d (coordsV c i)) := fun i => goRes_storable m d _
      infer_instance
  dn q d c := match q with
    | 0 => by
      show BI.Storable (upEmb : UEmb _ 𝕄) (bigSep Finset.univ fun i : Fin ((K (F := F)).nSub 0) => tdRes m d (coordsV c i))
      haveI : ∀ i : Fin ((K (F := F)).nSub 0), BI.Storable (upEmb : UEmb _ 𝕄) (tdRes m d (coordsV c i)) := fun i => tdRes_storable m d _
      infer_instance
  go q d c i := match q with
    | 0 => (inferInstance : BI.Storable (upEmb : UEmb _ 𝕄) (goRes m d (coordsV c i)))
  td q d c i := match q with
    | 0 => (inferInstance : BI.Storable (upEmb : UEmb _ 𝕄) (tdRes m d (coordsV c i)))

/-! ## The launch theorem's obligations -/

variable [FloatOps F]

theorem defs₀_vector (c : Fin τ.nSC) (s : Fin τ.nSub) :
    defs₀ (F := F) (.scVector c s) 1 ()
      = SparseCore.onTile hcore1 hsub1 (fun c s => cc1_sc_copy (coordsV c s)
          xV (Memref.isWhole_whole _) oV (Memref.isWhole_whole _)
          b0 (Memref.isWhole_whole _) b1 (Memref.isWhole_whole _) b2 (Memref.isWhole_whole _)
          cc1_scratch3 cc1_scratch4 cc1_scratch5 cc1_scratch6 cc1_scratch7 cc1_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

omit [FloatOps F] in
theorem vecSplit : (K (F := F)).VecSplit' (P m) 0 := by
  intro d c
  show (bigSep Finset.univ fun i : Fin ((K (F := F)).nSub 0) => goRes m d (coordsV c i)) ⊢ |={Set.univ}=> iprop(
      (bigSep Finset.univ fun i : Fin ((K (F := F)).nSub 0) => goRes m d (coordsV c i))
      ∗ ((bigSep Finset.univ fun i : Fin ((K (F := F)).nSub 0) => tdRes m d (coordsV c i))
          -∗ (bigSep Finset.univ fun i : Fin ((K (F := F)).nSub 0) => tdRes m d (coordsV c i))))
  iintro H; imodintro
  isplitl [H]; · iexact H
  iintro H; iexact H

/-! ## The arrays split among the chunks, and joined -/

omit [FloatOps F] in
/-- The masked output, whole at `f`, is its 256 destination chunks at `f`. -/
theorem out_split (d : Dev nD) (f : Buf (Elt F) (outLoc d)) :
    (outLoc d ↦{fullShare} f : sProp 𝕄) = bigSep Finset.univ fun k : Key => outLoc d ↦[dstSet k.L k.r]{fullShare} f := by
  rw [← pointsTo_biUnion Finset.univ (ℓ := outLoc d) (fun k : Key => dstSet k.L k.r) dst_disjoint, dst_cover]; try rfl
omit [FloatOps F] in
/-- The input's rows t ≥ 3072 are the 256 source chunks. -/
theorem xhi_split (d : Dev nD) (f : Buf (Elt F) (xLoc d)) :
    (xLoc d ↦[hiSet]{fullShare} f : sProp 𝕄) = bigSep Finset.univ fun k : Key => xLoc d ↦[srcSet k.L k.r]{fullShare} f := by
  rw [← pointsTo_biUnion Finset.univ (ℓ := xLoc d) (fun k : Key => srcSet k.L k.r) src_disjoint, src_cover]
omit [FloatOps F] in
/-- The input is its rows t < 3072 and its rows t ≥ 3072. -/
theorem x_split (d : Dev nD) (f : Buf (Elt F) (xLoc d)) :
    (xLoc d ↦{fullShare} f : sProp 𝕄) = iprop((xLoc d ↦[loSet]{fullShare} f) ∗ xLoc d ↦[hiSet]{fullShare} f) := by
  have h : (xLoc d ↦{fullShare} f : sProp 𝕄) = xLoc d ↦[loSet ∪ hiSet]{fullShare} f := by rw [lo_hi_cover]
  rw [h]
  exact equiv_iff.mp ⟨(pointsTo_union lo_hi_disjoint).1, (pointsTo_union lo_hi_disjoint).2⟩

omit [FloatOps F] in
/-- A family over the chunks' names is one over SparseCores, then subcores, then chunks. -/
theorem bigSep_keys (Φ : Key → sProp 𝕄) :
    bigSep Finset.univ Φ = bigSep Finset.univ fun c : Fin (grid1.bound 0) => bigSep Finset.univ fun i : Fin (grid1.bound 1) => bigSep Finset.univ fun r : Fin 8 => Φ (c, i, r) := by
  rw [bigSep_univ_prod]
  exact bigSep_congr fun c _ => bigSep_univ_prod _

omit [FloatOps F] in
/-- What the call takes: every subcore's share, from the input's rows t ≥ 3072 and the masked output whole. -/
theorem st0_intro (d : Dev nD) (f : Buf (Elt F) (outLoc d)) :
    iprop((xLoc d ↦[hiSet]{fullShare} m (xLoc d)) ∗ outLoc d ↦{fullShare} f)
      ⊢ (bigSep Finset.univ fun c : Fin ((K (F := F)).nCore 0) => (P m).st 0 d c : sProp 𝕄) := by
  rw [xhi_split, out_split, bigSep_keys, bigSep_keys]
  dsimp only [Key.L, Key.r]
  show _ ⊢ bigSep Finset.univ fun c : Fin (grid1.bound 0) => bigSep Finset.univ fun i : Fin (grid1.bound 1) => goRes m d (coordsV c i)
  unfold goRes
  rw [← bigSep_sep']
  refine bigSep_mono fun c _ => ?_
  rw [← bigSep_sep']
  refine bigSep_mono fun i _ => ?_
  refine BI.sep_mono_r (bigSep_mono fun r _ => ?_)
  show _ ⊢ iprop(∃ g, outLoc d ↦[dstSet (coordsV c i) r]{fullShare} g)
  iintro H; iexists f; iexact H

omit [FloatOps F] in
/-- What the call brings back: the input's rows t ≥ 3072 unchanged, the masked output whole at the input's rows moved
    down by 3072. -/
theorem dn0_elim (d : Dev nD) :
    (bigSep Finset.univ fun c : Fin ((K (F := F)).nCore 0) => (P m).dn 0 d c : sProp 𝕄)
      ⊢ iprop((xLoc d ↦[hiSet]{fullShare} m (xLoc d)) ∗ outLoc d ↦{fullShare} (outOf (m (xLoc d)) : Buf (Elt F) (outLoc d))) := by
  rw [xhi_split, out_split, bigSep_keys, bigSep_keys]
  dsimp only [Key.L, Key.r]
  show (bigSep Finset.univ fun c : Fin (grid1.bound 0) => bigSep Finset.univ fun i : Fin (grid1.bound 1) => tdRes m d (coordsV c i)) ⊢ _
  unfold tdRes
  rw [← bigSep_sep']
  refine bigSep_mono fun c _ => ?_
  rw [← bigSep_sep']
  try exact BI.Entails.refl _

/-! ## The launch element -/

def u₀ : UU := (initOf (K (F := F)).hsCells (K (F := F)).hsToks, (uP (F := F), 1))

omit [FloatOps F] in
theorem bigSep_emp' {I : Type} (s : Finset I) : (bigSep s fun _ => iprop(emp)) = (iprop(emp) : sProp 𝕄) := bigSep_emp_const s

omit [FloatOps F] in
/-- The pipeline's rounds library sits in the middle factor: owning an element through the right half's left injection
    is owning it there. -/
theorem own_EP_eq (a : UP) :
    (BI.own ((((Emb.inl : Emb UP (UP × Counters)).trans embR) : Emb UP 𝕄) a) : sProp 𝕄) = BI.own ((EP (F := F)) a) := rfl

theorem hu₀ : (ownU (u₀ (F := F)) : sProp 𝕄)
    ⊢ |={Set.univ}=> iprop(BI.own (EH (initOf (K (F := F)).hsCells (K (F := F)).hsToks)) ∗ (bigSep Finset.univ fun d : Dev nD => (pipeG d : sProp 𝕄))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR (uP (F := F)) (1 : Counters)) $$ HR
  icases H2 with ⟨HP, -⟩
  ihave HP' := (Entails.of_eq (own_EP_eq (F := F) (uP (F := F)))) $$ HP
  imod (fund_pipe (F := F)) $$ HP' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev mw' : DevRef τ sig := Proc.devRef .tc (main_v0_1 : Ref sig .tc)
abbrev c' : DevRef τ sig := Proc.devRef .tc (main_c : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
/-- The buffers the four host operations after the region touch: the mask's words, the zero constant and its
    broadcast, the comparison, the mask's bits. -/
abbrev S5 : Finset (DevRef τ sig) := {mw', c', v1', v2', v3'}

abbrev op1 : HloOp τ sig (Elt F) := StableHlo.nullary main_c (constantI S_ 32 0#32)
abbrev op2 : HloOp τ sig (Elt F) := StableHlo.unary main_c main_v1 (broadcastInDim S4x4096 ![] bcast_S_S4x4096 : (⟨S_, .i32⟩ : BufTy).Contents (Elt F) → (⟨S4x4096, .i32⟩ : BufTy).Contents (Elt F))
abbrev op3 : HloOp τ sig (Elt F) := StableHlo.binary main_v0_1 main_v1 main_v2 (cmpi .ne : (⟨S4x4096, .i32⟩ : BufTy).Contents (Elt F) → (⟨S4x4096, .i32⟩ : BufTy).Contents (Elt F) → (⟨S4x4096, .i1⟩ : BufTy).Contents (Elt F))
abbrev op4 : HloOp τ sig (Elt F) := StableHlo.unary main_v2 main_v3 (id : (⟨S4x4096, .i1⟩ : BufTy).Contents (Elt F) → (⟨S4x4096, .i1⟩ : BufTy).Contents (Elt F))

omit [FloatOps F] in
theorem held_S5 (d : Dev nD) (W : Valuation τ sig (Elt F)) :
    (held (T d) S5 W : sProp 𝕄) = iprop((mwLoc d ↦{fullShare} W mw') ∗ ((SparseCore.T d).loc main_c ↦{fullShare} W c') ∗ ((SparseCore.T d).loc main_v1 ↦{fullShare} W v1')
      ∗ ((SparseCore.T d).loc main_v2 ↦{fullShare} W v2') ∗ (mbLoc d ↦{fullShare} W v3')) := by
  unfold held S5
  rw [SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (visLoc d ↦{fullShare} W main_v0_0) ∗ (mwLoc d ↦{fullShare} W main_v0_1)
      ∗ ((SparseCore.T d).loc main_c ↦{fullShare} W main_c) ∗ ((SparseCore.T d).loc main_v1 ↦{fullShare} W main_v1) ∗ ((SparseCore.T d).loc main_v2 ↦{fullShare} W main_v2)
      ∗ (mbLoc d ↦{fullShare} W main_v3) ∗ (outLoc d ↦{fullShare} W main_v4)) := by
  unfold unscopedBufs
  rw [show (Finset.univ.filter fun b : Ref sig .tc => ¬ b.isScoped) = {main_arg0, main_v0_0, main_v0_1, main_c, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The mask's bits as the last host operations compute them from the words: word ≠ 0. -/
theorem maskBits_eq :
    (cmpi .ne (maskWord : IVec S4x4096 32) (broadcastInDim S4x4096 ![] bcast_S_S4x4096 (constantI S_ 32 0#32)) : IVec S4x4096 1)
      = fun i => Cert.Spec.maskBit i := by
  funext i
  have hb : broadcastInDim S4x4096 ![] bcast_S_S4x4096 (constantI S_ 32 0#32) i = 0#32 := by
    rw [broadcastInDim_apply _ bcast_S_S4x4096 _ i (fun a => a.elim0) (fun a => a.elim0)]; rfl
  show IntOp.cmpi .ne (maskWord i) (broadcastInDim S4x4096 ![] bcast_S_S4x4096 (constantI S_ 32 0#32) i) = Cert.Spec.maskBit i
  rw [hb]; unfold maskWord Cert.Spec.maskBit
  by_cases h : 3072 ≤ (i 1).val
  · rw [if_pos h]; decide
  · rw [if_neg h]; decide

/-- The launch contents as a valuation, and the one after the region: the mask's words written. -/
def V0 (d : Dev nD) : Valuation τ sig (Elt F) := fun b => m (d, b)
def V1 (d : Dev nD) : Valuation τ sig (Elt F) := Function.update (V0 m d) mw' (maskWord : Buf (Elt F) (mwLoc d))

omit [FloatOps F] in
theorem V1_mw (d : Dev nD) : V1 m d mw' = (maskWord : Buf (Elt F) (mwLoc d)) := Function.update_self _ _ _
omit [FloatOps F] in
theorem V1_c (d : Dev nD) : V1 m d c' = V0 m d c' := Function.update_of_ne (show c' ≠ mw' by decide) _ _
omit [FloatOps F] in
theorem V1_v1 (d : Dev nD) : V1 m d v1' = V0 m d v1' := Function.update_of_ne (show v1' ≠ mw' by decide) _ _
omit [FloatOps F] in
theorem V1_v2 (d : Dev nD) : V1 m d v2' = V0 m d v2' := Function.update_of_ne (show v2' ≠ mw' by decide) _ _
omit [FloatOps F] in
theorem V1_v3 (d : Dev nD) : V1 m d v3' = V0 m d v3' := Function.update_of_ne (show v3' ≠ mw' by decide) _ _

theorem hS1 : (op1 (F := F)).bufs ⊆ S5 := show ({c'} : Finset (DevRef τ sig)) ⊆ S5 by decide
theorem hS2 : (op2 (F := F)).bufs ⊆ S5 := show ({c', v1'} : Finset (DevRef τ sig)) ⊆ S5 by decide
theorem hS3 : (op3 (F := F)).bufs ⊆ S5 := show ({mw', v1', v2'} : Finset (DevRef τ sig)) ⊆ S5 by decide
theorem hS4 : (op4 (F := F)).bufs ⊆ S5 := show ({v2', v3'} : Finset (DevRef τ sig)) ⊆ S5 by decide

/-- The valuations after each of the four host operations. -/
abbrev W1 (d : Dev nD) : Valuation τ sig (Elt F) := (op1 (F := F)).result (V1 m d)
abbrev W2 (d : Dev nD) : Valuation τ sig (Elt F) := (op2 (F := F)).result (W1 m d)
abbrev W3 (d : Dev nD) : Valuation τ sig (Elt F) := (op3 (F := F)).result (W2 m d)
abbrev V5 (d : Dev nD) : Valuation τ sig (Elt F) := (op4 (F := F)).result (W3 m d)

/-- After them the mask's bits are (3072 ≤ t): the words compared against a broadcast zero. -/
theorem V5_v3 (d : Dev nD) : V5 m d v3' = ((fun i => Cert.Spec.maskBit i) : Buf (Elt F) (mbLoc d)) := by
  have e4 : V5 m d v3' = id (W3 m d v2') := StableHlo.unary_result _ _ _ _ _ _
  have e3 : W3 m d v2' = cmpi .ne (W2 m d mw') (W2 m d v1') := StableHlo.binary_result _ _ _ _ _ _ _ _
  have e2m : W2 m d mw' = W1 m d mw' := (op2 (F := F)).result_of_not_mem _ (b := mw') (show mw' ∉ ({v1'} : Finset (DevRef τ sig)) by decide)
  have e1m : W1 m d mw' = V1 m d mw' := (op1 (F := F)).result_of_not_mem _ (b := mw') (show mw' ∉ ({c'} : Finset (DevRef τ sig)) by decide)
  have e2 : W2 m d v1' = broadcastInDim S4x4096 ![] bcast_S_S4x4096 (W1 m d c') := StableHlo.unary_result _ _ _ _ _ _
  have e1 : W1 m d c' = constantI S_ 32 0#32 := StableHlo.nullary_result _ _ _ _
  rw [e4, e3, e2m, e1m, e2, e1, V1_mw]
  exact maskBits_eq

omit [FloatOps F] in
/-- The five buffers, the mask's words at what the region wrote and the others at the launch contents, as \`held\`. -/
theorem held_V1 (d : Dev nD) :
    iprop((mwLoc d ↦{fullShare} (maskWord : Buf (Elt F) (mwLoc d))) ∗ ((SparseCore.T d).loc main_c ↦{fullShare} m ((SparseCore.T d).loc main_c))
        ∗ ((SparseCore.T d).loc main_v1 ↦{fullShare} m ((SparseCore.T d).loc main_v1))
        ∗ ((SparseCore.T d).loc main_v2 ↦{fullShare} m ((SparseCore.T d).loc main_v2)) ∗ (mbLoc d ↦{fullShare} m (mbLoc d)))
      ⊢ (held (T d) S5 (V1 m d) : sProp 𝕄) := by
  rw [held_S5, V1_mw, V1_c, V1_v1, V1_v2, V1_v3]
  exact BI.Entails.refl _

/-- What @main leaves the claim: the input unchanged, the visible part, the masked part, the mask's bits. -/
abbrev FIN (d : Dev nD) : sProp 𝕄 :=
  iprop((xLoc d ↦{fullShare} m (xLoc d)) ∗ (visLoc d ↦{fullShare} (visOf (m (xLoc d)) : Buf (Elt F) (visLoc d)))
    ∗ (outLoc d ↦{fullShare} (outOf (m (xLoc d)) : Buf (Elt F) (outLoc d)))
    ∗ (mbLoc d ↦{fullShare} ((fun i => Cert.Spec.maskBit i) : Buf (Elt F) (mbLoc d))))

/-- The region with its continuation: the form @main's proof applies. -/
theorem region_wp_k (d : Dev nD) {Φ : PUnit → sProp 𝕄} :
    iprop(levAts (K (F := F)).L (K (F := F)).lev ∗ (K (F := F)).tcSt EH d 0 ∗ boundary (SparseCore.T d)
        ∗ (xLoc d ↦{fullShare} m (xLoc d)) ∗ (visLoc d ↦{fullShare} m (visLoc d)) ∗ (mwLoc d ↦{fullShare} m (mwLoc d))
        ∗ pipeG d
        ∗ (((K (F := F)).tcSt EH d 0 ∗ boundary (SparseCore.T d)
            ∗ (xLoc d ↦{fullShare} m (xLoc d))
            ∗ (visLoc d ↦{fullShare} (visOf (m (xLoc d)) : Buf (Elt F) (visLoc d)))
            ∗ (mwLoc d ↦{fullShare} (maskWord : Buf (Elt F) (mwLoc d)))) -∗ Φ ⟨⟩))
      ⊢ wp frame (wpE ((K (F := F)).defs (D (F := F))) 𝒱 (SparseCore.T d) none) Set.univ
          (Prog.lift (.customCall (SparseCore.inner (Pipeline.entry 0)) ())) Φ := by
  iintro ⟨Hlev, Hst, Hb, Hx, Hvis, Hmw, HG, Hk⟩
  iapply (wp_wand_r frame _ Set.univ)
  isplitl [Hlev Hst Hb Hx Hvis Hmw HG]
  · iapply (region_wp m d (K (F := F)).lev (by sl_refines_lev))
    isplitl [Hlev]; · iexact Hlev
    isplitl [Hst]; · iexact Hst
    isplitl [Hb]; · iexact Hb
    isplitl [Hx]; · iexact Hx
    isplitl [Hvis]; · iexact Hvis
    isplitl [Hmw]; · iexact Hmw
    iexact HG
  · iintro %u H
    iapply Hk; iexact H

theorem hmain (κ : GSem nD τ sig → ℕ) (d : Dev nD) :
    iprop((K (F := F)).ctx EH (P m) κ ∗ (K (F := F)).tcSt EH d 0 ∗ (K (F := F)).tcRes m ρ d ∗ pipeG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hvis, Hmw, Hc, Hv1, Hv2, Hv3, Hv4⟩, -, -⟩, HG⟩
  ihave Hlev := ((K (F := F)).ctx_levAts κ) $$ Hctx
  -- the region: the visible part and the mask's words
  iapply (region_wp_k m d) $$ [Hlev Hst Hb Hx Hvis Hmw HG Hc Hv1 Hv2 Hv3 Hv4]
  isplitl [Hlev]; · iexact Hlev
  isplitl [Hst]; · iexact Hst
  isplitl [Hb]; · iexact Hb
  isplitl [Hx]; · iexact Hx
  isplitl [Hvis]; · iexact Hvis
  isplitl [Hmw]; · iexact Hmw
  isplitl [HG]; · iexact HG
  iintro ⟨Hst, Hb, Hx, Hvis, Hmw⟩
  -- the four host operations: a zero, its broadcast, words ≠ zero, the conversion
  ihave Hheld := (held_V1 m d) $$ [Hmw Hc Hv1 Hv2 Hv3]
  · isplitl [Hmw]; · iexact Hmw
    isplitl [Hc]; · iexact Hc
    isplitl [Hv1]; · iexact Hv1
    isplitl [Hv2]; · iexact Hv2
    iexact Hv3
  iapply (wp_hlo_within 𝒱 (SparseCore.T d) none Set.univ (op := op1) (S := S5) hS1 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S5) hS2 (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S5) hS3 (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S5) hS4 (V := W3 m d)) $$ [Hb Hheld]
  · isplitl [Hb]; · iexact Hb
    iexact Hheld
  iintro ⟨Hb, Hheld⟩
  rw [wp_ret]; imodintro
  ihave Hh := (Entails.of_eq (held_S5 (F := F) d (V5 m d))) $$ Hheld
  icases Hh with ⟨-, -, -, -, Hmb⟩
  rw [V5_v3]
  -- the SparseCore call: the input's rows t ≥ 3072 and the masked output go out in chunks, and come back
  ihave Hx' := (Entails.of_eq (x_split (F := F) d (m (xLoc d)))) $$ Hx
  icases Hx' with ⟨Hxlo, Hxhi⟩
  iapply ((K (F := F)).wp_run (D (F := F)) 𝒱 (EH := EH) (P := P m) κ d 0) $$ [Hst Hxhi Hv4 Hxlo Hvis Hmb Hb]
  isplitr; · iexact Hctx
  isplitl [Hst]; · iexact Hst
  isplitl [Hxhi Hv4]
  · iapply (st0_intro m d (m (outLoc d)))
    isplitl [Hxhi]; · iexact Hxhi
    iexact Hv4
  iintro ⟨Hst, Hdn⟩
  ihave Hdn' := (dn0_elim m d) $$ Hdn
  icases Hdn' with ⟨Hxhi, Hout⟩
  imodintro
  isplitl [Hst]; · iexact Hst
  isplitl [Hxlo Hxhi]
  · iapply (Entails.of_eq (x_split (F := F) d (m (xLoc d))).symm)
    isplitl [Hxlo]; · iexact Hxlo
    iexact Hxhi
  isplitl [Hvis]; · iexact Hvis
  isplitl [Hout]; · iexact Hout
  iexact Hmb

/-! ## The final memory reads the claim -/

/-- What the claim says of device \`d\`'s final memory. -/
def fq (d : Dev nD) (s' : Phys nD τ sig (Elt F)) : Prop :=
  s'.mem.mem (visLoc d) = (visOf (m (xLoc d)) : Buf (Elt F) (visLoc d))
  ∧ s'.mem.mem (outLoc d) = (outOf (m (xLoc d)) : Buf (Elt F) (outLoc d))
  ∧ s'.mem.mem (mbLoc d) = ((fun i => Cert.Spec.maskBit i) : Buf (Elt F) (mbLoc d))
  ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hvis, Hout, Hmb⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := visLoc d) (I := Finset.univ) (q := fullShare)
      (f := (visOf (m (xLoc d)) : Buf (Elt F) (visLoc d))))) $$ [HSI Hvis]
  · isplitl [HSI] <;> iassumption
  icases H with ⟨%h2, HSI, -⟩
  ihave H := (persistent_entails_right (SI_pointsTo_agree (st := s') (ℓ := outLoc d) (I := Finset.univ) (q := fullShare)
      (f := (outOf (m (xLoc d)) : Buf (Elt F) (outLoc d))))) $$ [HSI Hout]
  · isplitl [HSI] <;> iassumption
  icases H with ⟨%h3, HSI, -⟩
  ihave H := (SI_pointsTo_agree (st := s') (ℓ := mbLoc d) (I := Finset.univ) (q := fullShare)
      (f := ((fun i => Cert.Spec.maskBit i) : Buf (Elt F) (mbLoc d)))) $$ [HSI Hmb]
  · isplitl [HSI] <;> iassumption
  icases H with %h4
  ipureintro
  exact ⟨funext fun i => h2 i (Finset.mem_univ i), funext fun i => h3 i (Finset.mem_univ i), funext fun i => h4 i (Finset.mem_univ i),
    funext fun i => h1 i (Finset.mem_univ i)⟩

/-! ## The program's run -/

/-- On every device: the visible part, the masked part and the mask's bits at their functions of the input, the input
    unchanged. -/
def QC : PUnit × MemSt nD τ sig (Elt F) → Prop := fun r => ∀ c : Dev nD,
  r.2.mem (visLoc c) = (visOf (m (xLoc c)) : Buf (Elt F) (visLoc c))
  ∧ r.2.mem (outLoc c) = (outOf (m (xLoc c)) : Buf (Elt F) (outLoc c))
  ∧ r.2.mem (mbLoc c) = ((fun i => Cert.Spec.maskBit i) : Buf (Elt F) (mbLoc c))
  ∧ r.2.mem (xLoc c) = m (xLoc c)

/-- Every weakly fair execution of the device's threads — the TensorCore's @main, the sequencers, the thirty-two vector
    subcores — terminates, nothing faulting, with the three results at their functions of the input and the input
    unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => pipeG d) (FIN m) (u₀ (F := F)) (sep_elim_left.trans (hu₀ m)) (hmain m ρ) (fq m) (hfin m) (QC m) (fun _ h => h)

end Cert.KernelIdeal.Hand

end
-- ==== Proof.KBSetup.lean ====
/-
  The kernel's program as the launch theorem of a SparseCore program sees it, and the vocabulary the rest
  of the kernel-side proof is stated in: the resource algebra (handshake rounds, the TensorCore pipeline's rounds, the
  transfer counters), the arrays as locations, the vector-subcore kernel's memrefs, and — per vector subcore and per
  chunk r < 8 — the 16-row slice of the input it reads and the 16-row slice of the masked output it writes.

  Mathematics. Vector subcore (c, s) has number w = 2·s + c (0 ≤ w < 32). It copies rows
  3072 + 128·(w mod 8) + 16·r … + 15 of batch w / 8 of the input to rows 128·(w mod 8) + 16·r … + 15 of batch
  w / 8 of the masked output, for r = 0 … 7, through three staging buffers. So the masked output ends at
  out[b, t, f] = x[b, 3072 + t, f] (`outOf`): one function of the input for every subcore and chunk.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«216793_g32547262169289_cont_8to1_b_717_18_alg».proof.Proof.Gen.Kernel
import proofs.«216793_g32547262169289_cont_8to1_b_717_18_alg».proof.Proof.Gen.Kernel.Skeleton
import proofs.«216793_g32547262169289_cont_8to1_b_717_18_alg».proof.Proof.Gen.Kernel.Launch
import proofs.«216793_g32547262169289_cont_8to1_b_717_18_alg».proof.Proof.Spec

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The handshakes' rounds library: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The TensorCore pipeline's rounds library: the middle factor. The counters are found by instance in the right. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays and the vector-subcore kernel's memrefs -/

/-- The input x, the visible part, the mask as 32-bit words (the pipeline's second result), the masked part, and the
    mask as bits (the last host operation's result), as locations of device `d`. -/
abbrev xLoc (d : Dev nD) : Loc nD τ sig := (SparseCore.T d).loc main_arg0
abbrev visLoc (d : Dev nD) : Loc nD τ sig := (SparseCore.T d).loc main_v0_0
abbrev mwLoc (d : Dev nD) : Loc nD τ sig := (SparseCore.T d).loc main_v0_1
abbrev outLoc (d : Dev nD) : Loc nD τ sig := (SparseCore.T d).loc main_v4
abbrev mbLoc (d : Dev nD) : Loc nD τ sig := (SparseCore.T d).loc main_v3

abbrev xV : Memref sig .scVector .hbm S4x4096x2048 .f32 := Memref.whole main_arg0_scv
abbrev oV : Memref sig .scVector .hbm S4x1024x2048 .f32 := Memref.whole main_v4_scv
/-- A vector subcore's three staging buffers. -/
abbrev b0 : Memref sig .scVector .vmem S16x2048 .f32 := Memref.whole cc1_scratch0
abbrev b1 : Memref sig .scVector .vmem S16x2048 .f32 := Memref.whole cc1_scratch1
abbrev b2 : Memref sig .scVector .vmem S16x2048 .f32 := Memref.whole cc1_scratch2

/-- The vector subcore a grid point of the SparseCore call names. -/
abbrev cV (L : grid1.Coords) : Fin τ.nSC := (L 0).castLE hcore1
abbrev jV (L : grid1.Coords) : Fin τ.nSub := (L 1).castLE hsub1

/-- Chunk `r` of subcore `L`: the 16 rows of the input it reads, -/
abbrev srcRect (L : grid1.Coords) (r : Fin 8) : Rect S4x4096x2048 :=
  Rect.unit (s := S4x4096x2048) (k1_off1 L (BitVec.ofNat 32 (16 * r.val))) S1x16x2048.size (k1_off1_inb L r)
/-- and the 16 rows of the masked output it writes. -/
abbrev dstRect (L : grid1.Coords) (r : Fin 8) : Rect S4x1024x2048 :=
  Rect.unit (s := S4x1024x2048) (k1_off2 L (BitVec.ofNat 32 (16 * r.val))) S1x16x2048.size (k1_off2_inb L r)
/-- The two as the kernel slices and squeezes them (the memrefs its copies name). -/
abbrev srcK (L : grid1.Coords) (r : Fin 8) : Memref sig .scVector .hbm S16x2048 .f32 :=
  ((xV : Memref sig .scVector .hbm S4x4096x2048 .f32).slice (srcRect L r) (fun _ => rfl)).squeeze S16x2048 squeezes_S1x16x2048_S16x2048
abbrev dstK (L : grid1.Coords) (r : Fin 8) : Memref sig .scVector .hbm S16x2048 .f32 :=
  ((oV : Memref sig .scVector .hbm S4x1024x2048 .f32).slice (dstRect L r) (fun _ => rfl)).squeeze S16x2048 squeezes_S1x16x2048_S16x2048
/-- The elements of the input chunk `r` of subcore `L` covers, and of the masked output. -/
abbrev srcSet (L : grid1.Coords) (r : Fin 8) : Finset S4x4096x2048.Idx := (srcK L r).view.set
abbrev dstSet (L : grid1.Coords) (r : Fin 8) : Finset S4x1024x2048.Idx := (dstK L r).view.set

/-- The subcore's number w = 2·s + c. -/
def wid (L : grid1.Coords) : ℕ := 2 * (L 1).val + (L 0).val

/-- What the masked output holds in the end, as ONE function of the input's contents: out[b, t, f] = x[b, 3072 + t, f]. -/
def outOf (x : S4x4096x2048.Idx → Elt F .f32) : S4x1024x2048.Idx → Elt F .f32 := fun j => x (Cert.Spec.mskIdx j)
/-- What the visible part holds in the end: vis[b, t, f] = x[b, t, f]. -/
def visOf (x : S4x4096x2048.Idx → Elt F .f32) : S4x3072x2048.Idx → Elt F .f32 := fun j => x (Cert.Spec.visIdx j)
/-- The mask as the pipeline writes it, a 32-bit word per (batch, time): 1 on the last 1024 time steps, else 0. -/
def maskWord : S4x4096.Idx → BitVec 32 := fun j => (Cert.Spec.maskBit j).setWidth 32

end Cert.Kernel.Hand

end
-- ==== Proof.KBTileOff.lean ====
/-
  Closed forms of the two offset functions of the vector-subcore kernel's copies.

  Mathematics. Vector subcore (c, s) has number w = 2·s + c, 0 ≤ w < 32. The kernel computes its batch as the
  floor division w / 8 and its block as the floor remainder w mod 8 (both through signed division with the usual
  correction terms, which vanish because w ≥ 0 and 8 > 0). Chunk r < 8 then reads the input at row
  3072 + 128·(w mod 8) + 16·r and writes the masked output at row 128·(w mod 8) + 16·r, both in batch w / 8, from
  feature 0. Every intermediate word is followed as an integer, with the 32-bit range checked at each step; the
  sign test on w splits the chain in two (w = 0 and w ≥ 1).
-/
import proofs.«216793_g32547262169289_cont_8to1_b_717_18_alg».proof.Proof.KBSetup

noncomputable section

namespace Cert.Kernel.Hand

open Cert.Kernel Cert.Kernel.Gen

open Idealize.ShloMosaic

/-- The offsets of chunk `r`'s read of the input: batch w / 8, row 3072 + 128·(w mod 8) + 16·r, feature 0. -/
theorem k1_off1_eq (L : grid1.Coords) (r : Fin 8) :
    k1_off1 L (BitVec.ofNat 32 (16 * r.val)) = ![wid L / 8, 3072 + 128 * (wid L % 8) + 16 * r.val, 0] := by
  have r_r : r.val < 8 := r.isLt
  have h_c0_i32_11 : Affine.IsInt (BitVec.ofNat 32 (16 * r.val)) (16 * (r.val : Int)) := Affine.ofNat _ (by omega)
  have r_i1 : (L 1).val < 16 := (L 1).isLt
  have h_arg1 : Affine.IsInt (BitVec.ofNat 32 (L 1).val) (((L 1).val : Int)) := Affine.ofNat _ (by omega)
  have h_c2_i32 : Affine.IsInt 2#32 (2) := Affine.ofNat _ (by omega)
  have h_v0 : Affine.IsInt _ (2 * ((L 1).val : Int)) := Affine.muli h_arg1 h_c2_i32 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c0_i32 : Affine.IsInt 0#32 (0) := Affine.ofNat _ (by omega)
  rcases (show 2 * ((L 1).val : Int) + ((L 0).val : Int) ≤ 0 ∨ 1 ≤ 2 * ((L 1).val : Int) + ((L 0).val : Int) by omega) with hs | hs
  · have h_v3 : Affine.Fails _ := Affine.sgt_fails h_v1 h_c0_i32 (by omega)
    have h_v4 : Affine.IsInt _ (0) := Affine.extui_fails h_v3 (by omega)
    have h_c0_i32_0 : Affine.IsInt 0#32 (0) := Affine.ofNat _ (by omega)
    have h_v5 : Affine.Fails _ := Affine.slt_fails h_v1 h_c0_i32_0 (by omega)
    have h_v6 : Affine.IsInt _ (0) := Affine.extui_fails h_v5 (by omega)
    have h_v7 : Affine.IsInt _ (0) := Affine.subi h_v4 h_v6 (by omega)
    have h_c8_i32 : Affine.IsInt 8#32 (8) := Affine.ofNat _ (by omega)
    have h_c0_i32_1 : Affine.IsInt 0#32 (0) := Affine.ofNat _ (by omega)
    have h_v8 : Affine.Holds _ := Affine.sgt_holds h_c8_i32 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_c8_i32 h_c0_i32_2 (by omega)
    have h_v11 : Affine.IsInt _ (0) := Affine.extui_fails h_v10 (by omega)
    have h_v12 : Affine.IsInt _ (1) := Affine.subi h_v9 h_v11 (by omega)
    have h_v13 : Affine.Holds _ := Affine.ne_holds h_v7 h_v12 (by omega)
    have h_v14 : Affine.IsInt _ (2 * ((L 1).val : Int) + ((L 0).val : Int)) := Affine.remsi h_v1 h_c8_i32 (by omega)
    have h_c0_i32_3 : Affine.IsInt 0#32 (0) := Affine.ofNat _ (by omega)
    have h_v15 : Affine.Fails _ := Affine.ne_fails h_v14 h_c0_i32_3 (by omega)
    have h_v16 : Affine.Fails _ := Affine.andi_fails_right (Affine.tH h_v13) h_v15
    have h_v2 : Affine.IsInt _ (((2 * ((L 1).val : Int) + ((L 0).val : Int)) / 8)) := Affine.divsi h_v1 h_c8_i32 (by omega)
    have h_c1_i32 : Affine.IsInt 1#32 (1) := Affine.ofNat _ (by omega)
    have h_v17 : Affine.IsInt _ (((2 * ((L 1).val : Int) + ((L 0).val : Int)) / 8) - 1) := Affine.subi h_v2 h_c1_i32 (by omega)
    have h_v18 : Affine.IsInt _ (((2 * ((L 1).val : Int) + ((L 0).val : Int)) / 8)) := Affine.select_fails h_v16 h_v17 h_v2 (by omega)
    have h_c3072_i32 : Affine.IsInt 3072#32 (3072) := Affine.ofNat _ (by omega)
    have h_c8_i32_4 : Affine.IsInt 8#32 (8) := Affine.ofNat _ (by omega)
    have h_c0_i32_5 : Affine.IsInt 0#32 (0) := Affine.ofNat _ (by omega)
    have h_v19 : Affine.Fails _ := Affine.eq_fails h_c8_i32_4 h_c0_i32_5 (by omega)
    have h_c1_i32_6 : Affine.IsInt 1#32 (1) := Affine.ofNat _ (by omega)
    have h_v20 : Affine.IsInt _ (8) := Affine.select_fails h_v19 h_c1_i32_6 h_c8_i32_4 (by omega)
    have h_v21 : Affine.IsInt _ (2 * ((L 1).val : Int) + ((L 0).val : Int)) := Affine.remsi h_v1 h_v20 (by omega)
    have h_c0_i32_8 : Affine.IsInt 0#32 (0) := Affine.ofNat _ (by omega)
    have h_v23 : Affine.Fails _ := Affine.slt_fails h_v21 h_c0_i32_8 (by omega)
    have h_c0_i32_9 : Affine.IsInt 0#32 (0) := Affine.ofNat _ (by omega)
    have h_v24 : Affine.Fails _ := Affine.slt_fails h_v20 h_c0_i32_9 (by omega)
    have h_v25 : Affine.Fails _ := Affine.xori_ff h_v23 h_v24
    have h_c0_i32_7 : Affine.IsInt 0#32 (0) := Affine.ofNat _ (by omega)
    have h_v22 : Affine.Fails _ := Affine.ne_fails h_v21 h_c0_i32_7 (by omega)
    have h_v26 : Affine.Fails _ := Affine.andi_fails_left h_v25 (Affine.tF h_v22)
    have h_v27 : Affine.IsInt _ (2 * ((L 1).val : Int) + ((L 0).val : Int) + 8) := Affine.addi h_v21 h_v20 (by omega)
    have h_v28 : Affine.IsInt _ (2 * ((L 1).val : Int) + ((L 0).val : Int)) := Affine.select_fails h_v26 h_v27 h_v21 (by omega)
    have h_c128_i32 : Affine.IsInt 128#32 (128) := Affine.ofNat _ (by omega)
    have h_v29 : Affine.IsInt _ (256 * ((L 1).val : Int) + 128 * ((L 0).val : Int)) := Affine.muli h_v28 h_c128_i32 (by omega)
    have h_v30 : Affine.IsInt _ (256 * ((L 1).val : Int) + 128 * ((L 0).val : Int) + 3072) := Affine.addi h_c3072_i32 h_v29 (by omega)
    have h_v32 : Affine.IsInt _ (256 * ((L 1).val : Int) + 128 * ((L 0).val : Int) + 16 * (r.val : Int) + 3072) := Affine.addi h_v30 h_c0_i32_11 (by omega)
    have h_c0_i32_12 : Affine.IsInt 0#32 (0) := Affine.ofNat _ (by omega)
    exact Affine.vec_cons h_v18 (by unfold wid; omega) <| Affine.vec_cons h_v32 (by unfold wid; omega) <| Affine.vec_cons (Affine.ofNat 0 (by omega) : Affine.IsInt 0#32 0) (by omega) <| Affine.vec_nil
  · have h_v3 : Affine.Holds _ := Affine.sgt_holds h_v1 h_c0_i32 (by omega)
    have h_v4 : Affine.IsInt _ (1) := Affine.extui_holds h_v3 (by omega)
    have h_c0_i32_0 : Affine.IsInt 0#32 (0) := Affine.ofNat _ (by omega)
    have h_v5 : Affine.Fails _ := Affine.slt_fails h_v1 h_c0_i32_0 (by omega)
    have h_v6 : Affine.IsInt _ (0) := Affine.extui_fails h_v5 (by omega)
    have h_v7 : Affine.IsInt _ (1) := Affine.subi h_v4 h_v6 (by omega)
    have h_c8_i32 : Affine.IsInt 8#32 (8) := Affine.ofNat _ (by omega)
    have h_c0_i32_1 : Affine.IsInt 0#32 (0) := Affine.ofNat _ (by omega)
    have h_v8 : Affine.Holds _ := Affine.sgt_holds h_c8_i32 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_c8_i32 h_c0_i32_2 (by omega)
    have h_v11 : Affine.IsInt _ (0) := Affine.extui_fails h_v10 (by omega)
    have h_v12 : Affine.IsInt _ (1) := Affine.subi h_v9 h_v11 (by omega)
    have h_v13 : Affine.Fails _ := Affine.ne_fails h_v7 h_v12 (by omega)
    have h_v14 : Affine.IsInt _ (((2 * ((L 1).val : Int) + ((L 0).val : Int)) % 8)) := Affine.remsi h_v1 h_c8_i32 (by omega)
    have h_c0_i32_3 : Affine.IsInt 0#32 (0) := Affine.ofNat _ (by omega)
    have h_v15 : Affine.Term _ := Affine.cmpi_term .ne h_v14 h_c0_i32_3
    have h_v16 : Affine.Fails _ := Affine.andi_fails_left h_v13 h_v15
    have h_v2 : Affine.IsInt _ (((2 * ((L 1).val : Int) + ((L 0).val : Int)) / 8)) := Affine.divsi h_v1 h_c8_i32 (by omega)
    have h_c1_i32 : Affine.IsInt 1#32 (1) := Affine.ofNat _ (by omega)
    have h_v17 : Affine.IsInt _ (((2 * ((L 1).val : Int) + ((L 0).val : Int)) / 8) - 1) := Affine.subi h_v2 h_c1_i32 (by omega)
    have h_v18 : Affine.IsInt _ (((2 * ((L 1).val : Int) + ((L 0).val : Int)) / 8)) := Affine.select_fails h_v16 h_v17 h_v2 (by omega)
    have h_c3072_i32 : Affine.IsInt 3072#32 (3072) := Affine.ofNat _ (by omega)
    have h_c8_i32_4 : Affine.IsInt 8#32 (8) := Affine.ofNat _ (by omega)
    have h_c0_i32_5 : Affine.IsInt 0#32 (0) := Affine.ofNat _ (by omega)
    have h_v19 : Affine.Fails _ := Affine.eq_fails h_c8_i32_4 h_c0_i32_5 (by omega)
    have h_c1_i32_6 : Affine.IsInt 1#32 (1) := Affine.ofNat _ (by omega)
    have h_v20 : Affine.IsInt _ (8) := Affine.select_fails h_v19 h_c1_i32_6 h_c8_i32_4 (by omega)
    have h_v21 : Affine.IsInt _ (((2 * ((L 1).val : Int) + ((L 0).val : Int)) % 8)) := Affine.remsi h_v1 h_v20 (by omega)
    have h_c0_i32_8 : Affine.IsInt 0#32 (0) := Affine.ofNat _ (by omega)
    have h_v23 : Affine.Fails _ := Affine.slt_fails h_v21 h_c0_i32_8 (by omega)
    have h_c0_i32_9 : Affine.IsInt 0#32 (0) := Affine.ofNat _ (by omega)
    have h_v24 : Affine.Fails _ := Affine.slt_fails h_v20 h_c0_i32_9 (by omega)
    have h_v25 : Affine.Fails _ := Affine.xori_ff h_v23 h_v24
    have h_c0_i32_7 : Affine.IsInt 0#32 (0) := Affine.ofNat _ (by omega)
    have h_v22 : Affine.Term _ := Affine.cmpi_term .ne h_v21 h_c0_i32_7
    have h_v26 : Affine.Fails _ := Affine.andi_fails_left h_v25 h_v22
    have h_v27 : Affine.IsInt _ (((2 * ((L 1).val : Int) + ((L 0).val : Int)) % 8) + 8) := Affine.addi h_v21 h_v20 (by omega)
    have h_v28 : Affine.IsInt _ (((2 * ((L 1).val : Int) + ((L 0).val : Int)) % 8)) := Affine.select_fails h_v26 h_v27 h_v21 (by omega)
    have h_c128_i32 : Affine.IsInt 128#32 (128) := Affine.ofNat _ (by omega)
    have h_v29 : Affine.IsInt _ (128 * ((2 * ((L 1).val : Int) + ((L 0).val : Int)) % 8)) := Affine.muli h_v28 h_c128_i32 (by omega)
    have h_v30 : Affine.IsInt _ (128 * ((2 * ((L 1).val : Int) + ((L 0).val : Int)) % 8) + 3072) := Affine.addi h_c3072_i32 h_v29 (by omega)
    have h_v32 : Affine.IsInt _ (128 * ((2 * ((L 1).val : Int) + ((L 0).val : Int)) % 8) + 16 * (r.val : Int) + 3072) := Affine.addi h_v30 h_c0_i32_11 (by omega)
    have h_c0_i32_12 : Affine.IsInt 0#32 (0) := Affine.ofNat _ (by omega)
    exact Affine.vec_cons h_v18 (by unfold wid; omega) <| Affine.vec_cons h_v32 (by unfold wid; omega) <| Affine.vec_cons (Affine.ofNat 0 (by omega) : Affine.IsInt 0#32 0) (by omega) <| Affine.vec_nil

/-- The offsets of chunk `r`'s write of the masked output: batch w / 8, row 128·(w mod 8) + 16·r, feature 0. -/
theorem k1_off2_eq (L : grid1.Coords) (r : Fin 8) :
    k1_off2 L (BitVec.ofNat 32 (16 * r.val)) = ![wid L / 8, 128 * (wid L % 8) + 16 * r.val, 0] := by
  have r_r : r.val < 8 := r.isLt
  have h_c0_i32_18 : Affine.IsInt (BitVec.ofNat 32 (16 * r.val)) (16 * (r.val : Int)) := Affine.ofNat _ (by omega)
  have r_i1 : (L 1).val < 16 := (L 1).isLt
  have h_arg1 : Affine.IsInt (BitVec.ofNat 32 (L 1).val) (((L 1).val : Int)) := Affine.ofNat _ (by omega)
  have h_c2_i32 : Affine.IsInt 2#32 (2) := Affine.ofNat _ (by omega)
  have h_v0 : Affine.IsInt _ (2 * ((L 1).val : Int)) := Affine.muli h_arg1 h_c2_i32 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c0_i32 : Affine.IsInt 0#32 (0) := Affine.ofNat _ (by omega)
  rcases (show 2 * ((L 1).val : Int) + ((L 0).val : Int) ≤ 0 ∨ 1 ≤ 2 * ((L 1).val : Int) + ((L 0).val : Int) by omega) with hs | hs
  · have h_v3 : Affine.Fails _ := Affine.sgt_fails h_v1 h_c0_i32 (by omega)
    have h_v4 : Affine.IsInt _ (0) := Affine.extui_fails h_v3 (by omega)
    have h_c0_i32_0 : Affine.IsInt 0#32 (0) := Affine.ofNat _ (by omega)
    have h_v5 : Affine.Fails _ := Affine.slt_fails h_v1 h_c0_i32_0 (by omega)
    have h_v6 : Affine.IsInt _ (0) := Affine.extui_fails h_v5 (by omega)
    have h_v7 : Affine.IsInt _ (0) := Affine.subi h_v4 h_v6 (by omega)
    have h_c8_i32 : Affine.IsInt 8#32 (8) := Affine.ofNat _ (by omega)
    have h_c0_i32_1 : Affine.IsInt 0#32 (0) := Affine.ofNat _ (by omega)
    have h_v8 : Affine.Holds _ := Affine.sgt_holds h_c8_i32 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_c8_i32 h_c0_i32_2 (by omega)
    have h_v11 : Affine.IsInt _ (0) := Affine.extui_fails h_v10 (by omega)
    have h_v12 : Affine.IsInt _ (1) := Affine.subi h_v9 h_v11 (by omega)
    have h_v13 : Affine.Holds _ := Affine.ne_holds h_v7 h_v12 (by omega)
    have h_v14 : Affine.IsInt _ (2 * ((L 1).val : Int) + ((L 0).val : Int)) := Affine.remsi h_v1 h_c8_i32 (by omega)
    have h_c0_i32_3 : Affine.IsInt 0#32 (0) := Affine.ofNat _ (by omega)
    have h_v15 : Affine.Fails _ := Affine.ne_fails h_v14 h_c0_i32_3 (by omega)
    have h_v16 : Affine.Fails _ := Affine.andi_fails_right (Affine.tH h_v13) h_v15
    have h_v2 : Affine.IsInt _ (((2 * ((L 1).val : Int) + ((L 0).val : Int)) / 8)) := Affine.divsi h_v1 h_c8_i32 (by omega)
    have h_c1_i32 : Affine.IsInt 1#32 (1) := Affine.ofNat _ (by omega)
    have h_v17 : Affine.IsInt _ (((2 * ((L 1).val : Int) + ((L 0).val : Int)) / 8) - 1) := Affine.subi h_v2 h_c1_i32 (by omega)
    have h_v18 : Affine.IsInt _ (((2 * ((L 1).val : Int) + ((L 0).val : Int)) / 8)) := Affine.select_fails h_v16 h_v17 h_v2 (by omega)
    have h_c8_i32_4 : Affine.IsInt 8#32 (8) := Affine.ofNat _ (by omega)
    have h_c0_i32_5 : Affine.IsInt 0#32 (0) := Affine.ofNat _ (by omega)
    have h_v19 : Affine.Fails _ := Affine.eq_fails h_c8_i32_4 h_c0_i32_5 (by omega)
    have h_c1_i32_6 : Affine.IsInt 1#32 (1) := Affine.ofNat _ (by omega)
    have h_v20 : Affine.IsInt _ (8) := Affine.select_fails h_v19 h_c1_i32_6 h_c8_i32_4 (by omega)
    have h_v21 : Affine.IsInt _ (2 * ((L 1).val : Int) + ((L 0).val : Int)) := Affine.remsi h_v1 h_v20 (by omega)
    have h_c0_i32_8 : Affine.IsInt 0#32 (0) := Affine.ofNat _ (by omega)
    have h_v23 : Affine.Fails _ := Affine.slt_fails h_v21 h_c0_i32_8 (by omega)
    have h_c0_i32_9 : Affine.IsInt 0#32 (0) := Affine.ofNat _ (by omega)
    have h_v24 : Affine.Fails _ := Affine.slt_fails h_v20 h_c0_i32_9 (by omega)
    have h_v25 : Affine.Fails _ := Affine.xori_ff h_v23 h_v24
    have h_c0_i32_7 : Affine.IsInt 0#32 (0) := Affine.ofNat _ (by omega)
    have h_v22 : Affine.Fails _ := Affine.ne_fails h_v21 h_c0_i32_7 (by omega)
    have h_v26 : Affine.Fails _ := Affine.andi_fails_left h_v25 (Affine.tF h_v22)
    have h_v27 : Affine.IsInt _ (2 * ((L 1).val : Int) + ((L 0).val : Int) + 8) := Affine.addi h_v21 h_v20 (by omega)
    have h_v28 : Affine.IsInt _ (2 * ((L 1).val : Int) + ((L 0).val : Int)) := Affine.select_fails h_v26 h_v27 h_v21 (by omega)
    have h_c128_i32_10 : Affine.IsInt 128#32 (128) := Affine.ofNat _ (by omega)
    have h_v31 : Affine.IsInt _ (256 * ((L 1).val : Int) + 128 * ((L 0).val : Int)) := Affine.muli h_v28 h_c128_i32_10 (by omega)
    have h_v46 : Affine.IsInt _ (256 * ((L 1).val : Int) + 128 * ((L 0).val : Int) + 16 * (r.val : Int)) := Affine.addi h_v31 h_c0_i32_18 (by omega)
    have h_c0_i32_19 : Affine.IsInt 0#32 (0) := Affine.ofNat _ (by omega)
    exact Affine.vec_cons h_v18 (by unfold wid; omega) <| Affine.vec_cons h_v46 (by unfold wid; omega) <| Affine.vec_cons (Affine.ofNat 0 (by omega) : Affine.IsInt 0#32 0) (by omega) <| Affine.vec_nil
  · have h_v3 : Affine.Holds _ := Affine.sgt_holds h_v1 h_c0_i32 (by omega)
    have h_v4 : Affine.IsInt _ (1) := Affine.extui_holds h_v3 (by omega)
    have h_c0_i32_0 : Affine.IsInt 0#32 (0) := Affine.ofNat _ (by omega)
    have h_v5 : Affine.Fails _ := Affine.slt_fails h_v1 h_c0_i32_0 (by omega)
    have h_v6 : Affine.IsInt _ (0) := Affine.extui_fails h_v5 (by omega)
    have h_v7 : Affine.IsInt _ (1) := Affine.subi h_v4 h_v6 (by omega)
    have h_c8_i32 : Affine.IsInt 8#32 (8) := Affine.ofNat _ (by omega)
    have h_c0_i32_1 : Affine.IsInt 0#32 (0) := Affine.ofNat _ (by omega)
    have h_v8 : Affine.Holds _ := Affine.sgt_holds h_c8_i32 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_c8_i32 h_c0_i32_2 (by omega)
    have h_v11 : Affine.IsInt _ (0) := Affine.extui_fails h_v10 (by omega)
    have h_v12 : Affine.IsInt _ (1) := Affine.subi h_v9 h_v11 (by omega)
    have h_v13 : Affine.Fails _ := Affine.ne_fails h_v7 h_v12 (by omega)
    have h_v14 : Affine.IsInt _ (((2 * ((L 1).val : Int) + ((L 0).val : Int)) % 8)) := Affine.remsi h_v1 h_c8_i32 (by omega)
    have h_c0_i32_3 : Affine.IsInt 0#32 (0) := Affine.ofNat _ (by omega)
    have h_v15 : Affine.Term _ := Affine.cmpi_term .ne h_v14 h_c0_i32_3
    have h_v16 : Affine.Fails _ := Affine.andi_fails_left h_v13 h_v15
    have h_v2 : Affine.IsInt _ (((2 * ((L 1).val : Int) + ((L 0).val : Int)) / 8)) := Affine.divsi h_v1 h_c8_i32 (by omega)
    have h_c1_i32 : Affine.IsInt 1#32 (1) := Affine.ofNat _ (by omega)
    have h_v17 : Affine.IsInt _ (((2 * ((L 1).val : Int) + ((L 0).val : Int)) / 8) - 1) := Affine.subi h_v2 h_c1_i32 (by omega)
    have h_v18 : Affine.IsInt _ (((2 * ((L 1).val : Int) + ((L 0).val : Int)) / 8)) := Affine.select_fails h_v16 h_v17 h_v2 (by omega)
    have h_c8_i32_4 : Affine.IsInt 8#32 (8) := Affine.ofNat _ (by omega)
    have h_c0_i32_5 : Affine.IsInt 0#32 (0) := Affine.ofNat _ (by omega)
    have h_v19 : Affine.Fails _ := Affine.eq_fails h_c8_i32_4 h_c0_i32_5 (by omega)
    have h_c1_i32_6 : Affine.IsInt 1#32 (1) := Affine.ofNat _ (by omega)
    have h_v20 : Affine.IsInt _ (8) := Affine.select_fails h_v19 h_c1_i32_6 h_c8_i32_4 (by omega)
    have h_v21 : Affine.IsInt _ (((2 * ((L 1).val : Int) + ((L 0).val : Int)) % 8)) := Affine.remsi h_v1 h_v20 (by omega)
    have h_c0_i32_8 : Affine.IsInt 0#32 (0) := Affine.ofNat _ (by omega)
    have h_v23 : Affine.Fails _ := Affine.slt_fails h_v21 h_c0_i32_8 (by omega)
    have h_c0_i32_9 : Affine.IsInt 0#32 (0) := Affine.ofNat _ (by omega)
    have h_v24 : Affine.Fails _ := Affine.slt_fails h_v20 h_c0_i32_9 (by omega)
    have h_v25 : Affine.Fails _ := Affine.xori_ff h_v23 h_v24
    have h_c0_i32_7 : Affine.IsInt 0#32 (0) := Affine.ofNat _ (by omega)
    have h_v22 : Affine.Term _ := Affine.cmpi_term .ne h_v21 h_c0_i32_7
    have h_v26 : Affine.Fails _ := Affine.andi_fails_left h_v25 h_v22
    have h_v27 : Affine.IsInt _ (((2 * ((L 1).val : Int) + ((L 0).val : Int)) % 8) + 8) := Affine.addi h_v21 h_v20 (by omega)
    have h_v28 : Affine.IsInt _ (((2 * ((L 1).val : Int) + ((L 0).val : Int)) % 8)) := Affine.select_fails h_v26 h_v27 h_v21 (by omega)
    have h_c128_i32_10 : Affine.IsInt 128#32 (128) := Affine.ofNat _ (by omega)
    have h_v31 : Affine.IsInt _ (128 * ((2 * ((L 1).val : Int) + ((L 0).val : Int)) % 8)) := Affine.muli h_v28 h_c128_i32_10 (by omega)
    have h_v46 : Affine.IsInt _ (128 * ((2 * ((L 1).val : Int) + ((L 0).val : Int)) % 8) + 16 * (r.val : Int)) := Affine.addi h_v31 h_c0_i32_18 (by omega)
    have h_c0_i32_19 : Affine.IsInt 0#32 (0) := Affine.ofNat _ (by omega)
    exact Affine.vec_cons h_v18 (by unfold wid; omega) <| Affine.vec_cons h_v46 (by unfold wid; omega) <| Affine.vec_cons (Affine.ofNat 0 (by omega) : Affine.IsInt 0#32 0) (by omega) <| Affine.vec_nil

end Cert.Kernel.Hand

end
-- ==== Proof.KBCover.lean ====
/-
  The 256 chunks (2 SparseCores × 16 vector subcores × 8 chunks) tile the masked output, and their sources tile the
  masked rows of the input.

  Subcore L has number w = 2·s + c. Its chunk r writes batch w / 8, rows 128·(w mod 8) + 16·r … + 15 of the
  masked output (every feature), and reads batch w / 8, rows 3072 + 128·(w mod 8) + 16·r … + 15 of the input.
  An element (b, t, f) of the masked output lies in exactly one chunk: w = 8·b + t / 128, r = (t mod 128) / 16.
  So the destination chunks are pairwise disjoint and cover the output; the source chunks are pairwise disjoint and
  cover exactly the input's rows t ≥ 3072; the rows t < 3072 are the rest.
-/
import proofs.«216793_g32547262169289_cont_8to1_b_717_18_alg».proof.Proof.KBTileOff

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem wid_coordsV (c : Fin (grid1.bound 0)) (s : Fin (grid1.bound 1)) : wid (coordsV c s) = 2 * s.val + c.val := rfl

theorem srcSet_eq (L : grid1.Coords) (r : Fin 8) : srcSet L r = (srcRect L r).set := by
  show (((View.whole (main_arg0_scv : Ref sig .scVector)).slice (srcRect L r)).reshape S16x2048 squeezes_S1x16x2048_S16x2048.numel_eq).set = _
  rw [View.set_reshape, View.set_slice]; exact Finset.map_refl
theorem dstSet_eq (L : grid1.Coords) (r : Fin 8) : dstSet L r = (dstRect L r).set := by
  show (((View.whole (main_v4_scv : Ref sig .scVector)).slice (dstRect L r)).reshape S16x2048 squeezes_S1x16x2048_S16x2048.numel_eq).set = _
  rw [View.set_reshape, View.set_slice]; exact Finset.map_refl

/-- An element of the input lies in chunk `r` of subcore `L`'s source iff its batch is w / 8 and its row is one of the
    sixteen from 3072 + 128·(w mod 8) + 16·r. -/
theorem mem_srcSet (L : grid1.Coords) (r : Fin 8) (j : S4x4096x2048.Idx) :
    j ∈ srcSet L r ↔ (j 0).val = wid L / 8 ∧ 3072 + 128 * (wid L % 8) + 16 * r.val ≤ (j 1).val ∧ (j 1).val < 3072 + 128 * (wid L % 8) + 16 * r.val + 16 := by
  rw [srcSet_eq, Rect.mem_set_unit, k1_off1_eq]
  have h2 : (j 2).val < 2048 := (j 2).isLt
  constructor
  · intro h
    have h0 := h 0; have h1 := h 1
    simp only [Matrix.cons_val_zero, Matrix.cons_val_one] at h0 h1
    omega
  · rintro ⟨h0, h1, h1'⟩ a
    match a with
    | ⟨0, _⟩ => show wid L / 8 ≤ (j 0).val ∧ (j 0).val < wid L / 8 + 1; omega
    | ⟨1, _⟩ => show 3072 + 128 * (wid L % 8) + 16 * r.val ≤ (j 1).val ∧ (j 1).val < 3072 + 128 * (wid L % 8) + 16 * r.val + 16; omega
    | ⟨2, _⟩ => show 0 ≤ (j 2).val ∧ (j 2).val < 0 + 2048; omega

/-- The same for the masked output, the rows from 128·(w mod 8) + 16·r. -/
theorem mem_dstSet (L : grid1.Coords) (r : Fin 8) (j : S4x1024x2048.Idx) :
    j ∈ dstSet L r ↔ (j 0).val = wid L / 8 ∧ 128 * (wid L % 8) + 16 * r.val ≤ (j 1).val ∧ (j 1).val < 128 * (wid L % 8) + 16 * r.val + 16 := by
  rw [dstSet_eq, Rect.mem_set_unit, k1_off2_eq]
  have h2 : (j 2).val < 2048 := (j 2).isLt
  constructor
  · intro h
    have h0 := h 0; have h1 := h 1
    simp only [Matrix.cons_val_zero, Matrix.cons_val_one] at h0 h1
    omega
  · rintro ⟨h0, h1, h1'⟩ a
    match a with
    | ⟨0, _⟩ => show wid L / 8 ≤ (j 0).val ∧ (j 0).val < wid L / 8 + 1; omega
    | ⟨1, _⟩ => show 128 * (wid L % 8) + 16 * r.val ≤ (j 1).val ∧ (j 1).val < 128 * (wid L % 8) + 16 * r.val + 16; omega
    | ⟨2, _⟩ => show 0 ≤ (j 2).val ∧ (j 2).val < 0 + 2048; omega

/-- A chunk's name: SparseCore, vector subcore, chunk. -/
abbrev Key : Type := Fin (grid1.bound 0) × Fin (grid1.bound 1) × Fin 8
abbrev Key.L (k : Key) : grid1.Coords := coordsV k.1 k.2.1
abbrev Key.r (k : Key) : Fin 8 := k.2.2

theorem key_ext {k k' : Key} (hw : wid k.L = wid k'.L) (hr : k.r.val = k'.r.val) : k = k' := by
  obtain ⟨c, s, r⟩ := k; obtain ⟨c', s', r'⟩ := k'
  have hc : c.val < 2 := c.isLt
  have hc' : c'.val < 2 := c'.isLt
  simp only [Key.L, Key.r, wid_coordsV] at hw hr
  have e1 : c = c' := Fin.ext (by omega)
  have e2 : s = s' := Fin.ext (by omega)
  have e3 : r = r' := Fin.ext hr
  rw [e1, e2, e3]

theorem wid_lt (k : Key) : wid k.L < 32 := by
  have hc : k.1.val < 2 := k.1.isLt
  have hs : k.2.1.val < 16 := k.2.1.isLt
  rw [Key.L, wid_coordsV]; omega

theorem dst_disjoint : ∀ k ∈ (Finset.univ : Finset Key), ∀ k' ∈ (Finset.univ : Finset Key), k ≠ k' → Disjoint (dstSet k.L k.r) (dstSet k'.L k'.r) := by
  intro k _ k' _ hne
  rw [Finset.disjoint_left]
  intro j hj hj'
  rw [mem_dstSet] at hj hj'
  have hr : k.r.val < 8 := k.r.isLt
  have hr' : k'.r.val < 8 := k'.r.isLt
  exact hne (key_ext (by omega) (by omega))

theorem src_disjoint : ∀ k ∈ (Finset.univ : Finset Key), ∀ k' ∈ (Finset.univ : Finset Key), k ≠ k' → Disjoint (srcSet k.L k.r) (srcSet k'.L k'.r) := by
  intro k _ k' _ hne
  rw [Finset.disjoint_left]
  intro j hj hj'
  rw [mem_srcSet] at hj hj'
  have hr : k.r.val < 8 := k.r.isLt
  have hr' : k'.r.val < 8 := k'.r.isLt
  exact hne (key_ext (by omega) (by omega))

/-- The chunk that holds element (b, t, ·) of the masked output: w = 8·b + t / 128, r = (t mod 128) / 16. -/
def keyOf (b t : ℕ) (hb : b < 4) (ht : t < 1024) : Key :=
  (⟨(8 * b + t / 128) % 2, Nat.mod_lt _ (by decide)⟩, ⟨(8 * b + t / 128) / 2, by show _ < 16; omega⟩, ⟨(t % 128) / 16, by omega⟩)

theorem wid_keyOf (b t : ℕ) (hb : b < 4) (ht : t < 1024) : wid (keyOf b t hb ht).L = 8 * b + t / 128 := by
  show 2 * ((8 * b + t / 128) / 2) + (8 * b + t / 128) % 2 = _; omega

theorem dst_cover : (Finset.univ : Finset Key).biUnion (fun k => dstSet k.L k.r) = Finset.univ := by
  ext j
  simp only [Finset.mem_biUnion, Finset.mem_univ, true_and, iff_true]
  have hb : (j 0).val < 4 := (j 0).isLt
  have ht : (j 1).val < 1024 := (j 1).isLt
  refine ⟨keyOf (j 0).val (j 1).val hb ht, ?_⟩
  rw [mem_dstSet, wid_keyOf]
  show _ ∧ 128 * _ + 16 * (((j 1).val % 128) / 16) ≤ _ ∧ _ < 128 * _ + 16 * (((j 1).val % 128) / 16) + 16
  omega

/-- The input's rows the SparseCore kernel reads: t ≥ 3072; -/
def hiSet : Finset S4x4096x2048.Idx := Finset.univ.filter fun j => 3072 ≤ (j 1).val
/-- and the rest, which the TensorCore region reads. -/
def loSet : Finset S4x4096x2048.Idx := Finset.univ.filter fun j => (j 1).val < 3072

theorem src_cover : (Finset.univ : Finset Key).biUnion (fun k => srcSet k.L k.r) = hiSet := by
  ext j
  simp only [Finset.mem_biUnion, Finset.mem_univ, true_and, hiSet, Finset.mem_filter]
  have hb : (j 0).val < 4 := (j 0).isLt
  have ht : (j 1).val < 4096 := (j 1).isLt
  constructor
  · rintro ⟨k, hk⟩
    rw [mem_srcSet] at hk; omega
  · intro h
    refine ⟨keyOf (j 0).val ((j 1).val - 3072) hb (by omega), ?_⟩
    rw [mem_srcSet, wid_keyOf]
    show _ ∧ 3072 + 128 * _ + 16 * ((((j 1).val - 3072) % 128) / 16) ≤ _ ∧ _ < 3072 + 128 * _ + 16 * ((((j 1).val - 3072) % 128) / 16) + 16
    omega

theorem lo_hi_disjoint : Disjoint loSet hiSet := by
  rw [Finset.disjoint_left]; intro j h h'
  simp only [loSet, hiSet, Finset.mem_filter] at h h'; omega
theorem lo_hi_cover : loSet ∪ hiSet = Finset.univ := by
  ext j; simp only [loSet, hiSet, Finset.mem_union, Finset.mem_filter, Finset.mem_univ, true_and, iff_true]; omega

end Cert.Kernel.Hand

end
-- ==== Proof.KBTile.lean ====
/-
  The body of the vector-subcore copy kernel, once, at a symbolic subcore.

  Mathematics. Subcore w = 2·s + c moves eight chunks of 16 rows, chunk r from rows 3072 + 128·(w mod 8) + 16·r … of
  batch w / 8 of the input to rows 128·(w mod 8) + 16·r … of the same batch of the masked output, through three
  staging buffers used in rotation (chunk r through buffer r mod 3). Each buffer has one semaphore for the copy into
  it and one for the copy out of it, so on every semaphore at most one copy is outstanding, and the copy out of a
  buffer is waited for before the next copy into it is started: no copy's source or destination is touched while
  the copy is pending. After chunk r's copy in, the buffer holds the input's rows of that chunk; after its copy out
  the destination rows hold the same values, which is out[b, t, f] = x[b, 3072 + t, f] on those rows.
-/
import proofs.«216793_g32547262169289_cont_8to1_b_717_18_alg».proof.Proof.KBSetup
import proofs.«216793_g32547262169289_cont_8to1_b_717_18_alg».proof.Proof.KBTileOff

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The Fin 8 products, one factor per chunk -/

theorem bigSep_chunks {M : Type} [URA M] (Φ : Fin 8 → sProp M) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

variable (d : Dev nD) (L : grid1.Coords)

/-! ## The subcore's six semaphores and three staging buffers among its own -/

/-- The cell of one of the subcore's DMA semaphores. -/
abbrev cell (s : DmaSems sig S_) : GSem nD τ sig := (V d (cV L) (jV L), .dma s.sem)

theorem cell_ne {s t : DmaSems sig S_} (h : (SemLoc.dma s.sem : SemLoc sig) ≠ SemLoc.dma t.sem) : cell d L s ≠ cell d L t :=
  fun e => h (Prod.mk.inj e).2
theorem cell_mem (s : DmaSems sig S_) (h : (SemLoc.dma s.sem : SemLoc sig).isScoped .scVector = true) :
    cell d L s ∈ ownCells (V d (cV L) (jV L)) :=
  (mem_ownCells (g := cell d L s)).mpr ⟨rfl, h⟩

/-- The six semaphores are among the subcore's own cells: they at zero, and the rest at zero. -/
theorem ownSems0_V :
    (ownSems0 (V d (cV L) (jV L)) : sProp 𝕄)
      = iprop(semVal (cell d L cc1_scratch3) 0 ∗ semVal (cell d L cc1_scratch4) 0 ∗ semVal (cell d L cc1_scratch5) 0 ∗ semVal (cell d L cc1_scratch6) 0 ∗ semVal (cell d L cc1_scratch7) 0 ∗ semVal (cell d L cc1_scratch8) 0
          ∗ bigSep (((((((ownCells (V d (cV L) (jV L))).erase (cell d L cc1_scratch3)).erase (cell d L cc1_scratch4)).erase (cell d L cc1_scratch5)).erase (cell d L cc1_scratch6)).erase (cell d L cc1_scratch7)).erase (cell d L cc1_scratch8)) fun g => semVal g 0) := by
  unfold SparseCore.Cfg.ownSems0
  rw [SparseCore.bigSep_erase' (cell_mem d L cc1_scratch3 (by decide)),
    SparseCore.bigSep_erase' (Finset.mem_erase.mpr ⟨cell_ne d L (by decide), (cell_mem d L cc1_scratch4 (by decide))⟩),
    SparseCore.bigSep_erase' (Finset.mem_erase.mpr ⟨cell_ne d L (by decide), (Finset.mem_erase.mpr ⟨cell_ne d L (by decide), (cell_mem d L cc1_scratch5 (by decide))⟩)⟩),
    SparseCore.bigSep_erase' (Finset.mem_erase.mpr ⟨cell_ne d L (by decide), (Finset.mem_erase.mpr ⟨cell_ne d L (by decide), (Finset.mem_erase.mpr ⟨cell_ne d L (by decide), (cell_mem d L cc1_scratch6 (by decide))⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (cell_mem d L cc1_scratch7 (by decide))⟩)⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (cell_mem d L cc1_scratch8 (by decide))⟩)⟩)⟩)⟩)⟩)]

/-- The three staging buffers are among the subcore's own: they, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The arrays' chunks and the staging buffers as the kernel's memrefs address them -/

theorem pts_srcK (r : Fin 8) (f : Buf (Elt F) (xLoc d)) :
    ((srcK L r).view.loc (V d (cV L) (jV L)) ↦[(srcK L r).view.set]{fullShare} f : sProp 𝕄) = xLoc d ↦[srcSet L r]{fullShare} f := rfl
theorem pts_dstK (r : Fin 8) (f : Buf (Elt F) (outLoc d)) :
    ((dstK L r).view.loc (V d (cV L) (jV L)) ↦[(dstK L r).view.set]{fullShare} f : sProp 𝕄) = outLoc d ↦[dstSet L r]{fullShare} f := rfl
theorem pts_b0 (f : Buf (Elt F) ((V d (cV L) (jV L)).loc cc1_scratch0)) :
    ((b0 : Memref sig .scVector .vmem S16x2048 .f32).view.loc (V d (cV L) (jV L)) ↦{fullShare} f : sProp 𝕄) = (V d (cV L) (jV L)).loc cc1_scratch0 ↦{fullShare} f := rfl
theorem pts_b1 (f : Buf (Elt F) ((V d (cV L) (jV L)).loc cc1_scratch1)) :
    ((b1 : Memref sig .scVector .vmem S16x2048 .f32).view.loc (V d (cV L) (jV L)) ↦{fullShare} f : sProp 𝕄) = (V d (cV L) (jV L)).loc cc1_scratch1 ↦{fullShare} f := rfl
theorem pts_b2 (f : Buf (Elt F) ((V d (cV L) (jV L)).loc cc1_scratch2)) :
    ((b2 : Memref sig .scVector .vmem S16x2048 .f32).view.loc (V d (cV L) (jV L)) ↦{fullShare} f : sProp 𝕄) = (V d (cV L) (jV L)).loc cc1_scratch2 ↦{fullShare} f := rfl

/-- Recording one more wait at the kernel's own index keeps the record within "the waits before, or at that index". -/
theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

/-! ## The value: a chunk's source rows are its destination rows moved up by 3072 -/

/-- Chunk `r`'s source element under an index of the 16-row block is the masked-output element under the same index,
    read at the same batch and feature and 3072 rows further: both offsets are batch w / 8 and feature 0, and the
    rows are 3072 + 128·(w mod 8) + 16·r and 128·(w mod 8) + 16·r. -/
theorem src_eq_msk (r : Fin 8) (y : S1x16x2048.Idx) :
    (srcRect L r).emb y = Cert.Spec.mskIdx ((dstRect L r).emb y) := by
  have h1 := congrFun (k1_off1_eq L r)
  have h2 := congrFun (k1_off2_eq L r)
  funext a
  apply Fin.ext
  match a with
  | 0 =>
    rw [Cert.Spec.mskIdx_0]
    simp only [Rect.emb_apply, Rect.off_unit, Rect.stride_unit]
    rw [h1 0, h2 0]; rfl
  | 1 =>
    rw [Cert.Spec.mskIdx_1]
    simp only [Rect.emb_apply, Rect.off_unit, Rect.stride_unit]
    rw [h1 1, h2 1]; simp only [Matrix.cons_val_one, Matrix.cons_val_zero]; omega
  | 2 =>
    rw [Cert.Spec.mskIdx_2]
    simp only [Rect.emb_apply, Rect.off_unit, Rect.stride_unit]
    rw [h1 2, h2 2]; rfl

/-- What chunk `r`'s copy out leaves on its destination rows, when its payload is the input's rows of that chunk: the
    masked output's values there. An element of the destination rows is the image of an index of the 16-row block; the
    write puts the payload's value at that index there, which is the input at the image of the same index among the
    source rows — the destination element moved up by 3072 rows. -/
theorem dst_value (m : (ℓ : Loc nD τ sig) → Buf (Elt F) ℓ) (r : Fin 8) (f : Buf (Elt F) (outLoc d)) (w : S16x2048.Idx → Elt F .f32)
    (hw : w = (srcK L r).view.read (Elt F) (m (xLoc d))) :
    ∀ i ∈ dstSet L r, (dstK L r).view.writes (Elt F) f [⟨Rect.whole S16x2048, w⟩] i = (outOf (m (xLoc d)) : Buf (Elt F) (outLoc d)) i := by
  intro i hi
  obtain ⟨x, -, rfl⟩ := Finset.mem_map.mp hi
  subst hw
  rw [View.writes_singleton]
  have e : (dstK L r).view.emb x = ((dstK L r).view.slice (Rect.whole S16x2048)).emb x := by
    simp
  rw [e, View.write_emb_of_mem _ _ (Finset.mem_univ x), View.read_apply]
  simp only [cast_cast, cast_eq]
  rw [← e]
  show m (xLoc d) ((srcRect L r).emb (Shape.reshapeEquiv squeezes_S1x16x2048_S16x2048.numel_eq x))
    = m (xLoc d) (Cert.Spec.mskIdx ((dstRect L r).emb (Shape.reshapeEquiv squeezes_S1x16x2048_S16x2048.numel_eq x)))
  rw [src_eq_msk]

set_option maxHeartbeats 4000000 in
/-- The body at a symbolic subcore: the input's chunks come back unchanged; each destination chunk comes back holding
    out[b, t, f] = x[b, 3072 + t, f] on its rows; the staging buffers and the six semaphores come back as they were dealt
    (the semaphores at zero); every wait recorded is at the kernel's own index. Chunk r's copy in puts the input's rows
    of the chunk in buffer r mod 3; its copy out writes exactly those values on the destination rows; the rows' offsets
    differ by 3072 in one batch. -/
theorem tile_body [FloatOps F] (m : (ℓ : Loc nD τ sig) → Buf (Elt F) ℓ) (hF : (K (F := F)).Facts) (d : Dev nD) (L : grid1.Coords) (O : CellTallies nD τ sig (HIx 1)) (W : Waits sig (HIx 1)) (hO : ∀ g, O g none = 0) :
    (iprop(levAts (K (F := F)).L (K (F := F)).lev ∗ emp
        ∗ ((bigSep Finset.univ fun r : Fin 8 => xLoc d ↦[srcSet L r]{fullShare} m (xLoc d))
           ∗ (bigSep Finset.univ fun r : Fin 8 => iprop(∃ f, outLoc d ↦[dstSet L r]{fullShare} f)))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_sc_copy L xV (Memref.isWhole_whole _) oV (Memref.isWhole_whole _) b0 (Memref.isWhole_whole _) b1 (Memref.isWhole_whole _) b2 (Memref.isWhole_whole _) cc1_scratch3 cc1_scratch4 cc1_scratch5 cc1_scratch6 cc1_scratch7 cc1_scratch8)
          fun _ => iprop(((bigSep Finset.univ fun r : Fin 8 => xLoc d ↦[srcSet L r]{fullShare} m (xLoc d))
              ∗ (bigSep Finset.univ fun r : Fin 8 => outLoc d ↦[dstSet L r]{fullShare} (outOf (m (xLoc d)) : Buf (Elt F) (outLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_sc_copy_eq_skeleton]; unfold cc1_sc_copy_skel
  simp only [bigSep_chunks]
  rw [(K (F := F)).scopedBufs_V hF d (cV L) (jV L), SparseCore.Cfg.scopedSems0_V (Val := Elt F) d (cV L) (jV L), ownSems0_V, ownBufs_V]
  iintro ⟨#Hlv, -, ⟨⟨Hx0, Hx1, Hx2, Hx3, Hx4, Hx5, Hx6, Hx7⟩, ⟨⟨%f0, Ho0⟩, ⟨%f1, Ho1⟩, ⟨%f2, Ho2⟩, ⟨%f3, Ho3⟩, ⟨%f4, Ho4⟩, ⟨%f5, Ho5⟩, ⟨%f6, Ho6⟩, ⟨%f7, Ho7⟩⟩⟩,
    ⟨⟨%g0, Hb0⟩, ⟨%g1, Hb1⟩, ⟨%g2, Hb2⟩, Hbufs⟩, ⟨Hs3, Hs4, Hs5, Hs6, Hs7, Hs8, Hsems⟩, HO⟩
  ihave Hmw := ((K (F := F)).mayWaits_none (thr := V d (cV L) (jV L)) hO) $$ Hlv
  ihave Hx0' := (Entails.of_eq (pts_srcK (F := F) d L 0 _).symm) $$ Hx0
  ihave Hx1' := (Entails.of_eq (pts_srcK (F := F) d L 1 _).symm) $$ Hx1
  ihave Hx2' := (Entails.of_eq (pts_srcK (F := F) d L 2 _).symm) $$ Hx2
  ihave Hx3' := (Entails.of_eq (pts_srcK (F := F) d L 3 _).symm) $$ Hx3
  ihave Hx4' := (Entails.of_eq (pts_srcK (F := F) d L 4 _).symm) $$ Hx4
  ihave Hx5' := (Entails.of_eq (pts_srcK (F := F) d L 5 _).symm) $$ Hx5
  ihave Hx6' := (Entails.of_eq (pts_srcK (F := F) d L 6 _).symm) $$ Hx6
  ihave Hx7' := (Entails.of_eq (pts_srcK (F := F) d L 7 _).symm) $$ Hx7
  ihave Ho0' := (Entails.of_eq (pts_dstK (F := F) d L 0 _).symm) $$ Ho0
  ihave Ho1' := (Entails.of_eq (pts_dstK (F := F) d L 1 _).symm) $$ Ho1
  ihave Ho2' := (Entails.of_eq (pts_dstK (F := F) d L 2 _).symm) $$ Ho2
  ihave Ho3' := (Entails.of_eq (pts_dstK (F := F) d L 3 _).symm) $$ Ho3
  ihave Ho4' := (Entails.of_eq (pts_dstK (F := F) d L 4 _).symm) $$ Ho4
  ihave Ho5' := (Entails.of_eq (pts_dstK (F := F) d L 5 _).symm) $$ Ho5
  ihave Ho6' := (Entails.of_eq (pts_dstK (F := F) d L 6 _).symm) $$ Ho6
  ihave Ho7' := (Entails.of_eq (pts_dstK (F := F) d L 7 _).symm) $$ Ho7
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  sl_exec
  sl_step
  isplitl [Hx0' Hx1' Hx2' Hx3' Hx4' Hx5' Hx6' Hx7' Ho0' Ho1' Ho2' Ho3' Ho4' Ho5' Ho6' Ho7']
  · isplitl [Hx0' Hx1' Hx2' Hx3' Hx4' Hx5' Hx6' Hx7']
    · isplitl [Hx0']; · iapply (Entails.of_eq (pts_srcK (F := F) d L 0 _)); iexact Hx0'
      isplitl [Hx1']; · iapply (Entails.of_eq (pts_srcK (F := F) d L 1 _)); iexact Hx1'
      isplitl [Hx2']; · iapply (Entails.of_eq (pts_srcK (F := F) d L 2 _)); iexact Hx2'
      isplitl [Hx3']; · iapply (Entails.of_eq (pts_srcK (F := F) d L 3 _)); iexact Hx3'
      isplitl [Hx4']; · iapply (Entails.of_eq (pts_srcK (F := F) d L 4 _)); iexact Hx4'
      isplitl [Hx5']; · iapply (Entails.of_eq (pts_srcK (F := F) d L 5 _)); iexact Hx5'
      isplitl [Hx6']; · iapply (Entails.of_eq (pts_srcK (F := F) d L 6 _)); iexact Hx6'
      iapply (Entails.of_eq (pts_srcK (F := F) d L 7 _)); iexact Hx7'
    isplitl [Ho0']; · iapply (Entails.of_eq (pts_dstK (F := F) d L 0 _)); iapply (Entails.of_eq (pointsTo_congr (dst_value (F := F) d L m 0 f0 (tile_body.sl.dma0_2 m d L g0) (by delta tile_body.sl.dma0_2 tile_body.sl.dma0; simp only [ReadAs.apply_same, View.read_write_univ] <;> rfl)))); iexact Ho0'
    isplitl [Ho1']; · iapply (Entails.of_eq (pts_dstK (F := F) d L 1 _)); iapply (Entails.of_eq (pointsTo_congr (dst_value (F := F) d L m 1 f1 (tile_body.sl.dma0_4 m d L g1) (by delta tile_body.sl.dma0_4 tile_body.sl.dma0_1; simp only [ReadAs.apply_same, View.read_write_univ] <;> rfl)))); iexact Ho1'
    isplitl [Ho2']; · iapply (Entails.of_eq (pts_dstK (F := F) d L 2 _)); iapply (Entails.of_eq (pointsTo_congr (dst_value (F := F) d L m 2 f2 (tile_body.sl.dma0_6 m d L g2) (by delta tile_body.sl.dma0_6 tile_body.sl.dma0_3; simp only [ReadAs.apply_same, View.read_write_univ] <;> rfl)))); iexact Ho2'
    isplitl [Ho3']; · iapply (Entails.of_eq (pts_dstK (F := F) d L 3 _)); iapply (Entails.of_eq (pointsTo_congr (dst_value (F := F) d L m 3 f3 (tile_body.sl.dma0_8 m d L g0) (by delta tile_body.sl.dma0_8 tile_body.sl.dma0_5; simp only [ReadAs.apply_same, View.read_write_univ] <;> rfl)))); iexact Ho3'
    isplitl [Ho4']; · iapply (Entails.of_eq (pts_dstK (F := F) d L 4 _)); iapply (Entails.of_eq (pointsTo_congr (dst_value (F := F) d L m 4 f4 (tile_body.sl.dma0_10 m d L g1) (by delta tile_body.sl.dma0_10 tile_body.sl.dma0_7; simp only [ReadAs.apply_same, View.read_write_univ] <;> rfl)))); iexact Ho4'
    isplitl [Ho5']; · iapply (Entails.of_eq (pts_dstK (F := F) d L 5 _)); iapply (Entails.of_eq (pointsTo_congr (dst_value (F := F) d L m 5 f5 (tile_body.sl.dma0_12 m d L g2) (by delta tile_body.sl.dma0_12 tile_body.sl.dma0_9; simp only [ReadAs.apply_same, View.read_write_univ] <;> rfl)))); iexact Ho5'
    isplitl [Ho6']; · iapply (Entails.of_eq (pts_dstK (F := F) d L 6 _)); iapply (Entails.of_eq (pointsTo_congr (dst_value (F := F) d L m 6 f6 (tile_body.sl.dma0_14 m d L g0) (by delta tile_body.sl.dma0_14 tile_body.sl.dma0_11; simp only [ReadAs.apply_same, View.read_write_univ] <;> rfl)))); iexact Ho6'
    iapply (Entails.of_eq (pts_dstK (F := F) d L 7 _)); iapply (Entails.of_eq (pointsTo_congr (dst_value (F := F) d L m 7 f7 (tile_body.sl.dma0_15 m d L g1) (by delta tile_body.sl.dma0_15 tile_body.sl.dma0_13; simp only [ReadAs.apply_same, View.read_write_univ] <;> rfl)))); iexact Ho7'
  isplitl [Hb0' Hb1' Hb2' Hbufs]
  · isplitl [Hb0']; · iexists _; iapply (Entails.of_eq (pts_b0 (F := F) d L _)); iexact Hb0'
    isplitl [Hb1']; · iexists _; iapply (Entails.of_eq (pts_b1 (F := F) d L _)); iexact Hb1'
    isplitl [Hb2']; · iexists _; iapply (Entails.of_eq (pts_b2 (F := F) d L _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  ipureintro
  repeat (first | apply waits_insert)
  exact fun p hp => Or.inl hp

end Cert.Kernel.Hand

end
-- ==== Proof.KBRegionBody.lean ====
/-
  The TensorCore region of the kernel: the body of the visible part's copy, and the pipeline's proof data.

  Mathematics. The grid is [4, 2]; at point t = (i, j) window 0 brings rows 1536·j … 1536·j + 1535 of batch i of the input
  x (no block overhangs: j < 2), window 1 is the same block of the visible part, window 2 is the whole mask as 32-bit
  words. The body copies window 0's buffer into window 1's; at point (0, 0) it first stores the mask's words
  (1 where the time step is ≥ 3072, else 0) over window 2's buffer, which no later point touches.
-/
import proofs.«216793_g32547262169289_cont_8to1_b_717_18_alg».proof.Proof.KBSetup
import Idealize.ShloMosaic.Lib.Pipeline.Regions
import Idealize.ShloMosaic.Lib.Pipeline.FrameBody
import Idealize.ShloMosaic.Lib.Pipeline.Value
import Idealize.ShloMosaic.Lib.Ring
import proofs.«216793_g32547262169289_cont_8to1_b_717_18_alg».proof.Proof.Gen.Kernel.Points

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (SparseCore.Cfg.HIx 1) (Elt F) ℕ UU ℕ

/-! ## The body on whole staging buffers, in its two control cases -/

theorem hz3 : (![0, 0, 0] : Fin 3 → Nat) = fun _ => 0 := funext fun a => by fin_cases a <;> rfl
theorem hz2 : (![0, 0] : Fin 2 → Nat) = fun _ => 0 := funext fun a => by fin_cases a <;> rfl

/-- One store through the whole-shape rectangle covers the shape, whatever it stores. -/
theorem cover_one {S : Shape} {e : EltTy} {off : Fin S.rank → Nat} (h : off = fun _ => 0) (inb : ∀ a, off a + S.size a ≤ S.size a)
    (w : S.Idx → Elt F e) : ∀ y : S.Idx, ∃ p ∈ [(⟨Rect.unit off S.size inb, w⟩ : View.Piece (Elt F) S e)], y ∈ p.1.set :=
  fun y => ⟨_, List.mem_singleton_self _, View.mem_set_unit_zero h inb y⟩

-- the mask's words are read at an index only in the value lemmas: here they stay folded
attribute [local irreducible] k0_pay1

/-- At grid point (0, 0): the mask's words are stored over the whole third buffer (after a load whose value is not
    used), then the input's block is loaded and stored over the whole second buffer. -/
theorem body_mask (d : Dev nD) (i : grid0.Coords) (arg2 : Memref sig .tc .vmem S1x1536x2048 .f32) (harg2 : arg2.IsWhole)
    (arg3 : Memref sig .tc .vmem S1x1536x2048 .f32) (harg3 : arg3.IsWhole) (arg4 : Memref sig .tc .vmem S4x4096 .i32) (harg4 : arg4.IsWhole)
    (hc : k0_cond1 i = 1#1) (x0 : Vec F S1x1536x2048 .f32) (E : Set ℕ) (K : PUnit → sProp 𝕄) :
    iprop(owns (SparseCore.T d) arg2 fullShare x0 ∗ (∃ d1, owns (SparseCore.T d) arg3 fullShare d1) ∗ (∃ d2, owns (SparseCore.T d) arg4 fullShare d2)
        ∗ (iprop(owns (SparseCore.T d) arg2 fullShare x0 ∗ owns (SparseCore.T d) arg3 fullShare x0
              ∗ owns (SparseCore.T d) arg4 fullShare (k0_pay1 : Vec F S4x4096 .i32)) -∗ K ⟨⟩))
      ⊢ wp frame (wpE (defs₀ (F := F)) Variants.none (SparseCore.T d) none) E (cc0__vis_body i arg2 harg2 arg3 harg3 arg4 harg4) K := by
  simp only [cc0__vis_body_eq_skeleton]; unfold cc0__vis_body_skel
  unfold owns
  iintro ⟨⟨%f0, %hf0, H0⟩, ⟨%d1, %f1, -, H1⟩, ⟨%d2, %f2, -, H2⟩, Hk⟩
  obtain rfl := harg2.eq_unread hf0
  sl_exec (disch := first | exact hc)
  sl_step
  iapply Hk
  isplitl [H0]
  · iexists _; isplitr; · ipureintro; exact harg2.read_unread _
    iexact H0
  isplitl [H1]
  · iexists _; isplitr
    swap; · iexact H1
    ipureintro
    refine (View.read_writes_eq_canon _ _ _ (cover_one hz3 _ _)).trans ?_
    rw [View.canon_unit_zero hz3]
    simp only [View.readAt_eq_ld, harg2.read_unread, View.ld_unit_zero (S := S1x1536x2048) hz3]
  · iexists _; isplitr
    swap; · iexact H2
    ipureintro
    refine (View.read_writes_eq_canon _ _ _ (cover_one hz2 _ _)).trans ?_
    exact View.canon_unit_zero hz2 _ _

/-- At every other grid point: the input's block is loaded and stored over the whole second buffer; the third
    buffer is not touched. -/
theorem body_copy (d : Dev nD) (i : grid0.Coords) (arg2 : Memref sig .tc .vmem S1x1536x2048 .f32) (harg2 : arg2.IsWhole)
    (arg3 : Memref sig .tc .vmem S1x1536x2048 .f32) (harg3 : arg3.IsWhole) (arg4 : Memref sig .tc .vmem S4x4096 .i32) (harg4 : arg4.IsWhole)
    (hc : ¬k0_cond1 i = 1#1) (x0 : Vec F S1x1536x2048 .f32) (E : Set ℕ) (K : PUnit → sProp 𝕄) :
    iprop(owns (SparseCore.T d) arg2 fullShare x0 ∗ (∃ d1, owns (SparseCore.T d) arg3 fullShare d1)
        ∗ (iprop(owns (SparseCore.T d) arg2 fullShare x0 ∗ owns (SparseCore.T d) arg3 fullShare x0) -∗ K ⟨⟩))
      ⊢ wp frame (wpE (defs₀ (F := F)) Variants.none (SparseCore.T d) none) E (cc0__vis_body i arg2 harg2 arg3 harg3 arg4 harg4) K := by
  simp only [cc0__vis_body_eq_skeleton]; unfold cc0__vis_body_skel
  unfold owns
  iintro ⟨⟨%f0, %hf0, H0⟩, ⟨%d1, %f1, -, H1⟩, Hk⟩
  obtain rfl := harg2.eq_unread hf0
  sl_exec (disch := first | exact hc)
  sl_step
  iapply Hk
  isplitl [H0]
  · iexists _; isplitr; · ipureintro; exact harg2.read_unread _
    iexact H0
  · iexists _; isplitr
    swap; · iexact H1
    ipureintro
    refine (View.read_writes_eq_canon _ _ _ (cover_one hz3 _ _)).trans ?_
    rw [View.canon_unit_zero hz3]
    simp only [View.readAt_eq_ld, harg2.read_unread, View.ld_unit_zero (S := S1x1536x2048) hz3]

/-! ## The grid's points -/

/-- The mask is written at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

/-- No block of the input overhangs the array at a point of the grid: rows 1536·j … 1536·j + 1535 with j < 2. -/
theorem hclip0 : ∀ (t : Fin cfg0.N) (a : Fin 3), (cfg0.win 0).clip (cfg0.grid.coords t) a = none :=
  (by decide +kernel : ∀ (t : Fin grid0.N) (a : Fin 3), win0_0.clip (grid0.coords t) a = none)

/-- So a fetch fills the whole staging buffer: nothing of what it held is left. -/
theorem fill_indep (t : Fin cfg0.N) {α : Type} (d' d'' : (cfg0.win 0).block.Idx → α) (g : ((cfg0.win 0).xblock (cfg0.grid.coords t)).Idx → α) :
    (cfg0.win 0).fill (cfg0.grid.coords t) d' g = (cfg0.win 0).fill (cfg0.grid.coords t) d'' g := by
  funext j
  have hm : (cfg0.win 0).moved (cfg0.grid.coords t) j = true := ((cfg0.win 0).moved_iff _ j).mpr fun a => by
    have := (j a).isLt; unfold Window.xsize; rw [hclip0 t a]; exact this
  unfold Window.fill; rw [dif_pos hm, dif_pos hm]

/-! ## The pipeline's proof data -/

variable (m : (ℓ : Loc nD τ sig) → Buf (Elt F) ℓ)

/-- The block of the input the fetch at point `t` brings into the first window's buffer. -/
def xblk (d : Dev nD) (t : Fin cfg0.N) : Vec F S1x1536x2048 .f32 :=
  (cfg0.win 0).fill (cfg0.grid.coords t) (fun _ => (Elt.inhabited F (cfg0.win 0).elt).default)
    (((cfg0.win 0).blk t).view.read (Elt F) (m ((cfg0.win 0).arr.view.loc (SparseCore.T d))))

/-- The proof data on the TensorCore of `d`: the arrays as launched; the body leaves the input's buffer as it found it,
    the visible part's buffer at the input's block, the mask's buffer at the mask's words at the first point and as it
    found it afterwards; no invariant of its own; it owes, throughout, what the TensorCore owes before its first
    SparseCore call, its recorded waits all at the kernels' own index. -/
def rd (d : Dev nD) : RDat τ (Elt F) (SparseCore.Cfg.HIx 1) ℕ UU ℕ cfg0 d where
  A w := m ((cfg0.win w).arr.view.loc (SparseCore.T d))
  after w t := match w with
    | ⟨0, _⟩ => fun Y X => X = Y
    | ⟨1, _⟩ => fun _ X => X = xblk m d t
    | ⟨2, _⟩ => fun Y X => if t.val = 0 then X = (k0_pay1 : Vec F S4x4096 .i32) else X = Y
  Φ _ := iprop(emp)
  q _ := fullShare
  owed _ := (K (F := F)).Otc d 0
  recorded _ := {p | p.2 = none}

theorem after_0 (d : Dev nD) (t : Fin cfg0.N) (Y X) : (rd m d).after 0 t Y X = (X = Y) := by dsimp only [rd]
theorem after_1 (d : Dev nD) (t : Fin cfg0.N) (Y X) : (rd m d).after 1 t Y X = (X = xblk m d t) := by dsimp only [rd]
theorem after_2 (d : Dev nD) (t : Fin cfg0.N) (Y X) :
    (rd m d).after 2 t Y X = (if t.val = 0 then X = (k0_pay1 : Vec F S4x4096 .i32) else X = Y) := by dsimp only [rd]

/-- What the body finds in the first window's buffer: the input's block, whatever the buffer held before the fetch. -/
theorem finds_0 (d : Dev nD) (t : Fin cfg0.N) (Y : (cfg0.win 0).block.Idx → Elt F (cfg0.win 0).elt) (h : (rd m d).Finds 0 t Y) :
    Y = xblk m d t := by
  rw [(rd m d).finds_of_fetch (fetch0_0 t)] at h
  obtain ⟨d', rfl⟩ := h
  exact fill_indep t _ _ _

/-- The body obligation, at every point. -/
theorem body_obl (d : Dev nD) : (rd m d).BodyObligation (defs₀ (F := F)) Variants.none none Set.univ := by
  intro t Y hY
  rw [bigSep_W0, bigSep_W0]
  have h0 : Y 0 = xblk m d t := finds_0 m d t (Y 0) (hY 0)
  show _ ⊢ wp frame _ Set.univ (bodyAt0 t) _
  unfold bodyAt0
  rw [show (rd m d).Φ t.succ = (rd m d).Φ t.castSucc from rfl,
    show (rd m d).owesAt none t.succ = (rd m d).owesAt none t.castSucc from rfl]
  by_cases hc : k0_cond1 (grid0.coords t) = 1#1
  · have ht : t.val = 0 := (hcond t).mp hc
    iintro ⟨HΦ, Ho, H0, H1, H2⟩
    iapply (body_mask d (grid0.coords t) _ _ _ _ _ _ hc (Y 0) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]
    · iexists (Y 0); isplitr; · ipureintro; rw [after_0]
      iexact H0
    isplitl [H1]
    · iexists (Y 0); isplitr; · ipureintro; rw [after_1]; exact h0
      iexact H1
    · iexists (k0_pay1 : Vec F S4x4096 .i32); isplitr; · ipureintro; rw [after_2, if_pos ht]
      iexact H2
  · have ht : ¬t.val = 0 := fun h => hc ((hcond t).mpr h)
    iintro ⟨HΦ, Ho, H0, H1, H2⟩
    iapply (body_copy d (grid0.coords t) _ _ _ _ _ _ hc (Y 0) Set.univ _)
    isplitl [H0]; · iexact H0
    isplitl [H1]; · iexists _; iexact H1
    iintro ⟨H0, H1⟩
    isplitl [HΦ]; · iexact HΦ
    isplitl [Ho]; · iexact Ho
    isplitl [H0]
    · iexists (Y 0); isplitr; · ipureintro; rw [after_0]
      iexact H0
    isplitl [H1]
    · iexists (Y 0); isplitr; · ipureintro; rw [after_1]; exact h0
      iexact H1
    · iexists (Y 2); isplitr; · ipureintro; rw [after_2, if_neg ht]
      iexact H2

end Cert.Kernel.Hand
end
-- ==== Proof.KBRegion.lean ====
/-
  The TensorCore region of the kernel, entered from @main of the SparseCore program.

  The region's call is run by the regions kit's rule for one kernel region: the staging cells' invariants are allocated
  from the TensorCore's region-boundary counters and the pipeline's share of the launch, the pipeline runs under the body
  obligation, and the boundary is handed back. What the TensorCore owes the SparseCores (its start signals, all at a
  call's index) passes through unchanged; the pipeline's waits are at the kernels' own index, below every such debt.
-/
import proofs.«216793_g32547262169289_cont_8to1_b_717_18_alg».proof.Proof.KBRegionBody

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (SparseCore.Cfg.HIx 1) (Elt F) ℕ UU ℕ

variable (m : (ℓ : Loc nD τ sig) → Buf (Elt F) ℓ)

/-! ## The launch's share for the pipeline -/

/-- The pipeline has no prefetched table: the one admissible valuation. -/
abbrev adm : (p : Fin 1) → (pcfgs (F := F) p).Adm := fun p => (cfgs p).toPCfg_adm

/-- The pipeline's share of what the launch deals the TensorCore of `d`: its staging cells' ghost state and the duty
    tokens of the transfers its loop issues. -/
def pipeG (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem phinj : Function.Injective (Pipeline.cellOf (nD := nD) (τ := τ) (Pipeline.pin (pcfgs (F := F)) adm)) := cellOf_inj

/-- The element of the pipeline's rounds library the launch starts from: its cells at no schedule, every transfer's duty token. -/
def uP : UP := initOf (Pipeline.cells (Pipeline.pin (pcfgs (F := F)) adm) phinj) (Pipeline.launchToks (Pipeline.pin (pcfgs (F := F)) adm) phinj)

/-- From that element, every TensorCore's share. -/
theorem fund_pipe : BI.own ((EP (F := F)) (uP (F := F))) ⊢ iprop(|==> bigSep Finset.univ fun d : Dev nD => (pipeG d : sProp 𝕄)) := by
  refine (Pipeline.fund_ghost (Pipeline.pin (pcfgs (F := F)) adm) (EP (F := F)) phinj).trans (bupd_mono ?_)
  rw [← bigSep_sep']
  refine bigSep_mono fun d _ => ?_
  rw [show (Finset.univ : Finset (Fin 1)) = {0} from rfl, bigSep_singleton, bigSep_singleton]
  unfold pipeG; exact BI.Entails.refl _

/-! ## The region -/

/-- The proof data as the family over the program's one pipeline. -/
abbrev rdats : (p : Fin 1) → (c : Dev nD) → RDat τ (Elt F) (SparseCore.Cfg.HIx 1) ℕ UU ℕ (Pipeline.pin (pcfgs (F := F)) adm p) c :=
  fun _ c => rd m c

/-- Before its first SparseCore call the TensorCore owes nothing at the kernels' own index: its debts are start signals. -/
theorem hOtc (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

/-- What the TensorCore of `d` owes the SparseCores, its recorded waits all at level 0: carried through the region. -/
def owesTC (d : Dev nD) : sProp 𝕄 :=
  iprop(∃ W, ⌜(K (F := F)).WBelow (SparseCore.T d) W (8 * 0)⌝ ∗ owes (SparseCore.T d) ((K (F := F)).Otc d 0) W)

/-- A recorded pair at level 0 is at the kernels' own index. -/
theorem snd_none_of_lev {thr : Thread nD τ} {p : SemLoc sig × SparseCore.Cfg.HIx 1} (h : (K (F := F)).lev (thr, p.1) p.2 ≤ 8 * 0) : p.2 = none := by
  obtain ⟨sm, ι⟩ := p
  cases ι with
  | none => rfl
  | some q => exact absurd ((K (F := F)).lev_some_pos (thr, sm) q) (by dsimp only at h; omega)

/-- The loop's own waits are at the kernels' own index. -/
theorem bound_none (d : Dev nD) (t : Fin (cfg0.N + 1)) {p : SemLoc sig × SparseCore.Cfg.HIx 1} (h : p ∈ (rd m d).bound none t) : p.2 = none := by
  rcases h with h | ⟨w, s, rfl⟩
  · exact h
  · rfl

/-- A window's array, whole at the full share. -/
theorem array_pt (d : Dev nD) (w : Fin cfg0.W) (Fw : Buf (Elt F) ((cfg0.win w).arr.view.loc (SparseCore.T d))) :
    ((cfg0.win w).arr.view.loc (SparseCore.T d) ↦[(cfg0.win w).arr.view.set]{(rd m d).share w} Fw : sProp 𝕄)
      = ((SparseCore.T d).loc (Pipeline.arrRef spec0 w) ↦{fullShare} Fw) := by
  rw [(launch0.arr_whole w).set_eq_univ, (rd m d).share_full (fun _ => rfl) w]

theorem prefHeld_none (d : Dev nD) (q : Fin (pcfgs (F := F) 0).pre.K → PosShare TreeShare) (V) :
    (Pipeline.prefHeld (pcfgs (F := F) 0).pre d q V : sProp 𝕄) = BI.emp := by
  unfold Pipeline.prefHeld; rw [Finset.univ_eq_empty, BI.bigSep_empty]

/-- The thread state the region is entered from: what the TensorCore owes, and the pipeline's three arrays at the launch contents. -/
def segPre (c : Dev nD) : sProp 𝕄 :=
  iprop(owesTC c ∗ (xLoc c ↦{fullShare} m (xLoc c)) ∗ (visLoc c ↦{fullShare} m (visLoc c)) ∗ (mwLoc c ↦{fullShare} m (mwLoc c)))

/-- The thread state it leaves: the same debts, the input as it was, each output at some contents the write-backs may leave. -/
def segPost (c : Dev nD) : sProp 𝕄 :=
  iprop(owesTC c ∗ (xLoc c ↦{fullShare} m (xLoc c))
    ∗ (∃ F1, ⌜(rd m c).ArrAt 1 cfg0.N F1⌝ ∗ (visLoc c ↦{fullShare} F1)) ∗ (∃ F2, ⌜(rd m c).ArrAt 2 cfg0.N F2⌝ ∗ (mwLoc c ↦{fullShare} F2)))

/-- Each window's array, whole at the full share, in the arrays' own names. -/
theorem array_pt0 (d : Dev nD) (Fw : Buf (Elt F) ((cfg0.win 0).arr.view.loc (SparseCore.T d))) :
    ((cfg0.win 0).arr.view.loc (SparseCore.T d) ↦[(cfg0.win 0).arr.view.set]{(rd m d).share 0} Fw : sProp 𝕄) = (xLoc d ↦{fullShare} Fw) :=
  array_pt m d 0 Fw
theorem array_pt1 (d : Dev nD) (Fw : Buf (Elt F) ((cfg0.win 1).arr.view.loc (SparseCore.T d))) :
    ((cfg0.win 1).arr.view.loc (SparseCore.T d) ↦[(cfg0.win 1).arr.view.set]{(rd m d).share 1} Fw : sProp 𝕄) = (visLoc d ↦{fullShare} Fw) :=
  array_pt m d 1 Fw
theorem array_pt2 (d : Dev nD) (Fw : Buf (Elt F) ((cfg0.win 2).arr.view.loc (SparseCore.T d))) :
    ((cfg0.win 2).arr.view.loc (SparseCore.T d) ↦[(cfg0.win 2).arr.view.set]{(rd m d).share 2} Fw : sProp 𝕄) = (mwLoc d ↦{fullShare} Fw) :=
  array_pt m d 2 Fw
theorem A_0 (d : Dev nD) : (rd m d).A 0 = m (xLoc d) := rfl
theorem A_1 (d : Dev nD) : (rd m d).A 1 = m (visLoc d) := rfl
theorem A_2 (d : Dev nD) : (rd m d).A 2 = m (mwLoc d) := rfl

/-- The windowed arrays at contents `Fs`, one by one. -/
theorem arrays3 (d : Dev nD) (Fs : (w : Fin cfg0.W) → Buf (Elt F) ((cfg0.win w).arr.view.loc (SparseCore.T d))) :
    ((rd m d).arrays Fs : sProp 𝕄) = iprop((xLoc d ↦{fullShare} Fs 0) ∗ (visLoc d ↦{fullShare} Fs 1) ∗ (mwLoc d ↦{fullShare} Fs 2)) := by
  unfold RDat.arrays
  rw [bigSep_W0, array_pt0, array_pt1, array_pt2]

/-- The arrays after the write-backs, one by one. -/
theorem arraysAt3 (d : Dev nD) (n : Nat) :
    ((rd m d).arraysAt n : sProp 𝕄) ⊢ iprop((∃ F0, ⌜(rd m d).ArrAt 0 n F0⌝ ∗ (xLoc d ↦{fullShare} F0))
      ∗ (∃ F1, ⌜(rd m d).ArrAt 1 n F1⌝ ∗ (visLoc d ↦{fullShare} F1)) ∗ (∃ F2, ⌜(rd m d).ArrAt 2 n F2⌝ ∗ (mwLoc d ↦{fullShare} F2))) := by
  show (bigSep Finset.univ fun w : Fin 3 => (iprop(∃ Fw, ⌜(rd m d).ArrAt w n Fw⌝
      ∗ ((cfg0.win w).arr.view.loc (SparseCore.T d) ↦[(cfg0.win w).arr.view.set]{(rd m d).share w} Fw)) : sProp 𝕄)) ⊢ _
  rw [bigSep_W0]
  iintro ⟨⟨%F0, %h0, H0⟩, ⟨%F1, %h1, H1⟩, ⟨%F2, %h2, H2⟩⟩
  isplitl [H0]
  · iexists F0; isplitr; · ipureintro; exact h0
    iapply (Entails.of_eq (array_pt0 m d F0)); iexact H0
  isplitl [H1]
  · iexists F1; isplitr; · ipureintro; exact h1
    iapply (Entails.of_eq (array_pt1 m d F1)); iexact H1
  · iexists F2; isplitr; · ipureintro; exact h2
    iapply (Entails.of_eq (array_pt2 m d F2)); iexact H2

theorem seg_hwaits (lv : GSem nD τ sig → SparseCore.Cfg.HIx 1 → ℕ) (hlv : (K (F := F)).Refines lv) (c : Dev nD) :
    (levAts (K (F := F)).L lv : sProp 𝕄) ⊢ Pipeline.RDat.cellsWaits (Pipeline.pin (pcfgs (F := F)) adm) (rdats m) none 0 c :=
  Pipeline.RDat.cellsWaits_intro (Pipeline.pin (pcfgs (F := F)) adm) (rdats m) none 0 c fun w s t =>
    (K (F := F)).mayWait_none _ (hOtc c) lv hlv

theorem seg_hentry (lv : GSem nD τ sig → SparseCore.Cfg.HIx 1 → ℕ) (c : Dev nD) :
    iprop(segPre m c ∗ Pipeline.ownSems0 (fun k : PEmpty => k.elim) c ∗ levAts (K (F := F)).L lv)
      ⊢ |={Set.univ}=> iprop((rdats m 0 c).arrays (rdats m 0 c).A ∗ Pipeline.prefHeld (pcfgs (F := F) 0).pre c (fun _ => fullShare) (adm (F := F) 0).1
          ∗ (rdats m 0 c).owesAt none 0 ∗ (iprop(emp) : sProp 𝕄) ∗ (iprop(emp) : sProp 𝕄)) := by
  rw [show (rdats m 0 c) = rd m c from rfl, arrays3, prefHeld_none, A_0, A_1, A_2]
  unfold segPre owesTC
  iintro ⟨⟨⟨%W, %hW, HO⟩, Hx, Hv, Hm⟩, -, -⟩
  imodintro
  isplitl [Hx Hv Hm]
  · isplitl [Hx]; · iexact Hx
    isplitl [Hv]; · iexact Hv
    iexact Hm
  isplitr; · iempintro
  isplitl [HO]
  · iexists W; isplitr
    · ipureintro; exact fun p hp => Or.inl (snd_none_of_lev (hW p hp))
    iexact HO
  isplitr <;> iempintro

theorem seg_hexit (c : Dev nD) :
    iprop((rdats m 0 c).arraysAt (Pipeline.pin (pcfgs (F := F)) adm 0).N ∗ (rdats m 0 c).owesAt none (Fin.last (Pipeline.pin (pcfgs (F := F)) adm 0).N)
        ∗ (iprop(emp) : sProp 𝕄) ∗ (iprop(emp) : sProp 𝕄))
      ⊢ |={Set.univ}=> segPost m c := by
  show iprop((rd m c).arraysAt cfg0.N ∗ (rd m c).owesAt none (Fin.last cfg0.N) ∗ (iprop(emp) : sProp 𝕄) ∗ (iprop(emp) : sProp 𝕄)) ⊢ _
  unfold segPost owesTC
  iintro ⟨Ha, ⟨%W, %hW, HO⟩, -, -⟩
  ihave Hb := (arraysAt3 m c cfg0.N) $$ Ha
  icases Hb with ⟨⟨%F0, %hF0, H0⟩, ⟨%F1, %hF1, H1⟩, ⟨%F2, %hF2, H2⟩⟩
  rw [(rd m c).ArrAt_in 0 rfl] at hF0
  subst hF0
  imodintro
  isplitl [HO]
  · iexists W; isplitr
    · ipureintro; intro p hp; rw [bound_none m c _ (hW hp), SparseCore.Cfg.lev_none]
    iexact HO
  isplitl [H0]; · iexact H0
  isplitl [H1]
  · iexists F1; isplitr; · ipureintro; exact hF1
    iexact H1
  · iexists F2; isplitr; · ipureintro; exact hF2
    iexact H2

/-- The region as the regions kit takes it. -/
def seg (lv : GSem nD τ sig → SparseCore.Cfg.HIx 1 → ℕ) (hlv : (K (F := F)).Refines lv) :
    Pipeline.RDat.RegionSeg (pcfgs (F := F)) adm (rdats m) none (defs₀ (F := F)) 𝒱₀ (K (F := F)).L lv (0 : Fin 1) where
  win := launch0.win.to₀
  block_pos := launch0.block_pos
  stage_whole := launch0.stage_whole
  K := PEmpty
  osem := fun k => k.elim
  ho := Pipeline.OwnSemFacts.none _
  hbody := fun c => body_obl m c
  hwaits := seg_hwaits m lv hlv
  pre := segPre m
  post := segPost m
  X := fun _ => iprop(emp)
  Y := fun _ => iprop(emp)
  Z := fun _ => iprop(emp)
  hentry := seg_hentry m lv
  hin := fun c => by iintro -; iempintro
  hout := fun c => by
    rw [Pipeline.ownSems0_none, scopedRest0_eq]
    iintro -; isplitr; · iempintro
    isplitr <;> iempintro
  hexit := seg_hexit m

/-- The TensorCore's handshake state before its first SparseCore call is what it owes beside the rest, which the region
    does not touch. -/
theorem tcSt_eq (d : Dev nD) : ∃ R : sProp 𝕄, (K (F := F)).tcSt EH d 0 = iprop(owesTC d ∗ R) :=
  ⟨_, by unfold SparseCore.Cfg.tcSt owesTC; rfl⟩

/-- The region's call under the certificate's own body table: from the boundary, the entry state, the level facts and the
    pipeline's share of the launch, to the boundary and the exit state. -/
theorem region_wp_D (d : Dev nD) (lv : GSem nD τ sig → SparseCore.Cfg.HIx 1 → ℕ) (hlv : (K (F := F)).Refines lv) :
    iprop(boundary (SparseCore.T d) ∗ segPre m d ∗ levAts (K (F := F)).L lv ∗ pipeG d)
      ⊢ wp frame (wpE (D (F := F)) 𝒱 (SparseCore.T d) none) Set.univ
          (.op (.customCall (Pipeline.entry 0) ()) fun _ => .ret PUnit.unit)
          fun _ => (iprop(boundary (SparseCore.T d) ∗ segPost m d) : sProp 𝕄) := by
  have h := Pipeline.RDat.RegionSeg.wp (pcfgs (F := F)) adm (rdats m) none phinj (EP (F := F)) (defs₀ (F := F)) 𝒱₀ (K (F := F)).L lv
    (seg m lv hlv) d none (fun _ h => nomatch h) (fun _ => .ret PUnit.unit) (fun _ => (iprop(boundary (SparseCore.T d) ∗ segPost m d) : sProp 𝕄))
  rw [show (seg m lv hlv).pre d = segPre m d from rfl, show (seg m lv hlv).post d = segPost m d from rfl] at h
  refine BIBase.Entails.trans ?_ h
  unfold pipeG
  iintro ⟨Hbd, Hpre, #Hlev, Hcg, Htk⟩
  isplitr
  · iintro H; rw [wp_ret]; imodintro; iexact H
  isplitl [Hbd]; · iexact Hbd
  isplitl [Hpre]; · iexact Hpre
  isplitr; · iexact Hlev
  isplitl [Hcg]; · iexact Hcg
  iexact Htk

/-- THE REGION, relationally: from the level facts, the TensorCore's handshake state before its first SparseCore call, its
    region-boundary holdings, the pipeline's three arrays at the launch contents and the pipeline's share of the launch,
    the region's call runs to the same with the input as it was and each output at contents the write-backs may leave. -/
theorem region_wp_rel (d : Dev nD) (lv : GSem nD τ sig → SparseCore.Cfg.HIx 1 → ℕ) (hlv : (K (F := F)).Refines lv) :
    iprop(levAts (K (F := F)).L lv ∗ (K (F := F)).tcSt EH d 0 ∗ boundary (SparseCore.T d)
        ∗ (xLoc d ↦{fullShare} m (xLoc d)) ∗ (visLoc d ↦{fullShare} m (visLoc d)) ∗ (mwLoc d ↦{fullShare} m (mwLoc d))
        ∗ pipeG d)
      ⊢ wp frame (wpE ((K (F := F)).defs (D (F := F))) 𝒱 (SparseCore.T d) none) Set.univ
          (Prog.lift (.customCall (SparseCore.inner (Pipeline.entry 0)) ()))
          fun _ => (iprop((K (F := F)).tcSt EH d 0 ∗ boundary (SparseCore.T d)
            ∗ (xLoc d ↦{fullShare} m (xLoc d))
            ∗ (∃ F1, ⌜(rd m d).ArrAt 1 cfg0.N F1⌝ ∗ (visLoc d ↦{fullShare} F1))
            ∗ (∃ F2, ⌜(rd m d).ArrAt 2 cfg0.N F2⌝ ∗ (mwLoc d ↦{fullShare} F2))) : sProp 𝕄) := by
  obtain ⟨R, hR⟩ := tcSt_eq (F := F) d
  rw [hR]
  have hl := (K (F := F)).wp_liftProg (D (F := F)) 𝒱 (SparseCore.T d) Set.univ none
    (.op (.customCall (Pipeline.entry 0) ()) fun _ => .ret PUnit.unit) (fun _ => (iprop(boundary (SparseCore.T d) ∗ segPost m d) : sProp 𝕄))
  have hD := region_wp_D m d lv hlv
  iintro ⟨#Hlev, ⟨HO, Hrest⟩, Hbd, Hx, Hv, Hm, Hg⟩
  iapply (wp_wand_r frame _ Set.univ)
  isplitl [HO Hbd Hx Hv Hm Hg]
  · iapply hl
    iapply hD
    isplitl [Hbd]; · iexact Hbd
    isplitl [HO Hx Hv Hm]
    · unfold segPre
      isplitl [HO]; · iexact HO
      isplitl [Hx]; · iexact Hx
      isplitl [Hv]; · iexact Hv
      iexact Hm
    isplitr; · iexact Hlev
    iexact Hg
  · iintro %_ ⟨Hbd, Hpost⟩
    unfold segPost
    icases Hpost with ⟨HO, Hx, H1, H2⟩
    isplitl [HO Hrest]
    · isplitl [HO]; · iexact HO
      iexact Hrest
    isplitl [Hbd]; · iexact Hbd
    isplitl [Hx]; · iexact Hx
    isplitl [H1]; · iexact H1
    iexact H2

/-- THE REGION, as a frame: the outputs at some contents. -/
theorem region_wp_frame (d : Dev nD) (lv : GSem nD τ sig → SparseCore.Cfg.HIx 1 → ℕ) (hlv : (K (F := F)).Refines lv) :
    iprop(levAts (K (F := F)).L lv ∗ (K (F := F)).tcSt EH d 0 ∗ boundary (SparseCore.T d)
        ∗ (xLoc d ↦{fullShare} m (xLoc d)) ∗ (visLoc d ↦{fullShare} m (visLoc d)) ∗ (mwLoc d ↦{fullShare} m (mwLoc d))
        ∗ pipeG d)
      ⊢ wp frame (wpE ((K (F := F)).defs (D (F := F))) 𝒱 (SparseCore.T d) none) Set.univ
          (Prog.lift (.customCall (SparseCore.inner (Pipeline.entry 0)) ()))
          fun _ => (iprop((K (F := F)).tcSt EH d 0 ∗ boundary (SparseCore.T d)
            ∗ (xLoc d ↦{fullShare} m (xLoc d))
            ∗ (∃ f, visLoc d ↦{fullShare} f) ∗ (∃ g, mwLoc d ↦{fullShare} g)) : sProp 𝕄) :=
  (region_wp_rel m d lv hlv).trans (wp_mono _ _ _ fun _ => by
    iintro ⟨Hst, Hbd, Hx, ⟨%F1, -, H1⟩, ⟨%F2, -, H2⟩⟩
    isplitl [Hst]; · iexact Hst
    isplitl [Hbd]; · iexact Hbd
    isplitl [Hx]; · iexact Hx
    isplitl [H1]; · iexists F1; iexact H1
    iexists F2; iexact H2)

end Cert.Kernel.Hand
end
-- ==== Proof.KBRegionValue.lean ====
/-
  What the TensorCore region leaves in its two results, and the region's rule with those values.

  Mathematics. The visible part: every point (i, j) writes back the block of rows 1536·j … 1536·j + 1535 of batch i, holding
  the same block of the input (the two windows have one index map, and no block overhangs); the eight blocks cover
  [4, 3072, 2048], so vis[b, t, f] = x[b, t, f]. The mask: its buffer is stored at the first point with
  extui(iota along the time axis ≥ 3072) and is neither stored into nor written back before the last point, whose
  write-back is of the whole array: mask[b, t] = 1 if t ≥ 3072 else 0, as 32-bit words.
-/
import Idealize.ShloMosaic.Lib.ValueIdx
import proofs.«216793_g32547262169289_cont_8to1_b_717_18_alg».proof.Proof.KBRegion

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (SparseCore.Cfg.HIx 1) (Elt F) ℕ UU ℕ

variable (m : (ℓ : Loc nD τ sig) → Buf (Elt F) ℓ)

/-! ## What the arrays hold in the end -/

/-- If at every point that writes window `w`'s block back, what the body may leave there has, on the part the write-back
    moves, the block of `G`, then after the write-backs below `n` the array holds `G` on every block written back
    below `n`: a later write-back either covers the index with `G` again or leaves it alone. -/
theorem arrAt_apply_of_mem (d : Dev nD) (w : Fin cfg0.W) (G : Buf (Elt F) ((cfg0.win w).arr.view.loc (SparseCore.T d)))
    (hG : ∀ (t : Fin cfg0.N) (X : (cfg0.win w).block.Idx → Elt F (cfg0.win w).elt), (cfg0.win w).flush t = true → (rd m d).Leaves w t X →
      (cfg0.win w).cut (cfg0.grid.coords t) X = ((cfg0.win w).blk t).view.read (Elt F) G) :
    ∀ (n : Nat) (Fw : Buf (Elt F) ((cfg0.win w).arr.view.loc (SparseCore.T d))), (rd m d).ArrAt w n Fw →
      ∀ (t : Fin cfg0.N) (i : ((cfg0.win w).arr.view.loc (SparseCore.T d)).2.ty.Idx), t.val < n → (cfg0.win w).flush t = true →
        i ∈ ((cfg0.win w).blk t).view.set → Fw i = G i
  | 0, _, _, _, _, ht, _, _ => absurd ht (Nat.not_lt_zero _)
  | n + 1, Fw, hF, t, i, ht, hf, hi => by
    by_cases hn : n < cfg0.N
    swap
    · rw [(rd m d).ArrAt_stable w (n + 1) (by omega), ← (rd m d).ArrAt_stable w n (by omega)] at hF
      exact arrAt_apply_of_mem d w G hG n Fw hF t i (by have := t.isLt; omega) hf hi
    have hF' : (rd m d).ArrAt w ((⟨n, hn⟩ : Fin cfg0.N).val + 1) Fw := hF
    rw [(rd m d).ArrAt_succ w ⟨n, hn⟩] at hF'
    by_cases hfn : (cfg0.win w).flush ⟨n, hn⟩ = true
    · rw [if_pos hfn] at hF'
      obtain ⟨G₀, X, hG₀, hX, rfl⟩ := hF'
      rw [hG _ X hfn hX, View.write_read_eq_piecewise]
      by_cases hin : i ∈ ((cfg0.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt_apply_of_mem d w G hG n G₀ hG₀ t i (by omega) hf hi
    · rw [if_neg hfn] at hF'
      have htn : t.val ≠ n := fun e => hfn (by have : t = ⟨n, hn⟩ := Fin.ext e; exact this ▸ hf)
      exact arrAt_apply_of_mem d w G hG n Fw hF' t i (by omega) hf hi

/-- So when the blocks written back cover the array, it ends holding `G`. -/
theorem arrAt_eq_of_cover (d : Dev nD) (w : Fin cfg0.W) (G : Buf (Elt F) ((cfg0.win w).arr.view.loc (SparseCore.T d)))
    (hG : ∀ (t : Fin cfg0.N) (X : (cfg0.win w).block.Idx → Elt F (cfg0.win w).elt), (cfg0.win w).flush t = true → (rd m d).Leaves w t X →
      (cfg0.win w).cut (cfg0.grid.coords t) X = ((cfg0.win w).blk t).view.read (Elt F) G)
    (hcover : ∀ i : ((cfg0.win w).arr.view.loc (SparseCore.T (τ := τ) d)).2.ty.Idx,
      ∃ t : Fin cfg0.N, (cfg0.win w).flush t = true ∧ i ∈ ((cfg0.win w).blk t).view.set)
    (Fw : Buf (Elt F) ((cfg0.win w).arr.view.loc (SparseCore.T d))) (hF : (rd m d).ArrAt w cfg0.N Fw) : Fw = G :=
  funext fun i => by
    obtain ⟨t, hf, hi⟩ := hcover i
    exact arrAt_apply_of_mem m d w G hG cfg0.N Fw hF t i t.isLt hf hi

/-! ### The mask -/

theorem toInt_ofNat_small (n : Nat) (hn : n < 4096) : (BitVec.ofNat 32 n).toInt = (n : Int) := by
  rw [BitVec.toInt_eq_toNat_cond]
  simp only [BitVec.toNat_ofNat]
  rw [Nat.mod_eq_of_lt (by omega), if_pos (by omega)]

/-- The signed comparison of a time step below 4096 against 3072. -/
theorem cmpi_sge_3072 (n : Nat) (hn : n < 4096) :
    IntOp.cmpi .sge (BitVec.ofNat 32 n) 3072#32 = if 3072 ≤ n then 1#1 else 0#1 := by
  have h : (3072#32 : BitVec 32).sle (BitVec.ofNat 32 n) = decide (3072 ≤ n) := by
    rw [BitVec.sle_eq_decide, toInt_ofNat_small n hn, show (3072#32 : BitVec 32).toInt = 3072 from by decide]
    simp
  show BitVec.ofBool ((3072#32 : BitVec 32).sle (BitVec.ofNat 32 n)) = _
  rw [h]
  by_cases h' : 3072 ≤ n <;> simp [h']

/-- The words the body stores at the first point are the mask's: 1 where the time step is at least 3072, else 0. -/
theorem pay_apply (j : S4x4096.Idx) : (k0_pay1 : IVec S4x4096 32) j = maskWord j := by
  unfold k0_pay1 maskWord Cert.Spec.maskBit
  dsimp only
  rw [ValueIdx.extui_apply]
  show (IntOp.cmpi .sge (iota .tc S4x4096 32 [1] iota_S4x4096_d1_w32 j) (broadcast S4x4096 (3072#32 : BitVec 32) j)).setWidth 32 = _
  rw [iota_single_apply, ValueIdx.broadcast_apply, cmpi_sge_3072 _ (j 1).isLt]

/-- The mask's window is never fetched (it is an output). -/
theorem fetch_2 : ∀ t : Fin cfg0.N, (cfg0.win 2).fetch t = false :=
  (by decide +kernel : ∀ t : Fin grid0.N, win0_2.fetch t = false)

/-- Its block index is (0, 0) at every point: the whole array. -/
theorem idx_2 : ∀ t : Fin cfg0.N, (cfg0.win 2).index t 0 = 0 ∧ (cfg0.win 2).index t 1 = 0 :=
  (by decide +kernel : ∀ t : Fin grid0.N, win0_2.index t 0 = 0 ∧ win0_2.index t 1 = 0)

/-- Whatever the body may leave in the mask's buffer, at any point, is the mask's words: stored at the first point, and
    the buffer is neither written back nor stored into between that point and the last. -/
theorem leaves_2 (d : Dev nD) : ∀ (n : Nat) (t : Fin cfg0.N), t.val = n →
    ∀ X : (cfg0.win 2).block.Idx → Elt F (cfg0.win 2).elt, (rd m d).Leaves 2 t X → X = (k0_pay1 : Vec F S4x4096 .i32)
  | 0, t, ht, X, ⟨Y, _, hYX⟩ => by rw [after_2, if_pos ht] at hYX; exact hYX
  | n + 1, t, ht, X, ⟨Y, hY, hYX⟩ => by
    rw [after_2, if_neg (by omega)] at hYX
    rw [hYX]
    rw [(rd m d).finds_of_pos (fetch_2 t) (by omega)] at hY
    have hN : cfg0.N = 8 := N_0
    rcases hY with hfl | hL
    · exfalso; have h7 := (flush0_2 _).mp hfl; dsimp only at h7; have := t.isLt; omega
    · exact leaves_2 d n ⟨t.val - 1, Nat.lt_of_le_of_lt (Nat.sub_le _ _) t.isLt⟩ (by dsimp only; omega) Y hL

/-- What a write-back of the mask's buffer writes is the mask's words, read through the block (the whole array). -/
theorem flushed_2 (d : Dev nD) (t : Fin cfg0.N) (X : (cfg0.win 2).block.Idx → Elt F (cfg0.win 2).elt)
    (hf : (cfg0.win 2).flush t = true) (hX : (rd m d).Leaves 2 t X) :
    (cfg0.win 2).cut (cfg0.grid.coords t) X = ((cfg0.win 2).blk t).view.read (Elt F) (maskWord : Buf (Elt F) (mwLoc d)) := by
  rw [leaves_2 m d t.val t rfl X hX]
  funext y
  rw [View.read_apply]
  show (k0_pay1 : IVec S4x4096 32) ((cfg0.win 2).xinj (cfg0.grid.coords t) y) = maskWord (((cfg0.win 2).blk t).view.emb y)
  rw [pay_apply]
  congr 1
  funext a
  apply Fin.ext
  match a with
  | ⟨0, _⟩ => show (y 0).val = win0_2.index t 0 * 4 + 1 * (y 0).val; rw [(idx_2 t).1]; omega
  | ⟨1, _⟩ => show (y 1).val = win0_2.index t 1 * 4096 + 1 * (y 1).val; rw [(idx_2 t).2]; omega

/-- The mask's block at the last point is the whole array. -/
theorem cover_2 (d : Dev nD) (i : ((cfg0.win 2).arr.view.loc (SparseCore.T (τ := τ) d)).2.ty.Idx) :
    ∃ t : Fin cfg0.N, (cfg0.win 2).flush t = true ∧ i ∈ ((cfg0.win 2).blk t).view.set := by
  refine ⟨t0_7, (flush0_2 t0_7).mpr rfl, ?_⟩
  show i ∈ ((View.whole main_v0_1).slice (win0_2.rect t0_7)).set
  rw [View.set_slice_whole, Rect.mem_set_unit]
  intro a
  have h0 : (i 0 : Nat) < 4 := (i 0).isLt
  have h1 : (i 1 : Nat) < 4096 := (i 1).isLt
  match a with
  | ⟨0, _⟩ => show win0_2.index t0_7 0 * win0_2.size 0 ≤ (i 0 : Nat) ∧ (i 0 : Nat) < win0_2.index t0_7 0 * win0_2.size 0 + win0_2.xsize (grid0.coords t0_7) 0
              rw [(idx_2 t0_7).1, show win0_2.xsize (grid0.coords t0_7) 0 = 4 from rfl]; omega
  | ⟨1, _⟩ => show win0_2.index t0_7 1 * win0_2.size 1 ≤ (i 1 : Nat) ∧ (i 1 : Nat) < win0_2.index t0_7 1 * win0_2.size 1 + win0_2.xsize (grid0.coords t0_7) 1
              rw [(idx_2 t0_7).2, show win0_2.xsize (grid0.coords t0_7) 1 = 4096 from rfl]; omega

/-- THE MASK: after every write-back the mask's array holds 1 on the time steps from 3072 on, else 0. -/
theorem final_mask (d : Dev nD) (F2 : Buf (Elt F) ((cfg0.win 2).arr.view.loc (SparseCore.T d))) (h : (rd m d).ArrAt 2 cfg0.N F2) :
    F2 = (maskWord : Buf (Elt F) (mwLoc d)) :=
  arrAt_eq_of_cover m d 2 (maskWord : Buf (Elt F) (mwLoc d)) (flushed_2 m d) (cover_2 d) F2 h

/-! ### The visible part -/

/-- The visible part's window and the input's have one index map: the block at point (i, j) is (i, j, 0) of each. -/
theorem idx_01 : ∀ t : Fin cfg0.N, win0_0.index t 0 = win0_1.index t 0 ∧ win0_0.index t 1 = win0_1.index t 1 ∧ win0_0.index t 2 = win0_1.index t 2 :=
  (by decide +kernel : ∀ t : Fin grid0.N, win0_0.index t 0 = win0_1.index t 0 ∧ win0_0.index t 1 = win0_1.index t 1 ∧ win0_0.index t 2 = win0_1.index t 2)

/-- In closed form: point t = 2·i + j has block index (i, j, 0). -/
theorem idx_1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)

theorem flushed_1 (d : Dev nD) (t : Fin cfg0.N) (X : (cfg0.win 1).block.Idx → Elt F (cfg0.win 1).elt)
    (hf : (cfg0.win 1).flush t = true) (hX : (rd m d).Leaves 1 t X) :
    (cfg0.win 1).cut (cfg0.grid.coords t) X = ((cfg0.win 1).blk t).view.read (Elt F) (visOf (m (xLoc d)) : Buf (Elt F) (visLoc d)) := by
  obtain ⟨Y, _, hYX⟩ := hX
  rw [after_1] at hYX
  rw [hYX]
  funext y
  rw [View.read_apply]
  unfold xblk visOf
  have hm : (cfg0.win 0).moved (cfg0.grid.coords t) ((cfg0.win 1).xinj (cfg0.grid.coords t) y) = true :=
    ((cfg0.win 0).moved_iff _ _).mpr fun a => by
      have := ((cfg0.win 1).xinj (cfg0.grid.coords t) y a).isLt; unfold Window.xsize; rw [hclip0 t a]; exact this
  show (cfg0.win 0).fill (cfg0.grid.coords t) (fun _ => (Elt.inhabited F (cfg0.win 0).elt).default) _ ((cfg0.win 1).xinj (cfg0.grid.coords t) y)
    = m (xLoc d) (Cert.Spec.visIdx (((cfg0.win 1).blk t).view.emb y))
  unfold Window.fill
  rw [dif_pos hm, View.read_apply]
  show m (xLoc d) (((cfg0.win 0).blk t).view.emb _) = m (xLoc d) (Cert.Spec.visIdx (((cfg0.win 1).blk t).view.emb y))
  congr 1
  funext a
  apply Fin.ext
  match a with
  | ⟨0, _⟩ => show win0_0.index t 0 * 1 + 1 * (y 0).val = win0_1.index t 0 * 1 + 1 * (y 0).val; rw [(idx_01 t).1]
  | ⟨1, _⟩ => show win0_0.index t 1 * 1536 + 1 * (y 1).val = win0_1.index t 1 * 1536 + 1 * (y 1).val; rw [(idx_01 t).2.1]
  | ⟨2, _⟩ => show win0_0.index t 2 * 2048 + 1 * (y 2).val = win0_1.index t 2 * 2048 + 1 * (y 2).val; rw [(idx_01 t).2.2]

/-- The visible part's blocks cover it: element (b, r, f) is in the block of point 2·b + r / 1536. -/
theorem cover_1 (d : Dev nD) (i : ((cfg0.win 1).arr.view.loc (SparseCore.T (τ := τ) d)).2.ty.Idx) :
    ∃ t : Fin cfg0.N, (cfg0.win 1).flush t = true ∧ i ∈ ((cfg0.win 1).blk t).view.set := by
  have h0 : (i 0 : Nat) < 4 := (i 0).isLt
  have h1 : (i 1 : Nat) < 3072 := (i 1).isLt
  have h2 : (i 2 : Nat) < 2048 := (i 2).isLt
  have hN : cfg0.N = 8 := N_0
  let t : Fin cfg0.N := ⟨2 * (i 0 : Nat) + (i 1 : Nat) / 1536, by rw [hN]; omega⟩
  refine ⟨t, flush0_1 t, ?_⟩
  show i ∈ ((View.whole main_v0_0).slice (win0_1.rect t)).set
  rw [View.set_slice_whole, Rect.mem_set_unit]
  intro a
  have ht : t.val = 2 * (i 0 : Nat) + (i 1 : Nat) / 1536 := rfl
  match a with
  | ⟨0, _⟩ => show win0_1.index t 0 * win0_1.size 0 ≤ (i 0 : Nat) ∧ (i 0 : Nat) < win0_1.index t 0 * win0_1.size 0 + win0_1.xsize (grid0.coords t) 0
              rw [(idx_1 t).1, show win0_1.size 0 = 1 from rfl, show win0_1.xsize (grid0.coords t) 0 = 1 from rfl, ht]; omega
  | ⟨1, _⟩ => show win0_1.index t 1 * win0_1.size 1 ≤ (i 1 : Nat) ∧ (i 1 : Nat) < win0_1.index t 1 * win0_1.size 1 + win0_1.xsize (grid0.coords t) 1
              rw [(idx_1 t).2.1, show win0_1.size 1 = 1536 from rfl, show win0_1.xsize (grid0.coords t) 1 = 1536 from rfl, ht]; omega
  | ⟨2, _⟩ => show win0_1.index t 2 * win0_1.size 2 ≤ (i 2 : Nat) ∧ (i 2 : Nat) < win0_1.index t 2 * win0_1.size 2 + win0_1.xsize (grid0.coords t) 2
              rw [(idx_1 t).2.2, show win0_1.size 2 = 2048 from rfl, show win0_1.xsize (grid0.coords t) 2 = 2048 from rfl]; omega

/-- THE VISIBLE PART: after every write-back it holds the input's first 3072 time steps. -/
theorem final_vis (d : Dev nD) (F1 : Buf (Elt F) ((cfg0.win 1).arr.view.loc (SparseCore.T d))) (h : (rd m d).ArrAt 1 cfg0.N F1) :
    F1 = (visOf (m (xLoc d)) : Buf (Elt F) (visLoc d)) :=
  arrAt_eq_of_cover m d 1 (visOf (m (xLoc d)) : Buf (Elt F) (visLoc d)) (flushed_1 m d) (cover_1 d) F1 h

/-! ## The region, with its values -/

/-- THE REGION: from the level facts, the TensorCore's handshake state before its first SparseCore call, its region-boundary
    holdings, the pipeline's three arrays at the launch contents and the pipeline's share of the launch, the region's call
    runs to the same handshake state and boundary, the input as it was, the visible part at the input's first 3072 time
    steps and the mask's words at 1 from time step 3072 on, else 0. -/
theorem region_wp (d : Dev nD) (lv : GSem nD τ sig → SparseCore.Cfg.HIx 1 → ℕ) (hlv : (K (F := F)).Refines lv) :
    iprop(levAts (K (F := F)).L lv ∗ (K (F := F)).tcSt EH d 0 ∗ boundary (SparseCore.T d)
        ∗ (xLoc d ↦{fullShare} m (xLoc d)) ∗ (visLoc d ↦{fullShare} m (visLoc d)) ∗ (mwLoc d ↦{fullShare} m (mwLoc d))
        ∗ pipeG d)
      ⊢ wp frame (wpE ((K (F := F)).defs (D (F := F))) 𝒱 (SparseCore.T d) none) Set.univ
          (Prog.lift (.customCall (SparseCore.inner (Pipeline.entry 0)) ()))
          fun _ => (iprop((K (F := F)).tcSt EH d 0 ∗ boundary (SparseCore.T d)
            ∗ (xLoc d ↦{fullShare} m (xLoc d))
            ∗ (visLoc d ↦{fullShare} (visOf (m (xLoc d)) : Buf (Elt F) (visLoc d)))
            ∗ (mwLoc d ↦{fullShare} (maskWord : Buf (Elt F) (mwLoc d)))) : sProp 𝕄) :=
  (region_wp_rel m d lv hlv).trans (wp_mono _ _ _ fun _ => by
    iintro ⟨Hst, Hbd, Hx, ⟨%F1, %h1, H1⟩, ⟨%F2, %h2, H2⟩⟩
    have e1 := final_vis m d F1 h1
    have e2 := final_mask m d F2 h2
    subst e1 e2
    isplitl [Hst]; · iexact Hst
    isplitl [Hbd]; · iexact Hbd
    isplitl [Hx]; · iexact Hx
    isplitl [H1]; · iexact H1
    iexact H2)

end Cert.Kernel.Hand
end
-- ==== Proof.KBLaunch.lean ====
/-
  What the SparseCore call hands over, and the launch theorem's obligations for the vector-subcore kernel.

  The call hands vector subcore L its eight source chunks of the input (at the launch contents) and its eight
  destination chunks of the masked output (at anything); the subcore hands the sources back unchanged and the
  destinations at out[b, t, f] = x[b, 3072 + t, f]. A SparseCore is handed what its sixteen subcores are, so the
  split among them is the identity. On the TensorCore side the input splits into the rows t < 3072 and the 256 source
  chunks, the masked output into the 256 destination chunks; since every destination comes back at the SAME function
  of the input, they join to the whole output at that function.
-/
import proofs.«216793_g32547262169289_cont_8to1_b_717_18_alg».proof.Proof.KBCover
import proofs.«216793_g32547262169289_cont_8to1_b_717_18_alg».proof.Proof.KBTile
import proofs.«216793_g32547262169289_cont_8to1_b_717_18_alg».proof.Proof.KBRegionValue
import Idealize.ShloMosaic.Lib.Pipeline.Value
import Idealize.ShloMosaic.Lib.Pipeline.Regions

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- Subcore `L`'s share when its task starts: its source chunks of the input, its destination chunks of the output. -/
def goRes (d : Dev nD) (L : grid1.Coords) : sProp 𝕄 :=
  iprop((bigSep Finset.univ fun r : Fin 8 => xLoc d ↦[srcSet L r]{fullShare} m (xLoc d))
    ∗ (bigSep Finset.univ fun r : Fin 8 => iprop(∃ f, outLoc d ↦[dstSet L r]{fullShare} f)))
/-- and when it ends: the destinations at the input's rows moved down by 3072. -/
def tdRes (d : Dev nD) (L : grid1.Coords) : sProp 𝕄 :=
  iprop((bigSep Finset.univ fun r : Fin 8 => xLoc d ↦[srcSet L r]{fullShare} m (xLoc d))
    ∗ (bigSep Finset.univ fun r : Fin 8 => outLoc d ↦[dstSet L r]{fullShare} (outOf (m (xLoc d)) : Buf (Elt F) (outLoc d))))

instance goRes_storable (d : Dev nD) (L : grid1.Coords) : BI.Storable (upEmb : UEmb _ 𝕄) (goRes m d L) := by
  unfold goRes; infer_instance
instance tdRes_storable (d : Dev nD) (L : grid1.Coords) : BI.Storable (upEmb : UEmb _ 𝕄) (tdRes m d L) := by
  unfold tdRes; infer_instance

def P : (K (F := F)).Pay (nD := nD) (Val := Elt F) (Name := ℕ) (U := UU) where
  st := fun q d c => match q with | 0 => bigSep Finset.univ fun i : Fin ((K (F := F)).nSub 0) => goRes m d (coordsV c i)
  dn := fun q d c => match q with | 0 => bigSep Finset.univ fun i : Fin ((K (F := F)).nSub 0) => tdRes m d (coordsV c i)
  go := fun q d c i => match q with | 0 => goRes m d (coordsV c i)
  td := fun q d c i => match q with | 0 => tdRes m d (coordsV c i)
  x := fun _ _ => iprop(emp)

instance P_storable : (P (F := F) m).IsStorable where
  st q d c := match q with
    | 0 => by
      show BI.Storable (upEmb : UEmb _ 𝕄) (bigSep Finset.univ fun i : Fin ((K (F := F)).nSub 0) => goRes m d (coordsV c i))
      haveI : ∀ i : Fin ((K (F := F)).nSub 0), BI.Storable (upEmb : UEmb _ 𝕄) (goRes m d (coordsV c i)) := fun i => goRes_storable m d _
      infer_instance
  dn q d c := match q with
    | 0 => by
      show BI.Storable (upEmb : UEmb _ 𝕄) (bigSep Finset.univ fun i : Fin ((K (F := F)).nSub 0) => tdRes m d (coordsV c i))
      haveI : ∀ i : Fin ((K (F := F)).nSub 0), BI.Storable (upEmb : UEmb _ 𝕄) (tdRes m d (coordsV c i)) := fun i => tdRes_storable m d _
      infer_instance
  go q d c i := match q with
    | 0 => (inferInstance : BI.Storable (upEmb : UEmb _ 𝕄) (goRes m d (coordsV c i)))
  td q d c i := match q with
    | 0 => (inferInstance : BI.Storable (upEmb : UEmb _ 𝕄) (tdRes m d (coordsV c i)))

/-! ## The launch theorem's obligations -/

variable [FloatOps F]

theorem defs₀_vector (c : Fin τ.nSC) (s : Fin τ.nSub) :
    defs₀ (F := F) (.scVector c s) 1 ()
      = SparseCore.onTile hcore1 hsub1 (fun c s => cc1_sc_copy (coordsV c s)
          xV (Memref.isWhole_whole _) oV (Memref.isWhole_whole _)
          b0 (Memref.isWhole_whole _) b1 (Memref.isWhole_whole _) b2 (Memref.isWhole_whole _)
          cc1_scratch3 cc1_scratch4 cc1_scratch5 cc1_scratch6 cc1_scratch7 cc1_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

omit [FloatOps F] in
theorem vecSplit : (K (F := F)).VecSplit' (P m) 0 := by
  intro d c
  show (bigSep Finset.univ fun i : Fin ((K (F := F)).nSub 0) => goRes m d (coordsV c i)) ⊢ |={Set.univ}=> iprop(
      (bigSep Finset.univ fun i : Fin ((K (F := F)).nSub 0) => goRes m d (coordsV c i))
      ∗ ((bigSep Finset.univ fun i : Fin ((K (F := F)).nSub 0) => tdRes m d (coordsV c i))
          -∗ (bigSep Finset.univ fun i : Fin ((K (F := F)).nSub 0) => tdRes m d (coordsV c i))))
  iintro H; imodintro
  isplitl [H]; · iexact H
  iintro H; iexact H

/-! ## The arrays split among the chunks, and joined -/

omit [FloatOps F] in
/-- The masked output, whole at `f`, is its 256 destination chunks at `f`. -/
theorem out_split (d : Dev nD) (f : Buf (Elt F) (outLoc d)) :
    (outLoc d ↦{fullShare} f : sProp 𝕄) = bigSep Finset.univ fun k : Key => outLoc d ↦[dstSet k.L k.r]{fullShare} f := by
  rw [← pointsTo_biUnion Finset.univ (ℓ := outLoc d) (fun k : Key => dstSet k.L k.r) dst_disjoint, dst_cover]; try rfl
omit [FloatOps F] in
/-- The input's rows t ≥ 3072 are the 256 source chunks. -/
theorem xhi_split (d : Dev nD) (f : Buf (Elt F) (xLoc d)) :
    (xLoc d ↦[hiSet]{fullShare} f : sProp 𝕄) = bigSep Finset.univ fun k : Key => xLoc d ↦[srcSet k.L k.r]{fullShare} f := by
  rw [← pointsTo_biUnion Finset.univ (ℓ := xLoc d) (fun k : Key => srcSet k.L k.r) src_disjoint, src_cover]
omit [FloatOps F] in
/-- The input is its rows t < 3072 and its rows t ≥ 3072. -/
theorem x_split (d : Dev nD) (f : Buf (Elt F) (xLoc d)) :
    (xLoc d ↦{fullShare} f : sProp 𝕄) = iprop((xLoc d ↦[loSet]{fullShare} f) ∗ xLoc d ↦[hiSet]{fullShare} f) := by
  have h : (xLoc d ↦{fullShare} f : sProp 𝕄) = xLoc d ↦[loSet ∪ hiSet]{fullShare} f := by rw [lo_hi_cover]
  rw [h]
  exact equiv_iff.mp ⟨(pointsTo_union lo_hi_disjoint).1, (pointsTo_union lo_hi_disjoint).2⟩

omit [FloatOps F] in
/-- A family over the chunks' names is one over SparseCores, then subcores, then chunks. -/
theorem bigSep_keys (Φ : Key → sProp 𝕄) :
    bigSep Finset.univ Φ = bigSep Finset.univ fun c : Fin (grid1.bound 0) => bigSep Finset.univ fun i : Fin (grid1.bound 1) => bigSep Finset.univ fun r : Fin 8 => Φ (c, i, r) := by
  rw [bigSep_univ_prod]
  exact bigSep_congr fun c _ => bigSep_univ_prod _

omit [FloatOps F] in
/-- What the call takes: every subcore's share, from the input's rows t ≥ 3072 and the masked output whole. -/
theorem st0_intro (d : Dev nD) (f : Buf (Elt F) (outLoc d)) :
    iprop((xLoc d ↦[hiSet]{fullShare} m (xLoc d)) ∗ outLoc d ↦{fullShare} f)
      ⊢ (bigSep Finset.univ fun c : Fin ((K (F := F)).nCore 0) => (P m).st 0 d c : sProp 𝕄) := by
  rw [xhi_split, out_split, bigSep_keys, bigSep_keys]
  dsimp only [Key.L, Key.r]
  show _ ⊢ bigSep Finset.univ fun c : Fin (grid1.bound 0) => bigSep Finset.univ fun i : Fin (grid1.bound 1) => goRes m d (coordsV c i)
  unfold goRes
  rw [← bigSep_sep']
  refine bigSep_mono fun c _ => ?_
  rw [← bigSep_sep']
  refine bigSep_mono fun i _ => ?_
  refine BI.sep_mono_r (bigSep_mono fun r _ => ?_)
  show _ ⊢ iprop(∃ g, outLoc d ↦[dstSet (coordsV c i) r]{fullShare} g)
  iintro H; iexists f; iexact H

omit [FloatOps F] in
/-- What the call brings back: the input's rows t ≥ 3072 unchanged, the masked output whole at the input's rows moved
    down by 3072. -/
theorem dn0_elim (d : Dev nD) :
    (bigSep Finset.univ fun c : Fin ((K (F := F)).nCore 0) => (P m).dn 0 d c : sProp 𝕄)
      ⊢ iprop((xLoc d ↦[hiSet]{fullShare} m (xLoc d)) ∗ outLoc d ↦{fullShare} (outOf (m (xLoc d)) : Buf (Elt F) (outLoc d))) := by
  rw [xhi_split, out_split, bigSep_keys, bigSep_keys]
  dsimp only [Key.L, Key.r]
  show (bigSep Finset.univ fun c : Fin (grid1.bound 0) => bigSep Finset.univ fun i : Fin (grid1.bound 1) => tdRes m d (coordsV c i)) ⊢ _
  unfold tdRes
  rw [← bigSep_sep']
  refine bigSep_mono fun c _ => ?_
  rw [← bigSep_sep']
  try exact BI.Entails.refl _

/-! ## The launch element -/

def u₀ : UU := (initOf (K (F := F)).hsCells (K (F := F)).hsToks, (uP (F := F), 1))

omit [FloatOps F] in
theorem bigSep_emp' {I : Type} (s : Finset I) : (bigSep s fun _ => iprop(emp)) = (iprop(emp) : sProp 𝕄) := bigSep_emp_const s

omit [FloatOps F] in
/-- The pipeline's rounds library sits in the middle factor: owning an element through the right half's left injection
    is owning it there. -/
theorem own_EP_eq (a : UP) :
    (BI.own ((((Emb.inl : Emb UP (UP × Counters)).trans embR) : Emb UP 𝕄) a) : sProp 𝕄) = BI.own ((EP (F := F)) a) := rfl

theorem hu₀ : (ownU (u₀ (F := F)) : sProp 𝕄)
    ⊢ |={Set.univ}=> iprop(BI.own (EH (initOf (K (F := F)).hsCells (K (F := F)).hsToks)) ∗ (bigSep Finset.univ fun d : Dev nD => (pipeG d : sProp 𝕄))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR (uP (F := F)) (1 : Counters)) $$ HR
  icases H2 with ⟨HP, -⟩
  ihave HP' := (Entails.of_eq (own_EP_eq (F := F) (uP (F := F)))) $$ HP
  imod (fund_pipe (F := F)) $$ HP' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev mw' : DevRef τ sig := Proc.devRef .tc (main_v0_1 : Ref sig .tc)
abbrev c' : DevRef τ sig := Proc.devRef .tc (main_c : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
/-- The buffers the four host operations after the region touch: the mask's words, the zero constant and its
    broadcast, the comparison, the mask's bits. -/
abbrev S5 : Finset (DevRef τ sig) := {mw', c', v1', v2', v3'}

abbrev op1 : HloOp τ sig (Elt F) := StableHlo.nullary main_c (constantI S_ 32 0#32)
abbrev op2 : HloOp τ sig (Elt F) := StableHlo.unary main_c main_v1 (broadcastInDim S4x4096 ![] bcast_S_S4x4096 : (⟨S_, .i32⟩ : BufTy).Contents (Elt F) → (⟨S4x4096, .i32⟩ : BufTy).Contents (Elt F))
abbrev op3 : HloOp τ sig (Elt F) := StableHlo.binary main_v0_1 main_v1 main_v2 (cmpi .ne : (⟨S4x4096, .i32⟩ : BufTy).Contents (Elt F) → (⟨S4x4096, .i32⟩ : BufTy).Contents (Elt F) → (⟨S4x4096, .i1⟩ : BufTy).Contents (Elt F))
abbrev op4 : HloOp τ sig (Elt F) := StableHlo.unary main_v2 main_v3 (id : (⟨S4x4096, .i1⟩ : BufTy).Contents (Elt F) → (⟨S4x4096, .i1⟩ : BufTy).Contents (Elt F))

omit [FloatOps F] in
theorem held_S5 (d : Dev nD) (W : Valuation τ sig (Elt F)) :
    (held (T d) S5 W : sProp 𝕄) = iprop((mwLoc d ↦{fullShare} W mw') ∗ ((SparseCore.T d).loc main_c ↦{fullShare} W c') ∗ ((SparseCore.T d).loc main_v1 ↦{fullShare} W v1')
      ∗ ((SparseCore.T d).loc main_v2 ↦{fullShare} W v2') ∗ (mbLoc d ↦{fullShare} W v3')) := by
  unfold held S5
  rw [SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (visLoc d ↦{fullShare} W main_v0_0) ∗ (mwLoc d ↦{fullShare} W main_v0_1)
      ∗ ((SparseCore.T d).loc main_c ↦{fullShare} W main_c) ∗ ((SparseCore.T d).loc main_v1 ↦{fullShare} W main_v1) ∗ ((SparseCore.T d).loc main_v2 ↦{fullShare} W main_v2)
      ∗ (mbLoc d ↦{fullShare} W main_v3) ∗ (outLoc d ↦{fullShare} W main_v4)) := by
  unfold unscopedBufs
  rw [show (Finset.univ.filter fun b : Ref sig .tc => ¬ b.isScoped) = {main_arg0, main_v0_0, main_v0_1, main_c, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The mask's bits as the last host operations compute them from the words: word ≠ 0. -/
theorem maskBits_eq :
    (cmpi .ne (maskWord : IVec S4x4096 32) (broadcastInDim S4x4096 ![] bcast_S_S4x4096 (constantI S_ 32 0#32)) : IVec S4x4096 1)
      = fun i => Cert.Spec.maskBit i := by
  funext i
  have hb : broadcastInDim S4x4096 ![] bcast_S_S4x4096 (constantI S_ 32 0#32) i = 0#32 := by
    rw [broadcastInDim_apply _ bcast_S_S4x4096 _ i (fun a => a.elim0) (fun a => a.elim0)]; rfl
  show IntOp.cmpi .ne (maskWord i) (broadcastInDim S4x4096 ![] bcast_S_S4x4096 (constantI S_ 32 0#32) i) = Cert.Spec.maskBit i
  rw [hb]; unfold maskWord Cert.Spec.maskBit
  by_cases h : 3072 ≤ (i 1).val
  · rw [if_pos h]; decide
  · rw [if_neg h]; decide

/-- The launch contents as a valuation, and the one after the region: the mask's words written. -/
def V0 (d : Dev nD) : Valuation τ sig (Elt F) := fun b => m (d, b)
def V1 (d : Dev nD) : Valuation τ sig (Elt F) := Function.update (V0 m d) mw' (maskWord : Buf (Elt F) (mwLoc d))

omit [FloatOps F] in
theorem V1_mw (d : Dev nD) : V1 m d mw' = (maskWord : Buf (Elt F) (mwLoc d)) := Function.update_self _ _ _
omit [FloatOps F] in
theorem V1_c (d : Dev nD) : V1 m d c' = V0 m d c' := Function.update_of_ne (show c' ≠ mw' by decide) _ _
omit [FloatOps F] in
theorem V1_v1 (d : Dev nD) : V1 m d v1' = V0 m d v1' := Function.update_of_ne (show v1' ≠ mw' by decide) _ _
omit [FloatOps F] in
theorem V1_v2 (d : Dev nD) : V1 m d v2' = V0 m d v2' := Function.update_of_ne (show v2' ≠ mw' by decide) _ _
omit [FloatOps F] in
theorem V1_v3 (d : Dev nD) : V1 m d v3' = V0 m d v3' := Function.update_of_ne (show v3' ≠ mw' by decide) _ _

theorem hS1 : (op1 (F := F)).bufs ⊆ S5 := show ({c'} : Finset (DevRef τ sig)) ⊆ S5 by decide
theorem hS2 : (op2 (F := F)).bufs ⊆ S5 := show ({c', v1'} : Finset (DevRef τ sig)) ⊆ S5 by decide
theorem hS3 : (op3 (F := F)).bufs ⊆ S5 := show ({mw', v1', v2'} : Finset (DevRef τ sig)) ⊆ S5 by decide
theorem hS4 : (op4 (F := F)).bufs ⊆ S5 := show ({v2', v3'} : Finset (DevRef τ sig)) ⊆ S5 by decide

/-- The valuations after each of the four host operations. -/
abbrev W1 (d : Dev nD) : Valuation τ sig (Elt F) := (op1 (F := F)).result (V1 m d)
abbrev W2 (d : Dev nD) : Valuation τ sig (Elt F) := (op2 (F := F)).result (W1 m d)
abbrev W3 (d : Dev nD) : Valuation τ sig (Elt F) := (op3 (F := F)).result (W2 m d)
abbrev V5 (d : Dev nD) : Valuation τ sig (Elt F) := (op4 (F := F)).result (W3 m d)

/-- After them the mask's bits are (3072 ≤ t): the words compared against a broadcast zero. -/
theorem V5_v3 (d : Dev nD) : V5 m d v3' = ((fun i => Cert.Spec.maskBit i) : Buf (Elt F) (mbLoc d)) := by
  have e4 : V5 m d v3' = id (W3 m d v2') := StableHlo.unary_result _ _ _ _ _ _
  have e3 : W3 m d v2' = cmpi .ne (W2 m d mw') (W2 m d v1') := StableHlo.binary_result _ _ _ _ _ _ _ _
  have e2m : W2 m d mw' = W1 m d mw' := (op2 (F := F)).result_of_not_mem _ (b := mw') (show mw' ∉ ({v1'} : Finset (DevRef τ sig)) by decide)
  have e1m : W1 m d mw' = V1 m d mw' := (op1 (F := F)).result_of_not_mem _ (b := mw') (show mw' ∉ ({c'} : Finset (DevRef τ sig)) by decide)
  have e2 : W2 m d v1' = broadcastInDim S4x4096 ![] bcast_S_S4x4096 (W1 m d c') := StableHlo.unary_result _ _ _ _ _ _
  have e1 : W1 m d c' = constantI S_ 32 0#32 := StableHlo.nullary_result _ _ _ _
  rw [e4, e3, e2m, e1m, e2, e1, V1_mw]
  exact maskBits_eq

omit [FloatOps F] in
/-- The five buffers, the mask's words at what the region wrote and the others at the launch contents, as \`held\`. -/
theorem held_V1 (d : Dev nD) :
    iprop((mwLoc d ↦{fullShare} (maskWord : Buf (Elt F) (mwLoc d))) ∗ ((SparseCore.T d).loc main_c ↦{fullShare} m ((SparseCore.T d).loc main_c))
        ∗ ((SparseCore.T d).loc main_v1 ↦{fullShare} m ((SparseCore.T d).loc main_v1))
        ∗ ((SparseCore.T d).loc main_v2 ↦{fullShare} m ((SparseCore.T d).loc main_v2)) ∗ (mbLoc d ↦{fullShare} m (mbLoc d)))
      ⊢ (held (T d) S5 (V1 m d) : sProp 𝕄) := by
  rw [held_S5, V1_mw, V1_c, V1_v1, V1_v2, V1_v3]
  exact BI.Entails.refl _

/-- What @main leaves the claim: the input unchanged, the visible part, the masked part, the mask's bits. -/
abbrev FIN (d : Dev nD) : sProp 𝕄 :=
  iprop((xLoc d ↦{fullShare} m (xLoc d)) ∗ (visLoc d ↦{fullShare} (visOf (m (xLoc d)) : Buf (Elt F) (visLoc d)))
    ∗ (outLoc d ↦{fullShare} (outOf (m (xLoc d)) : Buf (Elt F) (outLoc d)))
    ∗ (mbLoc d ↦{fullShare} ((fun i => Cert.Spec.maskBit i) : Buf (Elt F) (mbLoc d))))

/-- The region with its continuation: the form @main's proof applies. -/
theorem region_wp_k (d : Dev nD) {Φ : PUnit → sProp 𝕄} :
    iprop(levAts (K (F := F)).L (K (F := F)).lev ∗ (K (F := F)).tcSt EH d 0 ∗ boundary (SparseCore.T d)
        ∗ (xLoc d ↦{fullShare} m (xLoc d)) ∗ (visLoc d ↦{fullShare} m (visLoc d)) ∗ (mwLoc d ↦{fullShare} m (mwLoc d))
        ∗ pipeG d
        ∗ (((K (F := F)).tcSt EH d 0 ∗ boundary (SparseCore.T d)
            ∗ (xLoc d ↦{fullShare} m (xLoc d))
            ∗ (visLoc d ↦{fullShare} (visOf (m (xLoc d)) : Buf (Elt F) (visLoc d)))
            ∗ (mwLoc d ↦{fullShare} (maskWord : Buf (Elt F) (mwLoc d)))) -∗ Φ ⟨⟩))
      ⊢ wp frame (wpE ((K (F := F)).defs (D (F := F))) 𝒱 (SparseCore.T d) none) Set.univ
          (Prog.lift (.customCall (SparseCore.inner (Pipeline.entry 0)) ())) Φ := by
  iintro ⟨Hlev, Hst, Hb, Hx, Hvis, Hmw, HG, Hk⟩
  iapply (wp_wand_r frame _ Set.univ)
  isplitl [Hlev Hst Hb Hx Hvis Hmw HG]
  · iapply (region_wp m d (K (F := F)).lev (by sl_refines_lev))
    isplitl [Hlev]; · iexact Hlev
    isplitl [Hst]; · iexact Hst
    isplitl [Hb]; · iexact Hb
    isplitl [Hx]; · iexact Hx
    isplitl [Hvis]; · iexact Hvis
    isplitl [Hmw]; · iexact Hmw
    iexact HG
  · iintro %u H
    iapply Hk; iexact H

theorem hmain (κ : GSem nD τ sig → ℕ) (d : Dev nD) :
    iprop((K (F := F)).ctx EH (P m) κ ∗ (K (F := F)).tcSt EH d 0 ∗ (K (F := F)).tcRes m ρ d ∗ pipeG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hvis, Hmw, Hc, Hv1, Hv2, Hv3, Hv4⟩, -, -⟩, HG⟩
  ihave Hlev := ((K (F := F)).ctx_levAts κ) $$ Hctx
  -- the region: the visible part and the mask's words
  iapply (region_wp_k m d) $$ [Hlev Hst Hb Hx Hvis Hmw HG Hc Hv1 Hv2 Hv3 Hv4]
  isplitl [Hlev]; · iexact Hlev
  isplitl [Hst]; · iexact Hst
  isplitl [Hb]; · iexact Hb
  isplitl [Hx]; · iexact Hx
  isplitl [Hvis]; · iexact Hvis
  isplitl [Hmw]; · iexact Hmw
  isplitl [HG]; · iexact HG
  iintro ⟨Hst, Hb, Hx, Hvis, Hmw⟩
  -- the four host operations: a zero, its broadcast, words ≠ zero, the conversion
  ihave Hheld := (held_V1 m d) $$ [Hmw Hc Hv1 Hv2 Hv3]
  · isplitl [Hmw]; · iexact Hmw
    isplitl [Hc]; · iexact Hc
    isplitl [Hv1]; · iexact Hv1
    isplitl [Hv2]; · iexact Hv2
    iexact Hv3
  iapply (wp_hlo_within 𝒱 (SparseCore.T d) none Set.univ (op := op1) (S := S5) hS1 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S5) hS2 (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S5) hS3 (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S5) hS4 (V := W3 m d)) $$ [Hb Hheld]
  · isplitl [Hb]; · iexact Hb
    iexact Hheld
  iintro ⟨Hb, Hheld⟩
  rw [wp_ret]; imodintro
  ihave Hh := (Entails.of_eq (held_S5 (F := F) d (V5 m d))) $$ Hheld
  icases Hh with ⟨-, -, -, -, Hmb⟩
  rw [V5_v3]
  -- the SparseCore call: the input's rows t ≥ 3072 and the masked output go out in chunks, and come back
  ihave Hx' := (Entails.of_eq (x_split (F := F) d (m (xLoc d)))) $$ Hx
  icases Hx' with ⟨Hxlo, Hxhi⟩
  iapply ((K (F := F)).wp_run (D (F := F)) 𝒱 (EH := EH) (P := P m) κ d 0) $$ [Hst Hxhi Hv4 Hxlo Hvis Hmb Hb]
  isplitr; · iexact Hctx
  isplitl [Hst]; · iexact Hst
  isplitl [Hxhi Hv4]
  · iapply (st0_intro m d (m (outLoc d)))
    isplitl [Hxhi]; · iexact Hxhi
    iexact Hv4
  iintro ⟨Hst, Hdn⟩
  ihave Hdn' := (dn0_elim m d) $$ Hdn
  icases Hdn' with ⟨Hxhi, Hout⟩
  imodintro
  isplitl [Hst]; · iexact Hst
  isplitl [Hxlo Hxhi]
  · iapply (Entails.of_eq (x_split (F := F) d (m (xLoc d))).symm)
    isplitl [Hxlo]; · iexact Hxlo
    iexact Hxhi
  isplitl [Hvis]; · iexact Hvis
  isplitl [Hout]; · iexact Hout
  iexact Hmb

/-! ## The final memory reads the claim -/

/-- What the claim says of device \`d\`'s final memory. -/
def fq (d : Dev nD) (s' : Phys nD τ sig (Elt F)) : Prop :=
  s'.mem.mem (visLoc d) = (visOf (m (xLoc d)) : Buf (Elt F) (visLoc d))
  ∧ s'.mem.mem (outLoc d) = (outOf (m (xLoc d)) : Buf (Elt F) (outLoc d))
  ∧ s'.mem.mem (mbLoc d) = ((fun i => Cert.Spec.maskBit i) : Buf (Elt F) (mbLoc d))
  ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hvis, Hout, Hmb⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := visLoc d) (I := Finset.univ) (q := fullShare)
      (f := (visOf (m (xLoc d)) : Buf (Elt F) (visLoc d))))) $$ [HSI Hvis]
  · isplitl [HSI] <;> iassumption
  icases H with ⟨%h2, HSI, -⟩
  ihave H := (persistent_entails_right (SI_pointsTo_agree (st := s') (ℓ := outLoc d) (I := Finset.univ) (q := fullShare)
      (f := (outOf (m (xLoc d)) : Buf (Elt F) (outLoc d))))) $$ [HSI Hout]
  · isplitl [HSI] <;> iassumption
  icases H with ⟨%h3, HSI, -⟩
  ihave H := (SI_pointsTo_agree (st := s') (ℓ := mbLoc d) (I := Finset.univ) (q := fullShare)
      (f := ((fun i => Cert.Spec.maskBit i) : Buf (Elt F) (mbLoc d)))) $$ [HSI Hmb]
  · isplitl [HSI] <;> iassumption
  icases H with %h4
  ipureintro
  exact ⟨funext fun i => h2 i (Finset.mem_univ i), funext fun i => h3 i (Finset.mem_univ i), funext fun i => h4 i (Finset.mem_univ i),
    funext fun i => h1 i (Finset.mem_univ i)⟩

/-! ## The program's run -/

/-- On every device: the visible part, the masked part and the mask's bits at their functions of the input, the input
    unchanged. -/
def QC : PUnit × MemSt nD τ sig (Elt F) → Prop := fun r => ∀ c : Dev nD,
  r.2.mem (visLoc c) = (visOf (m (xLoc c)) : Buf (Elt F) (visLoc c))
  ∧ r.2.mem (outLoc c) = (outOf (m (xLoc c)) : Buf (Elt F) (outLoc c))
  ∧ r.2.mem (mbLoc c) = ((fun i => Cert.Spec.maskBit i) : Buf (Elt F) (mbLoc c))
  ∧ r.2.mem (xLoc c) = m (xLoc c)

/-- Every weakly fair execution of the device's threads — the TensorCore's @main, the sequencers, the thirty-two vector
    subcores — terminates, nothing faulting, with the three results at their functions of the input and the input
    unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => pipeG d) (FIN m) (u₀ (F := F)) (sep_elim_left.trans (hu₀ m)) (hmain m ρ) (fq m) (hfin m) (QC m) (fun _ h => h)

end Cert.Kernel.Hand

end
-- ==== Proof.LibSortedStable.lean ====
/-
  The stable sort of a list that is already in order is the list itself.

  The stable insertion sort puts an element before the first already placed element that sorts strictly before it.
  If no later element of a list sorts strictly before an earlier one, every insertion happens at the head, so the
  sort leaves the list as it is. For the positions of a fiber this says the sorting permutation is the identity,
  and a two-operand sort along an axis whose fibers are already in order returns its operands unchanged: an
  argsort of keys that are already non-decreasing returns the iota it carries.
-/
import Idealize.ShloMosaic.PureOps
import Idealize.ShloMosaic.Lib.SortFacts

namespace Idealize.ShloMosaic.SortedStable

open Idealize.ShloMosaic

/-- Inserting an element that nothing at the head of the list sorts strictly before puts it at the head. -/
theorem insertBefore_of_head {ι : Type} (before : ι → ι → Bool) (a : ι) (l : List ι)
    (h : ∀ b ∈ l.head?, before b a = false) : insertBefore before a l = a :: l := by
  cases l with
  | nil => rfl
  | cons b l =>
    unfold insertBefore
    rw [if_neg (by rw [h b (by simp)]; decide)]

/-- A list in which no later element sorts strictly before an earlier one is its own stable sort. -/
theorem stableSort_eq_self {ι : Type} (before : ι → ι → Bool) (l : List ι)
    (h : l.Pairwise fun a b => before b a = false) : stableSort before l = l := by
  induction l with
  | nil => rfl
  | cons a l ih =>
    rw [List.pairwise_cons] at h
    unfold stableSort
    rw [ih h.2]
    refine insertBefore_of_head before a l fun b hb => h.1 b ?_
    cases l with
    | nil => simp at hb
    | cons c l => simp at hb; subst hb; exact List.mem_cons_self

/-- When no later position sorts strictly before an earlier one, the sorted positions are the positions in order. -/
theorem sortPositions_eq_finRange {n : Nat} (before : Fin n → Fin n → Bool)
    (h : ∀ i j : Fin n, i < j → before j i = false) : sortPositions n before = List.finRange n := by
  unfold sortPositions
  refine stableSort_eq_self before _ ?_
  exact (List.pairwise_lt_finRange n).imp fun {a b} hab => h a b hab

/-- … and the sorting permutation is the identity. -/
theorem sortedFrom_eq_self {n : Nat} (before : Fin n → Fin n → Bool)
    (h : ∀ i j : Fin n, i < j → before j i = false) (k : Fin n) : sortedFrom before k = k := by
  unfold sortedFrom
  rw [List.get_of_eq (sortPositions_eq_finRange before h)]
  simp

/-- A two-operand stable sort along an axis on which every fiber is already in order (no later entry sorts strictly
    before an earlier one) returns both operands unchanged. -/
theorem sort2_eq_self (s : Shape) (d : Nat) (hd : d < s.rank) {α β : Type} (cmp : α × β → α × β → BitVec 1)
    (x : s.Idx → α) (y : s.Idx → β)
    (h : ∀ (j : s.Idx) (k k' : Fin (s.size ⟨d, hd⟩)), k < k' →
      (cmp (x (j.along ⟨d, hd⟩ k'), y (j.along ⟨d, hd⟩ k')) (x (j.along ⟨d, hd⟩ k), y (j.along ⟨d, hd⟩ k)) == 1#1) = false) :
    Host.sort2 s d cmp x y = (x, y) := by
  unfold Host.sort2
  rw [dif_pos hd]
  have hself : ∀ j : s.Idx, j.along ⟨d, hd⟩ (j ⟨d, hd⟩) = j := fun j => Function.update_eq_self _ _
  refine Prod.ext ?_ ?_
  · funext j
    show x (j.along ⟨d, hd⟩ (sortedFrom _ (j ⟨d, hd⟩))) = x j
    rw [sortedFrom_eq_self _ (fun i i' hi => h j i i' hi), hself]
  · funext j
    show y (j.along ⟨d, hd⟩ (sortedFrom _ (j ⟨d, hd⟩))) = y j
    rw [sortedFrom_eq_self _ (fun i i' hi => h j i i' hi), hself]

end Idealize.ShloMosaic.SortedStable
-- ==== Proof.LibScatterSet.lean ====
/-
  A scatter that overwrites with one constant, read at an index.

  A scatter whose body returns the update, applied to updates that all hold one value c, leaves c at every operand
  index that some update lands on and the operand's own element everywhere else: the order in which the updates
  are taken does not matter, because they all write the same value.
-/
import Idealize.ShloMosaic.PureOps

namespace Idealize.ShloMosaic.ScatterSet

open Idealize.ShloMosaic

open Classical in
/-- A scatter whose body returns the update, with every update equal to c, read at an operand index: c where some
    update index lands, the operand elsewhere. -/
theorem scatter_const_apply {s si u : Shape} {α : Type} {w : Nat} (d : ScatterDims s si u) (x : s.Idx → α)
    (idx : IVec si w) (c : α) (i' : s.Idx) :
    Host.scatter d (fun _ b => b) x idx (fun _ => c) i' = if ∃ j : u.Idx, d.resultIdx? j idx = some i' then c else x i' := by
  have this : (∃ n ∈ List.finRange u.numel, d.resultIdx? (u.rowMajor.symm n) idx = some i')
      ↔ ∃ j : u.Idx, d.resultIdx? j idx = some i' := by
    constructor
    · rintro ⟨n, _, e⟩; exact ⟨_, e⟩
    · rintro ⟨j, e⟩; exact ⟨u.rowMajor j, List.mem_finRange _, by rw [Equiv.symm_apply_apply]; exact e⟩
  have e : (if ∃ j : u.Idx, d.resultIdx? j idx = some i' then c else x i')
      = if ∃ n ∈ List.finRange u.numel, d.resultIdx? (u.rowMajor.symm n) idx = some i' then c else x i' := by
    simp only [this]
  rw [e]
  clear e this
  unfold Host.scatter
  generalize List.finRange u.numel = l
  induction l generalizing x with
  | nil => simp
  | cons n l ih =>
    rw [List.foldl_cons, ih]
    by_cases hl : ∃ m ∈ l, d.resultIdx? (u.rowMajor.symm m) idx = some i'
    · rw [if_pos hl, if_pos (by obtain ⟨m, hm, e⟩ := hl; exact ⟨m, List.mem_cons_of_mem _ hm, e⟩)]
    · rw [if_neg hl]
      cases hn : d.resultIdx? (u.rowMajor.symm n) idx with
      | none =>
        have hno : ¬ ∃ m ∈ n :: l, d.resultIdx? (u.rowMajor.symm m) idx = some i' := by
          rintro ⟨m, hm, e⟩
          rcases List.mem_cons.mp hm with rfl | hm'
          · rw [hn] at e; cases e
          · exact hl ⟨m, hm', e⟩
        rw [if_neg hno]
      | some i =>
        show (if i' = i then c else x i') = _
        by_cases hi : i' = i
        · rw [if_pos hi, if_pos ⟨n, List.mem_cons_self, by rw [hn, hi]⟩]
        · have hno : ¬ ∃ m ∈ n :: l, d.resultIdx? (u.rowMajor.symm m) idx = some i' := by
            rintro ⟨m, hm, e⟩
            rcases List.mem_cons.mp hm with rfl | hm'
            · rw [hn] at e; exact hi (Option.some.inj e).symm
            · exact hl ⟨m, hm', e⟩
          rw [if_neg hi, if_neg hno]

open Classical in
/-- The same for updates given as any array all of whose elements are c. -/
theorem scatter_const_apply' {s si u : Shape} {α : Type} {w : Nat} (d : ScatterDims s si u) (x : s.Idx → α)
    (idx : IVec si w) (upd : u.Idx → α) (c : α) (hupd : ∀ j, upd j = c) (i' : s.Idx) :
    Host.scatter d (fun _ b => b) x idx upd i' = if ∃ j : u.Idx, d.resultIdx? j idx = some i' then c else x i' := by
  obtain rfl : upd = fun _ => c := funext hupd
  exact scatter_const_apply d x idx c i'

end Idealize.ShloMosaic.ScatterSet
-- ==== Proof.LibScatterPoint.lean ====
/-
  A scatter of single elements into a rank-2 array: where an update lands.

  For an operand of shape [N0, N1], scatter indices of shape [M, K, 2] and updates of shape [M, K], with both operand
  axes inserted window axes addressed by the two components of the index vector, update (m, k) lands at the operand
  index (idx[m, k, 0], idx[m, k, 1]), both read signed, when that is inside the operand.
-/
import Idealize.ShloMosaic.PureOps
import Idealize.ShloMosaic.Lib.ValueIdx

namespace Idealize.ShloMosaic.ScatterPoint

open Idealize.ShloMosaic Idealize.ShloMosaic.ValueIdx

/-- The dimension numbers of that scatter; their conditions are decided on a program's literal shapes. -/
abbrev pointDims (N0 N1 M K : Nat)
    (wf : ScatterDims.WF ⟨2, ![N0, N1]⟩ ⟨3, ![M, K, 2]⟩ ⟨2, ![M, K]⟩ [] [0, 1] [0, 1] 2) :
    ScatterDims ⟨2, ![N0, N1]⟩ ⟨3, ![M, K, 2]⟩ ⟨2, ![M, K]⟩ where
  updateWindowDims := []
  insertedWindowDims := [0, 1]
  scatterDimsToOperandDims := [0, 1]
  indexVectorDim := 2
  wf := wf

private theorem mem_0 : (0 : Fin 2) ∈ [(0 : Fin 2), 1] := by decide
private theorem mem_1 : (1 : Fin 2) ∈ [(0 : Fin 2), 1] := by decide

section
variable {N0 N1 M K w : Nat} (wf : ScatterDims.WF ⟨2, ![N0, N1]⟩ ⟨3, ![M, K, 2]⟩ ⟨2, ![M, K]⟩ [] [0, 1] [0, 1] 2)
  (idx : IVec ⟨3, ![M, K, 2]⟩ w) (m : Fin M) (k : Fin K)

/-- No operand axis carries a window coordinate: both are inserted. -/
theorem window_eq_zero (a : Fin 2) : (pointDims N0 N1 M K wf).window (ix2 m k) a = 0 := by
  unfold ScatterDims.window
  rw [dif_neg]
  show a ∉ (⟨2, ![N0, N1]⟩ : Shape).kept [0, 1]
  unfold Shape.kept
  intro h
  have h2 := (List.mem_filter.mp h).2
  match a with
  | ⟨0, _⟩ => simp at h2
  | ⟨1, _⟩ => simp at h2

/-- The start on the first operand axis is the first component of the index vector, read signed. -/
theorem start0 : (pointDims N0 N1 M K wf).start (ix2 m k) idx (0 : Fin 2) = (idx (ix3 m k (0 : Fin 2))).toInt := by
  have hm : (0 : Fin 2) ∈ (pointDims N0 N1 M K wf).scatterDimsToOperandDims := mem_0
  unfold ScatterDims.start
  rw [dif_pos hm]
  have hsi : (pointDims N0 N1 M K wf).siIdx (ix2 m k)
      ⟨List.idxOf (0 : Fin 2) (pointDims N0 N1 M K wf).scatterDimsToOperandDims, List.idxOf_lt_length_iff.2 hm⟩
        = ix3 m k (0 : Fin 2) := by
    funext c; refine Fin.ext ?_
    match c with
    | ⟨0, _⟩ => rfl
    | ⟨1, _⟩ => rfl
    | ⟨2, _⟩ => rfl
  rw [hsi]

/-- The start on the second operand axis is the second component of the index vector, read signed. -/
theorem start1 : (pointDims N0 N1 M K wf).start (ix2 m k) idx (1 : Fin 2) = (idx (ix3 m k (1 : Fin 2))).toInt := by
  have hm : (1 : Fin 2) ∈ (pointDims N0 N1 M K wf).scatterDimsToOperandDims := mem_1
  unfold ScatterDims.start
  rw [dif_pos hm]
  have hsi : (pointDims N0 N1 M K wf).siIdx (ix2 m k)
      ⟨List.idxOf (1 : Fin 2) (pointDims N0 N1 M K wf).scatterDimsToOperandDims, List.idxOf_lt_length_iff.2 hm⟩
        = ix3 m k (1 : Fin 2) := by
    funext c; refine Fin.ext ?_
    match c with
    | ⟨0, _⟩ => rfl
    | ⟨1, _⟩ => rfl
    | ⟨2, _⟩ => rfl
  rw [hsi]

/-- Update (m, k) lands at (a0, a1) when the two components of its index vector read a0 and a1. -/
theorem resultIdx?_eq_some (a0 : Fin N0) (a1 : Fin N1)
    (h0 : (idx (ix3 m k (0 : Fin 2))).toInt = (a0.val : Int)) (h1 : (idx (ix3 m k (1 : Fin 2))).toInt = (a1.val : Int)) :
    (pointDims N0 N1 M K wf).resultIdx? (ix2 m k) idx = some (ix2 a0 a1) := by
  have hs0 : (pointDims N0 N1 M K wf).start (ix2 m k) idx (0 : Fin 2)
      + ((pointDims N0 N1 M K wf).window (ix2 m k) (0 : Fin 2) : Int) = (a0.val : Int) := by
    rw [start0, window_eq_zero, h0]; simp
  have hs1 : (pointDims N0 N1 M K wf).start (ix2 m k) idx (1 : Fin 2)
      + ((pointDims N0 N1 M K wf).window (ix2 m k) (1 : Fin 2) : Int) = (a1.val : Int) := by
    rw [start1, window_eq_zero, h1]; simp
  have hs : ∀ a : Fin 2, (pointDims N0 N1 M K wf).start (ix2 m k) idx a
      + ((pointDims N0 N1 M K wf).window (ix2 m k) a : Int) = ((ix2 a0 a1 a).val : Int) := by
    intro a
    match a with
    | ⟨0, _⟩ => exact hs0
    | ⟨1, _⟩ => exact hs1
  unfold ScatterDims.resultIdx?
  rw [dif_pos (fun a => by
    rw [hs a]
    exact ⟨Int.natCast_nonneg _, by exact_mod_cast (ix2 a0 a1 a).isLt⟩)]
  congr 1
  funext a
  refine Fin.ext ?_
  show ((pointDims N0 N1 M K wf).start (ix2 m k) idx a + ((pointDims N0 N1 M K wf).window (ix2 m k) a : Int)).toNat = _
  rw [hs a]
  simp

end

end Idealize.ShloMosaic.ScatterPoint
-- ==== Proof.LibGatherAlong.lean ====
/-
  A gather that takes along the middle axis of a rank-3 array, read at an index.

  For an operand x of shape [N0, N1, N2] and start indices idx of shape [N0, R, 1], the gather with the first axis a
  batching axis of both, the middle axis of the operand collapsed and addressed by the one start-index component,
  and the last axis an offset axis of full extent, reads at result index (b, r, f) the operand at
  (b, idx[b, r, 0] read signed and clamped into [0, N1 - 1], f).
-/
import Idealize.ShloMosaic.PureOps
import Idealize.ShloMosaic.Lib.ValueIdx

namespace Idealize.ShloMosaic.GatherAlong

open Idealize.ShloMosaic Idealize.ShloMosaic.ValueIdx

variable {α : Type}

/-- The dimension numbers of that gather; their conditions are decided on a program's literal shapes. -/
abbrev alongDims (N0 N1 N2 R : Nat)
    (wf : GatherDims.WF ⟨3, ![N0, N1, N2]⟩ ⟨3, ![N0, R, 1]⟩ ⟨3, ![N0, R, N2]⟩ [2] [1] [0] [1] [0] 2 ![1, 1, N2]) :
    GatherDims ⟨3, ![N0, N1, N2]⟩ ⟨3, ![N0, R, 1]⟩ ⟨3, ![N0, R, N2]⟩ where
  offsetDims := [2]
  collapsedSliceDims := [1]
  operandBatchingDims := [0]
  startIndicesBatchingDims := [0]
  startIndexMap := [1]
  indexVectorDim := 2
  sliceSizes := ![1, 1, N2]
  wf := wf

private theorem not_mem_1_0 : (1 : Fin 3) ∉ [(0 : Fin 3)] := by decide
private theorem not_mem_2_1 : (2 : Fin 3) ∉ [(1 : Fin 3)] := by decide
private theorem not_mem_2_0 : (2 : Fin 3) ∉ [(0 : Fin 3)] := by decide

section
variable {N0 N1 N2 R w : Nat}
  (wf : GatherDims.WF ⟨3, ![N0, N1, N2]⟩ ⟨3, ![N0, R, 1]⟩ ⟨3, ![N0, R, N2]⟩ [2] [1] [0] [1] [0] 2 ![1, 1, N2])
  (idx : IVec ⟨3, ![N0, R, 1]⟩ w) (b : Fin N0) (r : Fin R) (f : Fin N2)

/-- On the batching axis the operand index is the result's batch coordinate. -/
theorem coord0 :
    (alongDims N0 N1 N2 R wf).start (ix3 b r f) idx (0 : Fin 3) + (alongDims N0 N1 N2 R wf).batchCoord (ix3 b r f) (0 : Fin 3)
      + (alongDims N0 N1 N2 R wf).offCoord (ix3 b r f) (0 : Fin 3) = b.val := by
  have hm : (0 : Fin 3) ∈ (alongDims N0 N1 N2 R wf).operandBatchingDims := List.mem_singleton.mpr rfl
  rw [GatherDims.start_batching _ _ _ _ hm,
    GatherDims.offCoord_eq_zero _ _ _ (fun h => ((GatherDims.mem_sKept _ _).mp h).2 hm)]
  unfold GatherDims.batchCoord
  rw [dif_pos hm]
  first | rfl | (simp only [Nat.zero_add, Nat.add_zero]; rfl)

/-- On the collapsed axis the operand index is the start index, read signed and clamped. -/
theorem coord1 :
    (alongDims N0 N1 N2 R wf).start (ix3 b r f) idx (1 : Fin 3) + (alongDims N0 N1 N2 R wf).batchCoord (ix3 b r f) (1 : Fin 3)
      + (alongDims N0 N1 N2 R wf).offCoord (ix3 b r f) (1 : Fin 3) = min (idx (ix3 b r (0 : Fin 1))).toInt.toNat (N1 - 1) := by
  have hm : (1 : Fin 3) ∈ (alongDims N0 N1 N2 R wf).startIndexMap := List.mem_singleton.mpr rfl
  have hc : (1 : Fin 3) ∈ (alongDims N0 N1 N2 R wf).collapsedSliceDims := List.mem_singleton.mpr rfl
  have hb : (1 : Fin 3) ∉ (alongDims N0 N1 N2 R wf).operandBatchingDims := not_mem_1_0
  rw [GatherDims.batchCoord_eq_zero _ _ _ hb,
    GatherDims.offCoord_eq_zero _ _ _ (fun h => ((GatherDims.mem_sKept _ _).mp h).1 hc)]
  unfold GatherDims.start
  rw [dif_pos hm]
  have hsi : (alongDims N0 N1 N2 R wf).siIdx (ix3 b r f)
      ⟨List.idxOf (1 : Fin 3) (alongDims N0 N1 N2 R wf).startIndexMap, List.idxOf_lt_length_iff.2 hm⟩
        = ix3 b r (0 : Fin 1) := by
    funext c; refine Fin.ext ?_
    match c with
    | ⟨0, _⟩ => rfl
    | ⟨1, _⟩ => rfl
    | ⟨2, _⟩ => rfl
  rw [hsi]
  first | rfl | (simp only [Nat.zero_add, Nat.add_zero]; rfl)

/-- On the offset axis the operand index is the result's offset coordinate. -/
theorem coord2 :
    (alongDims N0 N1 N2 R wf).start (ix3 b r f) idx (2 : Fin 3) + (alongDims N0 N1 N2 R wf).batchCoord (ix3 b r f) (2 : Fin 3)
      + (alongDims N0 N1 N2 R wf).offCoord (ix3 b r f) (2 : Fin 3) = f.val := by
  have hm : (2 : Fin 3) ∉ (alongDims N0 N1 N2 R wf).startIndexMap := not_mem_2_1
  have hc : (2 : Fin 3) ∉ (alongDims N0 N1 N2 R wf).collapsedSliceDims := not_mem_2_1
  have hb : (2 : Fin 3) ∉ (alongDims N0 N1 N2 R wf).operandBatchingDims := not_mem_2_0
  rw [GatherDims.batchCoord_eq_zero _ _ _ hb]
  have hs : (alongDims N0 N1 N2 R wf).start (ix3 b r f) idx (2 : Fin 3) = 0 := by
    unfold GatherDims.start
    rw [dif_neg hm]
  rw [hs]
  unfold GatherDims.offCoord
  rw [dif_pos ((GatherDims.mem_sKept _ _).mpr ⟨hc, hb⟩)]
  first | rfl | (simp only [Nat.zero_add, Nat.add_zero]; rfl)

end

/-- The gather read at (b, r, f): the operand at (b, idx[b, r, 0] read signed and clamped, f). -/
theorem gather_along_apply {N0 N1 N2 R w : Nat} (hN1 : 0 < N1)
    (wf : GatherDims.WF ⟨3, ![N0, N1, N2]⟩ ⟨3, ![N0, R, 1]⟩ ⟨3, ![N0, R, N2]⟩ [2] [1] [0] [1] [0] 2 ![1, 1, N2])
    (x : (⟨3, ![N0, N1, N2]⟩ : Shape).Idx → α) (idx : IVec ⟨3, ![N0, R, 1]⟩ w)
    (b : Fin N0) (r : Fin R) (f : Fin N2) :
    Host.gather (alongDims N0 N1 N2 R wf) x idx (ix3 b r f)
      = x (ix3 b ⟨min (idx (ix3 b r (0 : Fin 1))).toInt.toNat (N1 - 1), by omega⟩ f) := by
  unfold Host.gather
  congr 1
  funext a
  refine Fin.ext ?_
  match a with
  | ⟨0, _⟩ => exact coord0 wf idx b r f
  | ⟨1, _⟩ => exact coord1 wf idx b r f
  | ⟨2, _⟩ => exact coord2 wf idx b r f

end Idealize.ShloMosaic.GatherAlong
-- ==== Proof.LibReduceAnd.lean ====
/-
  A reduction by "and" whose every input bit is 1.

  A reduce of one-bit words by "and" that starts from 1 and meets, among the operand's elements that reduce into a
  result index, only 1s, is 1 at that index.
-/
import Idealize.ShloMosaic.PureOps
import Idealize.ShloMosaic.PureOps.Reduce

namespace Idealize.ShloMosaic.ReduceAnd

open Idealize.ShloMosaic

/-- A left fold by "and" from 1 over a list whose every member gives 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self]
    exact ih fun n hn => h n (List.mem_cons_of_mem _ hn)

/-- A reduce by "and" from an initial value 1 is 1 at a result index all of whose contributing elements are 1. -/
theorem reduce_andi_eq_one_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  have := (List.mem_filter.mp hi).2
  simpa using this

end Idealize.ShloMosaic.ReduceAnd
-- ==== Proof.RefValue.lean ====
import proofs.«216793_g32547262169289_cont_8to1_b_717_18_alg».proof.Proof.RefRunQ
import proofs.«216793_g32547262169289_cont_8to1_b_717_18_alg».proof.Proof.RefReadQ
import proofs.«216793_g32547262169289_cont_8to1_b_717_18_alg».proof.Proof.Spec
import proofs.«216793_g32547262169289_cont_8to1_b_717_18_alg».proof.Proof.LibSortedStable
import proofs.«216793_g32547262169289_cont_8to1_b_717_18_alg».proof.Proof.LibScatterSet
import proofs.«216793_g32547262169289_cont_8to1_b_717_18_alg».proof.Proof.LibScatterPoint
import proofs.«216793_g32547262169289_cont_8to1_b_717_18_alg».proof.Proof.LibGatherAlong
import proofs.«216793_g32547262169289_cont_8to1_b_717_18_alg».proof.Proof.LibReduceAnd
import Idealize.ShloMosaic.Lib.Affine
import Idealize.ShloMosaic.Lib.ValueIdx

/-
  The reference program's three results as plain functions of its input x of shape [4, 4096, 2048].

  The program builds the mask by writing 1 at the positions (b, 3072 + k), k < 1024, of an array of zeros, sorts
  each row of the mask (read as 32-bit integers) stably while carrying the positions 0..4095, and gathers x along
  the time axis at the first 3072 and the last 1024 carried positions. A row of the mask is 3072 zeros followed by
  1024 ones, which is already in order, so the stable sort leaves the positions where they are; the gathers then
  read x at rows r and 3072 + r. All positions are below 4096, so the wrap of negative positions and the in-range
  test around each gather change nothing.
-/

noncomputable section

namespace Cert.RefValue

open Cert.ReferenceIdeal Cert.ReferenceIdeal.ReadQ Idealize.ShloMosaic Idealize.ShloMosaic.ValueIdx

variable {F : FTy → Type} [FloatOps F]

/-! ## Small 32-bit words -/

/-- A natural number below 2^31 reads back from its 32-bit word, signed. -/
theorem toInt_ofNat32 (n : Nat) (h : n < 2147483648) : (BitVec.ofNat 32 n).toInt = (n : Int) := by
  have hn : (BitVec.ofNat 32 n).toNat = n := by rw [BitVec.toNat_ofNat]; omega
  rw [BitVec.toInt_eq_toNat_of_lt (by rw [hn]; omega), hn]

/-- Such a word is not below zero … -/
theorem slt_zero (n : Nat) (h : n < 2147483648) : IntOp.cmpi .slt (BitVec.ofNat 32 n) 0#32 = 0#1 := by
  refine eq_zero_of_ne_one fun e => ?_
  have := IntOp.cmpi_slt.mp e
  rw [toInt_ofNat32 n h, show (0#32 : BitVec 32).toInt = 0 from by decide] at this
  omega

/-- … it is at least zero … -/
theorem sge_zero (n : Nat) (h : n < 2147483648) : IntOp.cmpi .sge (BitVec.ofNat 32 n) 0#32 = 1#1 := by
  refine IntOp.cmpi_sge.mpr ?_
  rw [toInt_ofNat32 n h, show (0#32 : BitVec 32).toInt = 0 from by decide]
  omega

/-- … and at most 4095 when the number is. -/
theorem sle_4095 (n : Nat) (h : n ≤ 4095) : IntOp.cmpi .sle (BitVec.ofNat 32 n) 4095#32 = 1#1 := by
  refine IntOp.cmpi_sle.mpr ?_
  rw [toInt_ofNat32 n (by omega), show (4095#32 : BitVec 32).toInt = 4095 from by decide]
  omega

/-! ## The scatter indices: update (m, k) is written at (m, 3072 + k) -/

/-- The batch index column holds the batch number. -/
theorem v14_at (i : S4x1.Idx) : val_main_v14 (F := F) i = BitVec.ofNat 32 (i 0).val := by
  have h4 : (i 0).val < 4 := (i 0).isLt
  rw [val_main_v14_apply, val_main_v11_apply, val_main_v13_apply, val_main_v9_apply, val_main_v10_apply,
    val_main_v12_apply, val_main_v8_apply, val_main_c_1_apply, val_main_c_2_apply]
  show Scalar.select (IntOp.cmpi .slt (BitVec.ofNat 32 (i 0).val) 0#32) _ (BitVec.ofNat 32 (i 0).val) = _
  rw [slt_zero _ (by omega), select_zero]

/-- The time index array holds 3072 + k at (m, k), before the wrap of negative indices … -/
theorem v6_at (i : S4x1024.Idx) : val_main_v6 (F := F) i = BitVec.ofNat 32 (3072 + (i 1).val) := by
  have h0 : (i 0).val < 4 := (i 0).isLt
  have h1 : (i 1).val < 1024 := (i 1).isLt
  rw [val_main_v6_apply, val_main_v5_apply, val_main_v4_apply, val_main_v3_apply, val_main_v2_apply,
    val_main_v1_apply, val_main_v0_apply, val_main_c_apply]
  show BitVec.ofNat 32 3072
      + BitVec.ofNat 32 ((((0 * 1 + 0) * 1 + 0) * 1024 + ((i 0).val * 1024 + (i 1).val) % 1024) % 1024) = _
  rw [← BitVec.ofNat_add]
  congr 1
  omega

/-- … and after it. -/
theorem v19_at (i : S4x1024.Idx) : val_main_v19 (F := F) i = BitVec.ofNat 32 (3072 + (i 1).val) := by
  have h1 : (i 1).val < 1024 := (i 1).isLt
  rw [val_main_v19_apply, val_main_v16_apply, val_main_v15_apply, val_main_c_3_apply, v6_at,
    slt_zero _ (by omega), select_zero]

/-- The first component of the index vector of update (m, k) is m … -/
theorem v23_at_0 (m : Fin 4) (k : Fin 1024) :
    val_main_v23 (F := F) (ix3 m k (0 : Fin 2)) = BitVec.ofNat 32 m.val := by
  unfold val_main_v23
  rw [concatenate_pair_apply_left (t := S4x1024x2) (s₁ := S4x1024x1) (s₂ := S4x1024x1) (2 : Fin 3) _ _
    Facts₀.concatenates_S4x1024x1_S4x1024x1_S4x1024x2_d2
    (ix3 m k (0 : Fin 2)) rfl (ix3 m k (0 : Fin 1)) (fun b => by
      match b with
      | ⟨0, _⟩ => rfl
      | ⟨1, _⟩ => rfl
      | ⟨2, _⟩ => rfl)]
  rw [val_main_v21_apply, val_main_v20_apply, v14_at]

/-- … and the second is 3072 + k. -/
theorem v23_at_1 (m : Fin 4) (k : Fin 1024) :
    val_main_v23 (F := F) (ix3 m k (1 : Fin 2)) = BitVec.ofNat 32 (3072 + k.val) := by
  unfold val_main_v23
  rw [concatenate_pair_apply_right (t := S4x1024x2) (s₁ := S4x1024x1) (s₂ := S4x1024x1) (2 : Fin 3) _ _
    Facts₀.concatenates_S4x1024x1_S4x1024x1_S4x1024x2_d2
    (ix3 m k (1 : Fin 2)) rfl rfl (ix3 m k (0 : Fin 1)) (fun b hb => by
      match b with
      | ⟨0, _⟩ => rfl
      | ⟨1, _⟩ => rfl
      | ⟨2, _⟩ => exact absurd rfl hb) rfl]
  rw [val_main_v22_apply, v19_at]

/-! ## The mask -/

/-- The row (3072 + k) that update k is written at. -/
def hitRow (k : Fin 1024) : Fin 4096 := ⟨3072 + k.val, by have := k.isLt; omega⟩

/-- Where update (m, k) lands: at (m, 3072 + k). -/
theorem lands (m : Fin 4) (k : Fin 1024) :
    scatter_S4x4096_S4x1024x2_S4x1024_n_01_01_2.resultIdx? (ix2 m k) (val_main_v23 (F := F))
      = some (ix2 m (hitRow k)) := by
  have hk : k.val < 1024 := k.isLt
  have hm : m.val < 4 := m.isLt
  exact ScatterPoint.resultIdx?_eq_some Facts₀.scatter_S4x4096_S4x1024x2_S4x1024_n_01_01_2_wf (val_main_v23 (F := F)) m k m (hitRow k)
    (by rw [v23_at_0, toInt_ofNat32 _ (by omega)])
    (by rw [v23_at_1, toInt_ofNat32 _ (by omega)]; rfl)

/-- The mask is set exactly on the last 1024 time steps. -/
theorem ref_mask (i : Cert.Spec.SM.Idx) : val_main_v25 (F := F) i = Cert.Spec.maskBit i := by
  obtain ⟨b, t, rfl⟩ : ∃ b t, i = ix2 b t := ⟨i 0, i 1, eq_ix2 i⟩
  have ht : t.val < 4096 := t.isLt
  unfold val_main_v25
  rw [ScatterSet.scatter_const_apply' _ _ _ _ (1#1) (fun j => by rw [val_main_v24_apply, val_main_c_5_apply])]
  rw [val_main_v7_apply, val_main_c_0_apply]
  unfold Cert.Spec.maskBit
  show _ = if 3072 ≤ t.val then 1#1 else 0#1
  by_cases h : 3072 ≤ t.val
  · rw [if_pos h, if_pos]
    refine ⟨ix2 b ⟨t.val - 3072, by omega⟩, ?_⟩
    rw [lands]
    congr 2
    exact Fin.ext (by show 3072 + (t.val - 3072) = t.val; omega)
  · rw [if_neg h, if_neg]
    rintro ⟨j, hj⟩
    obtain ⟨m, k, rfl⟩ : ∃ m k, j = ix2 m k := ⟨j 0, j 1, eq_ix2 j⟩
    rw [lands] at hj
    have := congrArg (fun i : S4x4096.Idx => (i 1).val) (Option.some.inj hj)
    have e : 3072 + k.val = t.val := this
    omega

/-! ## The sort leaves the positions in place -/

/-- The sort key at a position: 0 before row 3072, 1 from there on. -/
theorem v26_at (i : S4x4096.Idx) :
    val_main_v26 (F := F) i = if 3072 ≤ (i 1).val then 1#32 else 0#32 := by
  rw [val_main_v26_apply, ref_mask]
  unfold Cert.Spec.maskBit
  split <;> rfl

/-- The carried positions come back unchanged. -/
theorem v27_at (i : S4x4096.Idx) : val_main_v27 (F := F) i = BitVec.ofNat 32 (i 1).val := by
  unfold val_main_v27
  rw [SortedStable.sort2_eq_self S4x4096 1 (by decide) comparator_i32_i32_d1 _ _ (fun j k k' hkk => by
    have e : ∀ q : Fin (S4x4096.size (⟨1, by decide⟩ : Fin 2)),
        ((j.along (⟨1, by decide⟩ : Fin 2) q) (1 : Fin 2)).val = q.val := fun q => by
      unfold Shape.Idx.along
      exact congrArg Fin.val (Function.update_self (f := j) (⟨1, by decide⟩ : Fin 2) q)
    show (IntOp.cmpi .slt (val_main_v26 (F := F) (j.along ⟨1, by decide⟩ k'))
      (val_main_v26 (F := F) (j.along ⟨1, by decide⟩ k)) == 1#1) = false
    rw [v26_at, v26_at, e k', e k]
    have hlt : k.val < k'.val := hkk
    by_cases h1 : 3072 ≤ k.val
    · rw [if_pos h1, if_pos (by omega)]; decide
    · by_cases h2 : 3072 ≤ k'.val
      · rw [if_neg h1, if_pos h2]; decide
      · rw [if_neg h1, if_neg h2]; decide)]
  exact val_main_call0_v0_apply i

/-! ## The visible part -/

/-- The start index of result row (b, r) of the first gather is r, after the wrap of negative indices. -/
theorem call1_v4_at (i : S4x3072x1.Idx) : val_main_call1_v4 (F := F) i = BitVec.ofNat 32 (i 1).val := by
  have h1 : (i 1).val < 3072 := (i 1).isLt
  have h30 : val_main_v30 (F := F) i = BitVec.ofNat 32 (i 1).val := by
    rw [val_main_v30_apply, val_main_v28_apply, v27_at]
  rw [val_main_call1_v4_apply, val_main_call1_v1_apply, val_main_call1_v0_apply, val_main_call1_c_apply, h30,
    slt_zero _ (by omega), select_zero]

/-- Every start index of the first gather passes the in-range test. -/
theorem call1_v11_at (j : S4x3072.Idx) : val_main_call1_v11 (F := F) j = 1#1 := by
  unfold val_main_call1_v11
  refine ReduceAnd.reduce_andi_eq_one_of_all _ _ _ _ j (val_main_call1_c_3_apply _) fun i _ => ?_
  have h1 : (i 1).val < 3072 := (i 1).isLt
  rw [val_main_call1_v10_apply, val_main_call1_v6_apply, val_main_call1_v9_apply, val_main_call1_v5_apply,
    val_main_call1_c_2_apply, val_main_call1_v8_apply, val_main_call1_v7_apply, val_main_call1_c_1_apply,
    call1_v4_at, sge_zero _ (by omega), sle_4095 _ (by omega)]
  rfl

/-- The visible part is x on its first 3072 rows. -/
theorem ref_visible (x0 : (⟨Cert.ReferenceIdeal.S4x4096x2048, .f32⟩ : BufTy).Contents (Elt F)) (i : Cert.Spec.SVis.Idx) :
    val_main_v31 (F := F) x0 i = x0 (Cert.Spec.visIdx i) := by
  obtain ⟨b, r, f, rfl⟩ : ∃ b r f, i = ix3 b r f := ⟨i 0, i 1, i 2, eq_ix3 i⟩
  have hr : r.val < 3072 := r.isLt
  rw [val_main_v31_apply, val_main_call1_v13_apply, call1_v11_at, select_one]
  unfold val_main_call1_v12
  show Host.gather (GatherAlong.alongDims 4 4096 2048 3072 Facts₀.gather_S4x4096x2048_S4x3072x1_S4x3072x2048_2_1_0_0_1_2_112048_wf)
    x0 (val_main_call1_v4 (F := F)) (ix3 b r f) = _
  rw [GatherAlong.gather_along_apply (by decide)]
  refine congrArg x0 ?_
  funext a
  refine Fin.ext ?_
  match a with
  | ⟨0, _⟩ => rfl
  | ⟨1, _⟩ =>
    show min (val_main_call1_v4 (F := F) (ix3 b r (0 : Fin 1))).toInt.toNat (4096 - 1) = r.val
    rw [call1_v4_at, toInt_ofNat32 _ (by show r.val < 2147483648; omega)]
    show min ((r.val : Int)).toNat 4095 = r.val
    rw [Int.toNat_natCast]
    omega
  | ⟨2, _⟩ => rfl

/-! ## The masked part -/

/-- The start index of result row (b, r) of the second gather is 3072 + r, after the wrap of negative indices. -/
theorem call2_v4_at (i : S4x1024x1.Idx) : val_main_call2_v4 (F := F) i = BitVec.ofNat 32 (3072 + (i 1).val) := by
  have h1 : (i 1).val < 1024 := (i 1).isLt
  have h32 : val_main_v32 (F := F) i = BitVec.ofNat 32 (3072 + (i 1).val) := by
    rw [val_main_v32_apply, val_main_v29_apply, v27_at]
  rw [val_main_call2_v4_apply, val_main_call2_v1_apply, val_main_call2_v0_apply, val_main_call2_c_apply, h32,
    slt_zero _ (by omega), select_zero]

/-- Every start index of the second gather passes the in-range test. -/
theorem call2_v11_at (j : S4x1024.Idx) : val_main_call2_v11 (F := F) j = 1#1 := by
  unfold val_main_call2_v11
  refine ReduceAnd.reduce_andi_eq_one_of_all _ _ _ _ j (val_main_call2_c_3_apply _) fun i _ => ?_
  have h1 : (i 1).val < 1024 := (i 1).isLt
  rw [val_main_call2_v10_apply, val_main_call2_v6_apply, val_main_call2_v9_apply, val_main_call2_v5_apply,
    val_main_call2_c_2_apply, val_main_call2_v8_apply, val_main_call2_v7_apply, val_main_call2_c_1_apply,
    call2_v4_at, sge_zero _ (by omega), sle_4095 _ (by omega)]
  rfl

/-- The masked part is x on its last 1024 rows. -/
theorem ref_masked (x0 : (⟨Cert.ReferenceIdeal.S4x4096x2048, .f32⟩ : BufTy).Contents (Elt F)) (i : Cert.Spec.SMsk.Idx) :
    val_main_v33 (F := F) x0 i = x0 (Cert.Spec.mskIdx i) := by
  obtain ⟨b, r, f, rfl⟩ : ∃ b r f, i = ix3 b r f := ⟨i 0, i 1, i 2, eq_ix3 i⟩
  have hr : r.val < 1024 := r.isLt
  rw [val_main_v33_apply, val_main_call2_v13_apply, call2_v11_at, select_one]
  unfold val_main_call2_v12
  show Host.gather (GatherAlong.alongDims 4 4096 2048 1024 Facts₀.gather_S4x4096x2048_S4x1024x1_S4x1024x2048_2_1_0_0_1_2_112048_wf)
    x0 (val_main_call2_v4 (F := F)) (ix3 b r f) = _
  rw [GatherAlong.gather_along_apply (by decide)]
  refine congrArg x0 ?_
  funext a
  refine Fin.ext ?_
  match a with
  | ⟨0, _⟩ => rfl
  | ⟨1, _⟩ =>
    show min (val_main_call2_v4 (F := F) (ix3 b r (0 : Fin 1))).toInt.toNat (4096 - 1) = 3072 + r.val
    rw [call2_v4_at, toInt_ofNat32 _ (by show 3072 + r.val < 2147483648; omega)]
    show min (((3072 + r.val : Nat) : Int)).toNat 4095 = 3072 + r.val
    rw [Int.toNat_natCast]
    omega
  | ⟨2, _⟩ => rfl

end Cert.RefValue
-- ==== Proof.LibRunStages.lean ====
/-
  A straight line of host operations, followed one operation at a time.

  The contents of the buffers after a line of operations is the fold of the operations' results. Instead of
  composing all the results into one term, keep a list of the references written so far, each with the contents it
  is known to hold, and extend it by one entry per operation: an operation reads its operands' contents off the
  list, writes its result reference, which is not yet on the list, and leaves every listed reference as it was.
  What a later reader needs of a buffer is then one entry of the list, and every step compares terms that are one
  operation deep.
-/
import Idealize.ShloMosaic.Lib.StableHlo.Run

namespace Idealize.ShloMosaic.RunStages

open Idealize.ShloMosaic Idealize.ShloMosaic.StableHlo

variable {τ : Topo} {sig : RefSig} {Val : EltTy → Type}

/-- A reference with the contents it is known to hold. -/
abbrev Known (sig : RefSig) (Val : EltTy → Type) : Type := (r : Ref sig .tc) × r.ty.Contents Val

/-- The valuation holds the listed contents at every listed reference; `R` lists (at least) the references. -/
def Agrees (R : List (Ref sig .tc)) (K : List (Known sig Val)) (V : Valuation τ sig Val) : Prop :=
  (∀ p ∈ K, p.1 ∈ R) ∧ ∀ p ∈ K, V (Proc.devRef .tc p.1) = p.2

/-- The contents after the line satisfy `Q`. -/
def Ends (ops : List (HloOp τ sig Val)) (V : Valuation τ sig Val) (Q : Valuation τ sig Val → Prop) : Prop :=
  Q (after ops V)

theorem ends_nil {V : Valuation τ sig Val} {Q : Valuation τ sig Val → Prop} (h : Q V) : Ends [] V Q := h

/-- One entry read off the list. -/
theorem Agrees.read {R : List (Ref sig .tc)} {K : List (Known sig Val)} {V : Valuation τ sig Val} (h : Agrees R K V)
    (r : Ref sig .tc) (v : r.ty.Contents Val) (hm : (⟨r, v⟩ : Known sig Val) ∈ K) : V (Proc.devRef .tc r) = v :=
  h.2 ⟨r, v⟩ hm

/-- The list of one reference at the contents the valuation has there. -/
theorem agrees_single (r : Ref sig .tc) (V : Valuation τ sig Val) :
    Agrees [r] [(⟨r, V (Proc.devRef .tc r)⟩ : Known sig Val)] V :=
  ⟨fun p hp => by rw [List.mem_singleton.mp hp]; exact List.mem_singleton.mpr rfl,
   fun p hp => by rw [List.mem_singleton.mp hp]⟩

/-- An operation that writes `y` only, a reference not yet listed, extends the list by `y` at its result. -/
theorem agrees_cons {R : List (Ref sig .tc)} {K : List (Known sig Val)} {V : Valuation τ sig Val}
    (op : HloOp τ sig Val) (y : Ref sig .tc) (vy : y.ty.Contents Val) (h : Agrees R K V)
    (hne : ∀ r : Ref sig .tc, r ≠ y → op.result V (Proc.devRef .tc r) = V (Proc.devRef .tc r))
    (hy : op.result V (Proc.devRef .tc y) = vy) (hk : y ∉ R) :
    Agrees (y :: R) ((⟨y, vy⟩ : Known sig Val) :: K) (op.result V) := by
  refine ⟨fun p hp => ?_, fun p hp => ?_⟩
  · rcases List.mem_cons.mp hp with rfl | hp'
    · exact List.mem_cons_self
    · exact List.mem_cons_of_mem _ (h.1 p hp')
  · rcases List.mem_cons.mp hp with rfl | hp'
    · exact hy
    · have hpy : p.1 ≠ y := fun e => hk (e ▸ h.1 p hp')
      exact (hne p.1 hpy).trans (h.2 p hp')

section Steps

variable {R : List (Ref sig .tc)} {K : List (Known sig Val)} {V : Valuation τ sig Val}
  {Q : Valuation τ sig Val → Prop} {ops : List (HloOp τ sig Val)}

/-- A step through an operation with no operand. -/
theorem ends_nullary {y : Ref sig .tc} {v : y.ty.Contents Val} {hy} (h : Agrees R K V)
    (vy : y.ty.Contents Val) (hv : v = vy) (hk : y ∉ R)
    (k : ∀ V' : Valuation τ sig Val, Agrees (y :: R) ((⟨y, vy⟩ : Known sig Val) :: K) V' → Ends ops V' Q) :
    Ends (nullary (τ := τ) y v hy :: ops) V Q :=
  k _ (agrees_cons _ y vy h (fun _ hr => nullary_result_ne y v hy V hr) ((nullary_result y v hy V).trans hv) hk)

/-- A step through an operation with one operand. -/
theorem ends_unary {x y : Ref sig .tc} {f : x.ty.Contents Val → y.ty.Contents Val} {hx hy} (h : Agrees R K V)
    {vx : x.ty.Contents Val} (vy : y.ty.Contents Val) (hmx : (⟨x, vx⟩ : Known sig Val) ∈ K) (hv : f vx = vy) (hk : y ∉ R)
    (k : ∀ V' : Valuation τ sig Val, Agrees (y :: R) ((⟨y, vy⟩ : Known sig Val) :: K) V' → Ends ops V' Q) :
    Ends (unary (τ := τ) x y f hx hy :: ops) V Q :=
  k _ (agrees_cons _ y vy h (fun _ hr => unary_result_ne x y f hx hy V hr)
    ((unary_result x y f hx hy V).trans (by rw [h.read x vx hmx]; exact hv)) hk)

/-- A step through an operation with two operands. -/
theorem ends_binary {a b y : Ref sig .tc} {f : a.ty.Contents Val → b.ty.Contents Val → y.ty.Contents Val} {ha hb hy}
    (h : Agrees R K V) {va : a.ty.Contents Val} {vb : b.ty.Contents Val} (vy : y.ty.Contents Val)
    (hma : (⟨a, va⟩ : Known sig Val) ∈ K) (hmb : (⟨b, vb⟩ : Known sig Val) ∈ K) (hv : f va vb = vy) (hk : y ∉ R)
    (k : ∀ V' : Valuation τ sig Val, Agrees (y :: R) ((⟨y, vy⟩ : Known sig Val) :: K) V' → Ends ops V' Q) :
    Ends (binary (τ := τ) a b y f ha hb hy :: ops) V Q :=
  k _ (agrees_cons _ y vy h (fun _ hr => binary_result_ne a b y f ha hb hy V hr)
    ((binary_result a b y f ha hb hy V).trans (by rw [h.read a va hma, h.read b vb hmb]; exact hv)) hk)

/-- A step through an operation with three operands. -/
theorem ends_ternary {c a b y : Ref sig .tc}
    {f : c.ty.Contents Val → a.ty.Contents Val → b.ty.Contents Val → y.ty.Contents Val} {hc ha hb hy}
    (h : Agrees R K V) {vc : c.ty.Contents Val} {va : a.ty.Contents Val} {vb : b.ty.Contents Val} (vy : y.ty.Contents Val)
    (hmc : (⟨c, vc⟩ : Known sig Val) ∈ K) (hma : (⟨a, va⟩ : Known sig Val) ∈ K) (hmb : (⟨b, vb⟩ : Known sig Val) ∈ K)
    (hv : f vc va vb = vy) (hk : y ∉ R)
    (k : ∀ V' : Valuation τ sig Val, Agrees (y :: R) ((⟨y, vy⟩ : Known sig Val) :: K) V' → Ends ops V' Q) :
    Ends (ternary (τ := τ) c a b y f hc ha hb hy :: ops) V Q :=
  k _ (agrees_cons _ y vy h (fun _ hr => ternary_result_ne a b c y f hc ha hb hy V hr)
    ((ternary_result c a b y f hc ha hb hy V).trans
      (by rw [h.read c vc hmc, h.read a va hma, h.read b vb hmb]; exact hv)) hk)

/-- A step through a reshape. -/
theorem ends_reshape {x y : Ref sig .tc} {he : x.ty.elt = y.ty.elt} {hn : x.ty.shape.ShapeCasts y.ty.shape} {hx hy}
    (h : Agrees R K V) {vx : x.ty.Contents Val} (vy : y.ty.Contents Val) (hmx : (⟨x, vx⟩ : Known sig Val) ∈ K)
    (hv : (fun i => he ▸ shapeCast y.ty.shape vx hn i) = vy) (hk : y ∉ R)
    (k : ∀ V' : Valuation τ sig Val, Agrees (y :: R) ((⟨y, vy⟩ : Known sig Val) :: K) V' → Ends ops V' Q) :
    Ends (reshape (τ := τ) (Val := Val) x y he hn hx hy :: ops) V Q :=
  k _ (agrees_cons _ y vy h (fun _ hr => reshape_result_ne x y he hn hx hy V hr)
    ((reshape_result x y he hn hx hy V).trans (by rw [h.read x vx hmx]; exact hv)) hk)

end Steps

/-- Finds an entry in a literal list. -/
macro "stage_mem" : tactic =>
  `(tactic| repeat (first | exact List.mem_cons_self | apply List.mem_cons_of_mem))

end Idealize.ShloMosaic.RunStages
-- ==== Proof.RefRunB.lean ====
import proofs.«216793_g32547262169289_cont_8to1_b_717_18_alg».proof.Proof.RefRunQ
import proofs.«216793_g32547262169289_cont_8to1_b_717_18_alg».proof.Proof.RefReadQ
import proofs.«216793_g32547262169289_cont_8to1_b_717_18_alg».proof.Proof.LibRunStages

/-
  The reference program's run, one operation at a time.

  The program is a line of 85 host operations, each writing a buffer of its own from buffers written before it. Walk
  the line keeping, for every buffer written so far, the stage value it holds: each operation's result is, by
  definition, the next stage applied to the stages of its operands. At the end of the line the three result buffers
  hold their stages as functions of the input, and the input buffer is as it was.
-/

noncomputable section

namespace Cert.ReferenceIdeal.ValueB

open Cert.ReferenceIdeal Cert.ReferenceIdeal.ReadQ Idealize.ShloMosaic Idealize.ShloMosaic.TcCoe Idealize.SL.Sem
  Idealize.ShloMosaic.StableHlo Idealize.ShloMosaic.RunStages

variable {F : FTy → Type} [FloatOps F]

-- Each step below compares one operation applied to its operands' stages with the next stage unfolded once; the
-- stages themselves stay closed, so that no comparison opens more than one operation.
attribute [local irreducible]
  val_main_v0 val_main_c val_main_v1 val_main_v2 val_main_v3 val_main_v4 val_main_v5 val_main_v6
  val_main_c_0 val_main_v7 val_main_v8 val_main_v9 val_main_c_1 val_main_v10 val_main_v11 val_main_c_2
  val_main_v12 val_main_v13 val_main_v14 val_main_c_3 val_main_v15 val_main_v16 val_main_c_4 val_main_v17
  val_main_v18 val_main_v19 val_main_v20 val_main_v21 val_main_v22 val_main_v23 val_main_c_5 val_main_v24
  val_main_v25 val_main_v26 val_main_call0_v0 val_main_call0_v1_0 val_main_v27 val_main_v28 val_main_v29 val_main_v30
  val_main_call1_c val_main_call1_v0 val_main_call1_v1 val_main_call1_c_0 val_main_call1_v2 val_main_call1_v3 val_main_call1_v4 val_main_call1_c_1
  val_main_call1_c_2 val_main_call1_v5 val_main_call1_v6 val_main_call1_v7 val_main_call1_v8 val_main_call1_v9 val_main_call1_v10 val_main_call1_c_3
  val_main_call1_v11 val_main_call1_v12 val_main_call1_v13 val_main_call1_cst val_main_call1_v14 val_main_v31 val_main_v32 val_main_call2_c
  val_main_call2_v0 val_main_call2_v1 val_main_call2_c_0 val_main_call2_v2 val_main_call2_v3 val_main_call2_v4 val_main_call2_c_1 val_main_call2_c_2
  val_main_call2_v5 val_main_call2_v6 val_main_call2_v7 val_main_call2_v8 val_main_call2_v9 val_main_call2_v10 val_main_call2_c_3 val_main_call2_v11
  val_main_call2_v12 val_main_call2_v13 val_main_call2_cst val_main_call2_v14 val_main_v33

set_option maxRecDepth 8192 in
set_option maxHeartbeats 4000000 in
/-- After the 85 operations, from any contents of the buffers, the three results hold their stages of the input's
    contents and the input holds what it held. -/
theorem stages (V : Valuation τ sig (Elt F)) (x0 : (⟨S4x4096x2048, .f32⟩ : BufTy).Contents (Elt F))
    (hx : V (Proc.devRef .tc main_arg0) = x0) :
    Ends (Cert.ReferenceIdeal.ValueQ.ops (F := F)) V (fun W =>
      W (Proc.devRef .tc main_v31) = val_main_v31 (F := F) x0
      ∧ W (Proc.devRef .tc main_v33) = val_main_v33 (F := F) x0
      ∧ W (Proc.devRef .tc main_v25) = val_main_v25 (F := F)
      ∧ W (Proc.devRef .tc main_arg0) = x0) := by
  have h : Agrees [main_arg0] [(⟨main_arg0, x0⟩ : Known sig (Elt F))] V := hx ▸ agrees_single main_arg0 V
  refine ends_nullary h (val_main_v0 (F := F)) (by unfold val_main_v0; rfl) (by decide) (fun V h => ?_)
  refine ends_nullary h (val_main_c (F := F)) (by unfold val_main_c; rfl) (by decide) (fun V h => ?_)
  refine ends_unary h (val_main_v1 (F := F)) (by stage_mem) (by unfold val_main_v1; rfl) (by decide) (fun V h => ?_)
  refine ends_binary h (val_main_v2 (F := F)) (by stage_mem) (by stage_mem) (by unfold val_main_v2; rfl) (by decide) (fun V h => ?_)
  refine ends_unary h (val_main_v3 (F := F)) (by stage_mem) (by unfold val_main_v3; rfl) (by decide) (fun V h => ?_)
  refine ends_reshape h (val_main_v4 (F := F)) (by stage_mem) (by unfold val_main_v4; rfl) (by decide) (fun V h => ?_)
  refine ends_unary h (val_main_v5 (F := F)) (by stage_mem) (by unfold val_main_v5; rfl) (by decide) (fun V h => ?_)
  refine ends_reshape h (val_main_v6 (F := F)) (by stage_mem) (by unfold val_main_v6; rfl) (by decide) (fun V h => ?_)
  refine ends_nullary h (val_main_c_0 (F := F)) (by unfold val_main_c_0; rfl) (by decide) (fun V h => ?_)
  refine ends_unary h (val_main_v7 (F := F)) (by stage_mem) (by unfold val_main_v7; rfl) (by decide) (fun V h => ?_)
  refine ends_nullary h (val_main_v8 (F := F)) (by unfold val_main_v8; rfl) (by decide) (fun V h => ?_)
  refine ends_unary h (val_main_v9 (F := F)) (by stage_mem) (by unfold val_main_v9; rfl) (by decide) (fun V h => ?_)
  refine ends_nullary h (val_main_c_1 (F := F)) (by unfold val_main_c_1; rfl) (by decide) (fun V h => ?_)
  refine ends_unary h (val_main_v10 (F := F)) (by stage_mem) (by unfold val_main_v10; rfl) (by decide) (fun V h => ?_)
  refine ends_binary h (val_main_v11 (F := F)) (by stage_mem) (by stage_mem) (by unfold val_main_v11; rfl) (by decide) (fun V h => ?_)
  refine ends_nullary h (val_main_c_2 (F := F)) (by unfold val_main_c_2; rfl) (by decide) (fun V h => ?_)
  refine ends_unary h (val_main_v12 (F := F)) (by stage_mem) (by unfold val_main_v12; rfl) (by decide) (fun V h => ?_)
  refine ends_binary h (val_main_v13 (F := F)) (by stage_mem) (by stage_mem) (by unfold val_main_v13; rfl) (by decide) (fun V h => ?_)
  refine ends_ternary h (val_main_v14 (F := F)) (by stage_mem) (by stage_mem) (by stage_mem) (by unfold val_main_v14; rfl) (by decide) (fun V h => ?_)
  refine ends_nullary h (val_main_c_3 (F := F)) (by unfold val_main_c_3; rfl) (by decide) (fun V h => ?_)
  refine ends_unary h (val_main_v15 (F := F)) (by stage_mem) (by unfold val_main_v15; rfl) (by decide) (fun V h => ?_)
  refine ends_binary h (val_main_v16 (F := F)) (by stage_mem) (by stage_mem) (by unfold val_main_v16; rfl) (by decide) (fun V h => ?_)
  refine ends_nullary h (val_main_c_4 (F := F)) (by unfold val_main_c_4; rfl) (by decide) (fun V h => ?_)
  refine ends_unary h (val_main_v17 (F := F)) (by stage_mem) (by unfold val_main_v17; rfl) (by decide) (fun V h => ?_)
  refine ends_binary h (val_main_v18 (F := F)) (by stage_mem) (by stage_mem) (by unfold val_main_v18; rfl) (by decide) (fun V h => ?_)
  refine ends_ternary h (val_main_v19 (F := F)) (by stage_mem) (by stage_mem) (by stage_mem) (by unfold val_main_v19; rfl) (by decide) (fun V h => ?_)
  refine ends_unary h (val_main_v20 (F := F)) (by stage_mem) (by unfold val_main_v20; rfl) (by decide) (fun V h => ?_)
  refine ends_unary h (val_main_v21 (F := F)) (by stage_mem) (by unfold val_main_v21; rfl) (by decide) (fun V h => ?_)
  refine ends_unary h (val_main_v22 (F := F)) (by stage_mem) (by unfold val_main_v22; rfl) (by decide) (fun V h => ?_)
  refine ends_binary h (val_main_v23 (F := F)) (by stage_mem) (by stage_mem) (by unfold val_main_v23; rfl) (by decide) (fun V h => ?_)
  refine ends_nullary h (val_main_c_5 (F := F)) (by unfold val_main_c_5; rfl) (by decide) (fun V h => ?_)
  refine ends_unary h (val_main_v24 (F := F)) (by stage_mem) (by unfold val_main_v24; rfl) (by decide) (fun V h => ?_)
  refine ends_ternary h (val_main_v25 (F := F)) (by stage_mem) (by stage_mem) (by stage_mem) (by unfold val_main_v25; rfl) (by decide) (fun V h => ?_)
  refine ends_unary h (val_main_v26 (F := F)) (by stage_mem) (by unfold val_main_v26; rfl) (by decide) (fun V h => ?_)
  refine ends_nullary h (val_main_call0_v0 (F := F)) (by unfold val_main_call0_v0; rfl) (by decide) (fun V h => ?_)
  refine ends_binary h (val_main_call0_v1_0 (F := F)) (by stage_mem) (by stage_mem) (by unfold val_main_call0_v1_0; rfl) (by decide) (fun V h => ?_)
  refine ends_binary h (val_main_v27 (F := F)) (by stage_mem) (by stage_mem) (by unfold val_main_v27; rfl) (by decide) (fun V h => ?_)
  refine ends_unary h (val_main_v28 (F := F)) (by stage_mem) (by unfold val_main_v28; rfl) (by decide) (fun V h => ?_)
  refine ends_unary h (val_main_v29 (F := F)) (by stage_mem) (by unfold val_main_v29; rfl) (by decide) (fun V h => ?_)
  refine ends_unary h (val_main_v30 (F := F)) (by stage_mem) (by unfold val_main_v30; rfl) (by decide) (fun V h => ?_)
  refine ends_nullary h (val_main_call1_c (F := F)) (by unfold val_main_call1_c; rfl) (by decide) (fun V h => ?_)
  refine ends_unary h (val_main_call1_v0 (F := F)) (by stage_mem) (by unfold val_main_call1_v0; rfl) (by decide) (fun V h => ?_)
  refine ends_binary h (val_main_call1_v1 (F := F)) (by stage_mem) (by stage_mem) (by unfold val_main_call1_v1; rfl) (by decide) (fun V h => ?_)
  refine ends_nullary h (val_main_call1_c_0 (F := F)) (by unfold val_main_call1_c_0; rfl) (by decide) (fun V h => ?_)
  refine ends_unary h (val_main_call1_v2 (F := F)) (by stage_mem) (by unfold val_main_call1_v2; rfl) (by decide) (fun V h => ?_)
  refine ends_binary h (val_main_call1_v3 (F := F)) (by stage_mem) (by stage_mem) (by unfold val_main_call1_v3; rfl) (by decide) (fun V h => ?_)
  refine ends_ternary h (val_main_call1_v4 (F := F)) (by stage_mem) (by stage_mem) (by stage_mem) (by unfold val_main_call1_v4; rfl) (by decide) (fun V h => ?_)
  refine ends_nullary h (val_main_call1_c_1 (F := F)) (by unfold val_main_call1_c_1; rfl) (by decide) (fun V h => ?_)
  refine ends_nullary h (val_main_call1_c_2 (F := F)) (by unfold val_main_call1_c_2; rfl) (by decide) (fun V h => ?_)
  refine ends_unary h (val_main_call1_v5 (F := F)) (by stage_mem) (by unfold val_main_call1_v5; rfl) (by decide) (fun V h => ?_)
  refine ends_binary h (val_main_call1_v6 (F := F)) (by stage_mem) (by stage_mem) (by unfold val_main_call1_v6; rfl) (by decide) (fun V h => ?_)
  refine ends_unary h (val_main_call1_v7 (F := F)) (by stage_mem) (by unfold val_main_call1_v7; rfl) (by decide) (fun V h => ?_)
  refine ends_unary h (val_main_call1_v8 (F := F)) (by stage_mem) (by unfold val_main_call1_v8; rfl) (by decide) (fun V h => ?_)
  refine ends_binary h (val_main_call1_v9 (F := F)) (by stage_mem) (by stage_mem) (by unfold val_main_call1_v9; rfl) (by decide) (fun V h => ?_)
  refine ends_binary h (val_main_call1_v10 (F := F)) (by stage_mem) (by stage_mem) (by unfold val_main_call1_v10; rfl) (by decide) (fun V h => ?_)
  refine ends_nullary h (val_main_call1_c_3 (F := F)) (by unfold val_main_call1_c_3; rfl) (by decide) (fun V h => ?_)
  refine ends_binary h (val_main_call1_v11 (F := F)) (by stage_mem) (by stage_mem) (by unfold val_main_call1_v11; simp only [TRef.toBuf, TRef.ofBuf, cast_eq]) (by decide) (fun V h => ?_)
  refine ends_binary h (val_main_call1_v12 (F := F) x0) (by stage_mem) (by stage_mem) (by unfold val_main_call1_v12; rfl) (by decide) (fun V h => ?_)
  refine ends_unary h (val_main_call1_v13 (F := F)) (by stage_mem) (by unfold val_main_call1_v13; rfl) (by decide) (fun V h => ?_)
  refine ends_nullary h (val_main_call1_cst (F := F)) (by unfold val_main_call1_cst; rfl) (by decide) (fun V h => ?_)
  refine ends_unary h (val_main_call1_v14 (F := F)) (by stage_mem) (by unfold val_main_call1_v14; rfl) (by decide) (fun V h => ?_)
  refine ends_ternary h (val_main_v31 (F := F) x0) (by stage_mem) (by stage_mem) (by stage_mem) (by unfold val_main_v31; rfl) (by decide) (fun V h => ?_)
  refine ends_unary h (val_main_v32 (F := F)) (by stage_mem) (by unfold val_main_v32; rfl) (by decide) (fun V h => ?_)
  refine ends_nullary h (val_main_call2_c (F := F)) (by unfold val_main_call2_c; rfl) (by decide) (fun V h => ?_)
  refine ends_unary h (val_main_call2_v0 (F := F)) (by stage_mem) (by unfold val_main_call2_v0; rfl) (by decide) (fun V h => ?_)
  refine ends_binary h (val_main_call2_v1 (F := F)) (by stage_mem) (by stage_mem) (by unfold val_main_call2_v1; rfl) (by decide) (fun V h => ?_)
  refine ends_nullary h (val_main_call2_c_0 (F := F)) (by unfold val_main_call2_c_0; rfl) (by decide) (fun V h => ?_)
  refine ends_unary h (val_main_call2_v2 (F := F)) (by stage_mem) (by unfold val_main_call2_v2; rfl) (by decide) (fun V h => ?_)
  refine ends_binary h (val_main_call2_v3 (F := F)) (by stage_mem) (by stage_mem) (by unfold val_main_call2_v3; rfl) (by decide) (fun V h => ?_)
  refine ends_ternary h (val_main_call2_v4 (F := F)) (by stage_mem) (by stage_mem) (by stage_mem) (by unfold val_main_call2_v4; rfl) (by decide) (fun V h => ?_)
  refine ends_nullary h (val_main_call2_c_1 (F := F)) (by unfold val_main_call2_c_1; rfl) (by decide) (fun V h => ?_)
  refine ends_nullary h (val_main_call2_c_2 (F := F)) (by unfold val_main_call2_c_2; rfl) (by decide) (fun V h => ?_)
  refine ends_unary h (val_main_call2_v5 (F := F)) (by stage_mem) (by unfold val_main_call2_v5; rfl) (by decide) (fun V h => ?_)
  refine ends_binary h (val_main_call2_v6 (F := F)) (by stage_mem) (by stage_mem) (by unfold val_main_call2_v6; rfl) (by decide) (fun V h => ?_)
  refine ends_unary h (val_main_call2_v7 (F := F)) (by stage_mem) (by unfold val_main_call2_v7; rfl) (by decide) (fun V h => ?_)
  refine ends_unary h (val_main_call2_v8 (F := F)) (by stage_mem) (by unfold val_main_call2_v8; rfl) (by decide) (fun V h => ?_)
  refine ends_binary h (val_main_call2_v9 (F := F)) (by stage_mem) (by stage_mem) (by unfold val_main_call2_v9; rfl) (by decide) (fun V h => ?_)
  refine ends_binary h (val_main_call2_v10 (F := F)) (by stage_mem) (by stage_mem) (by unfold val_main_call2_v10; rfl) (by decide) (fun V h => ?_)
  refine ends_nullary h (val_main_call2_c_3 (F := F)) (by unfold val_main_call2_c_3; rfl) (by decide) (fun V h => ?_)
  refine ends_binary h (val_main_call2_v11 (F := F)) (by stage_mem) (by stage_mem) (by unfold val_main_call2_v11; simp only [TRef.toBuf, TRef.ofBuf, cast_eq]) (by decide) (fun V h => ?_)
  refine ends_binary h (val_main_call2_v12 (F := F) x0) (by stage_mem) (by stage_mem) (by unfold val_main_call2_v12; rfl) (by decide) (fun V h => ?_)
  refine ends_unary h (val_main_call2_v13 (F := F)) (by stage_mem) (by unfold val_main_call2_v13; rfl) (by decide) (fun V h => ?_)
  refine ends_nullary h (val_main_call2_cst (F := F)) (by unfold val_main_call2_cst; rfl) (by decide) (fun V h => ?_)
  refine ends_unary h (val_main_call2_v14 (F := F)) (by stage_mem) (by unfold val_main_call2_v14; rfl) (by decide) (fun V h => ?_)
  refine ends_ternary h (val_main_v33 (F := F) x0) (by stage_mem) (by stage_mem) (by stage_mem) (by unfold val_main_v33; rfl) (by decide) (fun V h => ?_)
  exact ends_nil ⟨h.read main_v31 _ (by stage_mem), h.read main_v33 _ (by stage_mem),
    h.read main_v25 _ (by stage_mem), h.read main_arg0 _ (by stage_mem)⟩

/-- On every device, for any float values, from any memory with zero counters: every weakly fair execution of the
    program terminates with each result at its stage of the input and the input unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = val_main_v31 (F := F) (m ((c.tc : Thread nD τ).loc main_arg0))
      ∧ r.2.mem ((c.tc : Thread nD τ).loc main_v33) = val_main_v33 (F := F) (m ((c.tc : Thread nD τ).loc main_arg0))
      ∧ r.2.mem ((c.tc : Thread nD τ).loc main_v25) = val_main_v25 (F := F)
      ∧ r.2.mem ((c.tc : Thread nD τ).loc main_arg0) = m ((c.tc : Thread nD τ).loc main_arg0) :=
  (θ_run defs _ _).mono (fun _ h c =>
    have hs := stages (F := F) (launchContents m c) (m ((c.tc : Thread nD τ).loc main_arg0)) rfl
    ⟨(h c main_v31).trans hs.1, (h c main_v33).trans hs.2.1, (h c main_v25).trans hs.2.2.1,
      (h c main_arg0).trans hs.2.2.2⟩)
    (run_seq Cert.ReferenceIdeal.ValueQ.scopedRefs_eq Cert.ReferenceIdeal.ValueQ.scopedSems_eq defs main
      (fun _ => Cert.ReferenceIdeal.ValueQ.ops) Cert.ReferenceIdeal.ValueQ.main_eq
      (fun _ => Cert.ReferenceIdeal.ValueQ.ops_sub) m ρ)

end Cert.ReferenceIdeal.ValueB
-- ==== Proof.RefRunSpec.lean ====
import proofs.«216793_g32547262169289_cont_8to1_b_717_18_alg».proof.Proof.RefValue
import proofs.«216793_g32547262169289_cont_8to1_b_717_18_alg».proof.Proof.RefRunB

/-
  The reference program's run, stated at the specification's functions: on every device every execution ends with
  the visible part, the masked part and the mask at the specification's values of the input, and the input unchanged.
-/

noncomputable section

namespace Cert.RefValue

open Cert.ReferenceIdeal Idealize.ShloMosaic Idealize.ShloMosaic.TcCoe Idealize.SL.Sem Idealize.ShloMosaic.StableHlo

variable {F : FTy → Type} [FloatOps F]

/-- Every execution of the reference program ends with its three results at the specification's functions of the
    input, and leaves the input as it was. -/
theorem ref_run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v31)
          = (fun i => m ((c.tc : Thread _ _).loc Cert.ReferenceIdeal.main_arg0) (Cert.Spec.visIdx i))
      ∧ r.2.mem ((c.tc : Thread _ _).loc Cert.ReferenceIdeal.main_v33)
          = (fun i => m ((c.tc : Thread _ _).loc Cert.ReferenceIdeal.main_arg0) (Cert.Spec.mskIdx i))
      ∧ r.2.mem ((c.tc : Thread _ _).loc Cert.ReferenceIdeal.main_v25) = (fun i => Cert.Spec.maskBit i)
      ∧ r.2.mem ((c.tc : Thread _ _).loc Cert.ReferenceIdeal.main_arg0)
          = m ((c.tc : Thread _ _).loc Cert.ReferenceIdeal.main_arg0)) :=
  (θ_run _ _ _).mono (fun _ h c =>
    ⟨(h c).1.trans (funext fun i => ref_visible _ i),
     (h c).2.1.trans (funext fun i => ref_masked _ i),
     (h c).2.2.1.trans (funext fun i => ref_mask (F := F) i),
     (h c).2.2.2⟩)
    (Cert.ReferenceIdeal.ValueB.run_stages m ρ)

end Cert.RefValue
-- ==== Proof.lean ====
/-
  The claim: the kernel and the reference compute the same three arrays from the input x of shape [4, 4096, 2048].

  Both split the time axis at t = 3072: visible[b, t, f] = x[b, t, f] for t < 3072, masked[b, t, f] = x[b, 3072 + t, f]
  for t < 1024, and mask[b, t] = (3072 ≤ t). No arithmetic on the floats is involved, so nothing depends on the inputs
  being finite and the precondition is never opened.

  The kernel moves the visible part through a TensorCore pipeline (which also writes the mask, as 32-bit words that the
  host then compares against zero) and the masked part through thirty-two SparseCore vector subcores, each copying 128
  rows in eight chunks through three staging buffers; its run is the SparseCore launch theorem applied to the subcores'
  body, the pipeline's region and the host operations (the modules KSetup … KLaunch for the idealized program, KBSetup …
  KBLaunch for the word-level one). The reference builds the mask by a scatter, sorts it stably (the identity permutation: the keys 0…0 1…1 are
  already ordered) and gathers the input at the sorted positions; its run is read one operation at a time (RefValue,
  RefRunSpec). The two agree because both results are the same index maps of the input (Spec).
-/
import proofs.«216793_g32547262169289_cont_8to1_b_717_18_alg».proof.Defs
import proofs.«216793_g32547262169289_cont_8to1_b_717_18_alg».proof.Proof.Gen.Kernel
import proofs.«216793_g32547262169289_cont_8to1_b_717_18_alg».proof.Proof.Gen.Kernel.Skeleton
import proofs.«216793_g32547262169289_cont_8to1_b_717_18_alg».proof.Proof.Gen.Kernel.Launch
import proofs.«216793_g32547262169289_cont_8to1_b_717_18_alg».proof.Proof.Gen.Kernel.Points
import proofs.«216793_g32547262169289_cont_8to1_b_717_18_alg».proof.Proof.Gen.KernelIdeal
import proofs.«216793_g32547262169289_cont_8to1_b_717_18_alg».proof.Proof.Gen.KernelIdeal.Skeleton
import proofs.«216793_g32547262169289_cont_8to1_b_717_18_alg».proof.Proof.Gen.KernelIdeal.Launch
import proofs.«216793_g32547262169289_cont_8to1_b_717_18_alg».proof.Proof.Gen.KernelIdeal.Points
import proofs.«216793_g32547262169289_cont_8to1_b_717_18_alg».proof.Proof.Gen.ReferenceIdeal
import proofs.«216793_g32547262169289_cont_8to1_b_717_18_alg».proof.Proof.Gen.Pre_finite_inputs
import proofs.«216793_g32547262169289_cont_8to1_b_717_18_alg».proof.Proof.KLaunch
import proofs.«216793_g32547262169289_cont_8to1_b_717_18_alg».proof.Proof.KBLaunch
import proofs.«216793_g32547262169289_cont_8to1_b_717_18_alg».proof.Proof.RefRunSpec
import Idealize.ShloMosaic.Adequacy
import Idealize.ShloMosaic.Init

noncomputable section

namespace Cert.Proof

open Idealize.ShloMosaic Idealize.SL.Sem

/-- The word-level kernel runs to the end, faults nowhere and leaves the input unchanged. -/
theorem frame_k : Cert.frame_Kernel := fun m ρ _ =>
  (θ_run Cert.Kernel.defs _ _).mono (fun _ h c => (h c).2.2.2) (Cert.Kernel.Hand.run_main (F := Bits) m ρ)

/-- So does the idealized kernel. -/
theorem frame_ki : Cert.frame_KernelIdeal := fun m ρ _ =>
  (θ_run Cert.KernelIdeal.defs _ _).mono (fun _ h c => (h c).2.2.2) (Cert.KernelIdeal.Hand.run_main (F := Ideal) m ρ)

/-- And the reference. -/
theorem frame_ri : Cert.frame_ReferenceIdeal := fun m ρ _ =>
  (θ_run Cert.ReferenceIdeal.defs _ _).mono (fun _ h c => (h c).2.2.2) (Cert.RefValue.ref_run (F := Ideal) m ρ)

/-- The ideal pass rewrote nothing: there is nothing to preserve. -/
theorem preserves : Cert.preserves_Kernel_KernelIdeal := trivial

/-- From memories agreeing on the input both programs end with the visible part, the masked part and the mask at the
    same functions of the input. -/
theorem algebraic : Cert.algebraic_KernelIdeal_ReferenceIdeal := by
  intro m ρ m' ρ' _ hagree
  refine ⟨fun c => Cert.KernelIdeal.Hand.visOf (m (Cert.KernelIdeal.Hand.xLoc c)),
    fun c => Cert.KernelIdeal.Hand.outOf (m (Cert.KernelIdeal.Hand.xLoc c)),
    fun _ => fun i => Cert.Spec.maskBit i, ?_, ?_⟩
  · exact (θ_run Cert.KernelIdeal.defs _ _).mono (fun _ h c => h c) (Cert.KernelIdeal.Hand.run_main (F := Ideal) m ρ)
  · refine (θ_run Cert.ReferenceIdeal.defs _ _).mono (fun _ h c => ⟨(h c).1.trans ?_, (h c).2.1.trans ?_, (h c).2.2.1, (h c).2.2.2⟩)
      (Cert.RefValue.ref_run (F := Ideal) m' ρ')
    · rw [hagree c]; rfl
    · rw [hagree c]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
